-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S100000x3 : Shape := ⟨2, ![100000, 3]⟩
abbrev S2x2000000 : Shape := ⟨2, ![2, 2000000]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S19x64 : Shape := ⟨2, ![19, 64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S19x64 : S_.BroadcastsInDim S19x64 (![] : Fin 0 → Fin S19x64.rank)
  reducesTo_S19x64_S_d0_1 : S19x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  main_v138

def fn_part7 {F : FTy → Type} [FloatOps F] (main_arg26 : FVec F S64 .f32) (main_arg27 : FVec F S64x1 .f32) (main_arg28 : FVec F S1 .f32) (main_v118 : IVec S_ 1) (main_v119 : FVec F S64x64 .f32) : IVec S_ 1 :=
  let main_cst_46 : FVec F S_ .f32 := constant S_ .f32 0x7F800000#32
  let main_v120 : FVec F S64x64 .f32 := broadcastInDim S64x64 ![] bcast_S_S64x64 main_cst_46
  let main_v121 : IVec S64x64 1 := cmpf .olt main_v119 main_v120
  let main_c_47 : IVec S_ 1 := constantI S_ 1 1#1
  let main_v122 : IVec S_ 1 := (fun x v => Host.reduce IntOp.andi x v reducesTo_S64x64_S_d0_1 h_S_) main_v121 main_c_47
  let main_v123 : IVec S_ 1 := andi main_v118 main_v122
  let main_v124 : FVec F S64 .f32 := Host.absf main_arg26
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x1 .f32 := Host.absf main_arg27
  let main_cst_50 : FVec F S_ .f32 := constant S_ .f32 0x7F800000#32
  let main_v130 : FVec F S64x1 .f32 := broadcastInDim S64x1 ![] bcast_S_S64x1 main_cst_50
  let main_v131 : IVec S64x1 1 := cmpf .olt main_v129 main_v130
  let main_c_51 : IVec S_ 1 := constantI S_ 1 1#1
  let main_v132 : IVec S_ 1 := (fun x v => Host.reduce IntOp.andi x v reducesTo_S64x1_S_d0_1 h_S_) main_v131 main_c_51
  let main_v133 : IVec S_ 1 := andi main_v128 main_v132
  let main_v134 : FVec F S1 .f32 := Host.absf main_arg28
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_v133 main_v136

def fn_part6 {F : FTy → Type} [FloatOps F] (main_arg22 : FVec F S16 .f32) (main_arg23 : FVec F S19x64 .f32) (main_arg24 : FVec F S64 .f32) (main_arg25 : FVec F S64x64 .f32) (main_arg26 : FVec F S64 .f32) (main_arg27 : FVec F S64x1 .f32) (main_arg28 : FVec F S1 .f32) (main_v98 : IVec S_ 1) (main_v101 : IVec S32x16 1) (main_c_39 : IVec S_ 1) : IVec S_ 1 :=
  let main_v102 : IVec S_ 1 := (fun x v => Host.reduce IntOp.andi x v reducesTo_S32x16_S_d0_1 h_S_) main_v101 main_c_39
  let main_v103 : IVec S_ 1 := andi main_v98 main_v102
  let main_v104 : FVec F S16 .f32 := Host.absf main_arg22
  let main_cst_40 : FVec F S_ .f32 := constant S_ .f32 0x7F800000#32
  let main_v105 : FVec F S16 .f32 := broadcastInDim S16 ![] bcast_S_S16 main_cst_40
  let main_v106 : IVec S16 1 := cmpf .olt main_v104 main_v105
  let main_c_41 : IVec S_ 1 := constantI S_ 1 1#1
  let main_v107 : IVec S_ 1 := (fun x v => Host.reduce IntOp.andi x v reducesTo_S16_S_d0 h_S_) main_v106 main_c_41
  let main_v108 : IVec S_ 1 := andi main_v103 main_v107
  let main_v109 : FVec F S19x64 .f32 := Host.absf main_arg23
  let main_cst_42 : FVec F S_ .f32 := constant S_ .f32 0x7F800000#32
  let main_v110 : FVec F S19x64 .f32 := broadcastInDim S19x64 ![] bcast_S_S19x64 main_cst_42
  let main_v111 : IVec S19x64 1 := cmpf .olt main_v109 main_v110
  let main_c_43 : IVec S_ 1 := constantI S_ 1 1#1
  let main_v112 : IVec S_ 1 := (fun x v => Host.reduce IntOp.andi x v reducesTo_S19x64_S_d0_1 h_S_) main_v111 main_c_43
  let main_v113 : IVec S_ 1 := andi main_v108 main_v112
  let main_v114 : FVec F S64 .f32 := Host.absf main_arg24
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x64 .f32 := Host.absf main_arg25
  fn_part7 (F := F) main_arg26 main_arg27 main_arg28 main_v118 main_v119

def fn_part5 {F : FTy → Type} [FloatOps F] (main_arg19 : FVec F S64x32 .f32) (main_arg20 : FVec F S32 .f32) (main_arg21 : FVec F S32x16 .f32) (main_arg22 : FVec F S16 .f32) (main_arg23 : FVec F S19x64 .f32) (main_arg24 : FVec F S64 .f32) (main_arg25 : FVec F S64x64 .f32) (main_arg26 : FVec F S64 .f32) (main_arg27 : FVec F S64x1 .f32) (main_arg28 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x32 .f32 := Host.absf main_arg19
  let main_cst_34 : FVec F S_ .f32 := constant S_ .f32 0x7F800000#32
  let main_v90 : FVec F S64x32 .f32 := broadcastInDim S64x32 ![] bcast_S_S64x32 main_cst_34
  let main_v91 : IVec S64x32 1 := cmpf .olt main_v89 main_v90
  let main_c_35 : IVec S_ 1 := constantI S_ 1 1#1
  let main_v92 : IVec S_ 1 := (fun x v => Host.reduce IntOp.andi x v reducesTo_S64x32_S_d0_1 h_S_) main_v91 main_c_35
  let main_v93 : IVec S_ 1 := andi main_v88 main_v92
  let main_v94 : FVec F S32 .f32 := Host.absf main_arg20
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x16 .f32 := Host.absf main_arg21
  let main_cst_38 : FVec F S_ .f32 := constant S_ .f32 0x7F800000#32
  let main_v100 : FVec F S32x16 .f32 := broadcastInDim S32x16 ![] bcast_S_S32x16 main_cst_38
  let main_v101 : IVec S32x16 1 := cmpf .olt main_v99 main_v100
  let main_c_39 : IVec S_ 1 := constantI S_ 1 1#1
  fn_part6 (F := F) main_arg22 main_arg23 main_arg24 main_arg25 main_arg26 main_arg27 main_arg28 main_v98 main_v101 main_c_39

def fn_part4 {F : FTy → Type} [FloatOps F] (main_arg15 : FVec F S128x128 .f32) (main_arg16 : FVec F S128 .f32) (main_arg17 : FVec F S128x64 .f32) (main_arg18 : FVec F S64 .f32) (main_arg19 : FVec F S64x32 .f32) (main_arg20 : FVec F S32 .f32) (main_arg21 : FVec F S32x16 .f32) (main_arg22 : FVec F S16 .f32) (main_arg23 : FVec F S19x64 .f32) (main_arg24 : FVec F S64 .f32) (main_arg25 : FVec F S64x64 .f32) (main_arg26 : FVec F S64 .f32) (main_arg27 : FVec F S64x1 .f32) (main_arg28 : FVec F S1 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_v83 main_v84 main_cst_32

def fn_part3 {F : FTy → Type} [FloatOps F] (main_arg12 : FVec F S128 .f32) (main_arg13 : FVec F S128 .f32) (main_arg14 : FVec F S128 .f32) (main_arg15 : FVec F S128x128 .f32) (main_arg16 : FVec F S128 .f32) (main_arg17 : FVec F S128x64 .f32) (main_arg18 : FVec F S64 .f32) (main_arg19 : FVec F S64x32 .f32) (main_arg20 : FVec F S32 .f32) (main_arg21 : FVec F S32x16 .f32) (main_arg22 : FVec F S16 .f32) (main_arg23 : FVec F S19x64 .f32) (main_arg24 : FVec F S64 .f32) (main_arg25 : FVec F S64x64 .f32) (main_arg26 : FVec F S64 .f32) (main_arg27 : FVec F S64x1 .f32) (main_arg28 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_arg25 main_arg26 main_arg27 main_arg28 main_v63 main_v67

def fn_part2 {F : FTy → Type} [FloatOps F] (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x64 .f32) (main_arg18 : FVec F S64 .f32) (main_arg19 : FVec F S64x32 .f32) (main_arg20 : FVec F S32 .f32) (main_arg21 : FVec F S32x16 .f32) (main_arg22 : FVec F S16 .f32) (main_arg23 : FVec F S19x64 .f32) (main_arg24 : FVec F S64 .f32) (main_arg25 : FVec F S64x64 .f32) (main_arg26 : FVec F S64 .f32) (main_arg27 : FVec F S64x1 .f32) (main_arg28 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x64 .f32) (main_arg18 : FVec F S64 .f32) (main_arg19 : FVec F S64x32 .f32) (main_arg20 : FVec F S32 .f32) (main_arg21 : FVec F S32x16 .f32) (main_arg22 : FVec F S16 .f32) (main_arg23 : FVec F S19x64 .f32) (main_arg24 : FVec F S64 .f32) (main_arg25 : FVec F S64x64 .f32) (main_arg26 : FVec F S64 .f32) (main_arg27 : FVec F S64x1 .f32) (main_arg28 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100000x2 .f32) (main_arg1 : FVec F S100000x3 .f32) (main_arg2 : IVec S2x2000000 32) (main_arg3 : FVec F S2x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x64 .f32) (main_arg18 : FVec F S64 .f32) (main_arg19 : FVec F S64x32 .f32) (main_arg20 : FVec F S32 .f32) (main_arg21 : FVec F S32x16 .f32) (main_arg22 : FVec F S16 .f32) (main_arg23 : FVec F S19x64 .f32) (main_arg24 : FVec F S64 .f32) (main_arg25 : FVec F S64x64 .f32) (main_arg26 : FVec F S64 .f32) (main_arg27 : FVec F S64x1 .f32) (main_arg28 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x2 : Shape := ⟨2, ![100000, 2]⟩
abbrev S100000x3 : Shape := ⟨2, ![100000, 3]⟩
abbrev S2x2000000 : Shape := ⟨2, ![2, 2000000]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S19x64 : Shape := ⟨2, ![19, 64]⟩
abbrev S64x64 : Shape := ⟨2, ![64, 64]⟩
abbrev S64x1 : Shape := ⟨2, ![64, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S100000 : Shape := ⟨1, ![100000]⟩
abbrev S2000000x1 : Shape := ⟨2, ![2000000, 1]⟩
abbrev S100000x1 : Shape := ⟨2, ![100000, 1]⟩
abbrev S3x64 : Shape := ⟨2, ![3, 64]⟩
abbrev S16x64 : Shape := ⟨2, ![16, 64]⟩
abbrev S1x128 : Shape := ⟨2, ![1, 128]⟩
abbrev S1x64 : Shape := ⟨2, ![1, 64]⟩
abbrev S1x32 : Shape := ⟨2, ![1, 32]⟩
abbrev S1x16 : Shape := ⟨2, ![1, 16]⟩
abbrev S100000x64 : Shape := ⟨2, ![100000, 64]⟩
abbrev S2000x2 : Shape := ⟨2, ![2000, 2]⟩
abbrev S2000x3 : Shape := ⟨2, ![2000, 3]⟩
abbrev S2000x1 : Shape := ⟨2, ![2000, 1]⟩
abbrev S2000x64 : Shape := ⟨2, ![2000, 64]⟩
abbrev S2000x128 : Shape := ⟨2, ![2000, 128]⟩
abbrev S2000 : Shape := ⟨1, ![2000]⟩
abbrev S2000x32 : Shape := ⟨2, ![2000, 32]⟩
abbrev S2000x16 : Shape := ⟨2, ![2000, 16]⟩
abbrev S2000000x64 : Shape := ⟨2, ![2000000, 64]⟩
abbrev S1x1 : Shape := ⟨2, ![1, 1]⟩

abbrev nBuf : Space → Nat
  | .hbm => 97
  | .vmem => 47
  | .smem => 0
  | _ => 0

abbrev bufTy : (tb : Table) → Fin (tcTables nBuf tb) → BufTy
  | .hbm, ⟨0, _⟩ => ⟨S100000x2, .f32⟩
  | .hbm, ⟨1, _⟩ => ⟨S100000x3, .f32⟩
  | .hbm, ⟨2, _⟩ => ⟨S2x2000000, .i32⟩
  | .hbm, ⟨3, _⟩ => ⟨S2x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S64x32, .f32⟩
  | .hbm, ⟨20, _⟩ => ⟨S32, .f32⟩
  | .hbm, ⟨21, _⟩ => ⟨S32x16, .f32⟩
  | .hbm, ⟨22, _⟩ => ⟨S16, .f32⟩
  | .hbm, ⟨23, _⟩ => ⟨S19x64, .f32⟩
  | .hbm, ⟨24, _⟩ => ⟨S64, .f32⟩
  | .hbm, ⟨25, _⟩ => ⟨S64x64, .f32⟩
  | .hbm, ⟨26, _⟩ => ⟨S64, .f32⟩
  | .hbm, ⟨27, _⟩ => ⟨S64x1, .f32⟩
  | .hbm, ⟨28, _⟩ => ⟨S1, .f32⟩
  | .hbm, ⟨29, _⟩ => ⟨S1x2000000, .i32⟩
  | .hbm, ⟨30, _⟩ => ⟨S2000000, .i32⟩
  | .hbm, ⟨31, _⟩ => ⟨S1x2000000, .i32⟩
  | .hbm, ⟨32, _⟩ => ⟨S2000000, .i32⟩
  | .hbm, ⟨33, _⟩ => ⟨S_, .f32⟩
  | .hbm, ⟨34, _⟩ => ⟨S2000000, .f32⟩
  | .hbm, ⟨35, _⟩ => ⟨S_, .f32⟩
  | .hbm, ⟨36, _⟩ => ⟨S100000, .f32⟩
  | .hbm, ⟨37, _⟩ => ⟨S2000000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S3x64, .f32⟩
  | .hbm, ⟨45, _⟩ => ⟨S16x64, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x64, .f32⟩
  | .hbm, ⟨57, _⟩ => ⟨S1x32, .f32⟩
  | .hbm, ⟨58, _⟩ => ⟨S1x16, .f32⟩
  | .hbm, ⟨59, _⟩ => ⟨S100000x64, .bf16⟩
  | .hbm, ⟨60, _⟩ => ⟨S_, .i32⟩
  | .hbm, ⟨61, _⟩ => ⟨S2000000, .i32⟩
  | .hbm, ⟨62, _⟩ => ⟨S2000000, .i1⟩
  | .hbm, ⟨63, _⟩ => ⟨S_, .i32⟩
  | .hbm, ⟨64, _⟩ => ⟨S2000000, .i32⟩
  | .hbm, ⟨65, _⟩ => ⟨S2000000, .i32⟩
  | .hbm, ⟨66, _⟩ => ⟨S2000000, .i32⟩
  | .hbm, ⟨67, _⟩ => ⟨S2000000x1, .i32⟩
  | .hbm, ⟨68, _⟩ => ⟨S2000000x64, .bf16⟩
  | .hbm, ⟨69, _⟩ => ⟨S2000000x64, .f32⟩
  | .hbm, ⟨70, _⟩ => ⟨S_, .f32⟩
  | .hbm, ⟨71, _⟩ => ⟨S100000x64, .f32⟩
  | .hbm, ⟨72, _⟩ => ⟨S2000000x1, .i32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .bf16⟩
  | .hbm, ⟨78, _⟩ => ⟨S_, .i32⟩
  | .hbm, ⟨79, _⟩ => ⟨S2000000, .i32⟩
  | .hbm, ⟨80, _⟩ => ⟨S2000000, .i1⟩
  | .hbm, ⟨81, _⟩ => ⟨S_, .i32⟩
  | .hbm, ⟨82, _⟩ => ⟨S2000000, .i32⟩
  | .hbm, ⟨83, _⟩ => ⟨S2000000, .i32⟩
  | .hbm, ⟨84, _⟩ => ⟨S2000000, .i32⟩
  | .hbm, ⟨85, _⟩ => ⟨S2000000x1, .i32⟩
  | .hbm, ⟨86, _⟩ => ⟨S2000000x64, .bf16⟩
  | .hbm, ⟨87, _⟩ => ⟨S2000000x64, .f32⟩
  | .hbm, ⟨88, _⟩ => ⟨S_, .f32⟩
  | .hbm, ⟨89, _⟩ => ⟨S100000x64, .f32⟩
  | .hbm, ⟨90, _⟩ => ⟨S2000000x1, .i32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S1x64, .f32⟩
  | .hbm, ⟨95, _⟩ => ⟨S1x1, .f32⟩
  | .hbm, ⟨96, _⟩ => ⟨S100000x1, .f32⟩
  | .local _ .vmem, ⟨0, _⟩ => ⟨S2000x2, .f32⟩
  | .local _ .vmem, ⟨1, _⟩ => ⟨S2000x2, .f32⟩
  | .local _ .vmem, ⟨2, _⟩ => ⟨S2000x3, .f32⟩
  | .local _ .vmem, ⟨3, _⟩ => ⟨S2000x3, .f32⟩
  | .local _ .vmem, ⟨4, _⟩ => ⟨S2000x1, .f32⟩
  | .local _ .vmem, ⟨5, _⟩ => ⟨S2000x1, .f32⟩
  | .local _ .vmem, ⟨6, _⟩ => ⟨S2x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S64x32, .f32⟩
  | .local _ .vmem, ⟨23, _⟩ => ⟨S1x32, .f32⟩
  | .local _ .vmem, ⟨24, _⟩ => ⟨S32x16, .f32⟩
  | .local _ .vmem, ⟨25, _⟩ => ⟨S1x16, .f32⟩
  | .local _ .vmem, ⟨26, _⟩ => ⟨S3x64, .f32⟩
  | .local _ .vmem, ⟨27, _⟩ => ⟨S16x64, .f32⟩
  | .local _ .vmem, ⟨28, _⟩ => ⟨S2000x64, .bf16⟩
  | .local _ .vmem, ⟨29, _⟩ => ⟨S2000x64, .bf16⟩
  | .local _ .vmem, ⟨30, _⟩ => ⟨S2000x64, .f32⟩
  | .local _ .vmem, ⟨31, _⟩ => ⟨S2000x64, .f32⟩
  | .local _ .vmem, ⟨32, _⟩ => ⟨S2000x1, .f32⟩
  | .local _ .vmem, ⟨33, _⟩ => ⟨S2000x1, .f32⟩
  | .local _ .vmem, ⟨34, _⟩ => ⟨S1x64, .f32⟩
  | .local _ .vmem, ⟨35, _⟩ => ⟨S64x64, .f32⟩
  | .local _ .vmem, ⟨36, _⟩ => ⟨S2000x64, .bf16⟩
  | .local _ .vmem, ⟨37, _⟩ => ⟨S2000x64, .bf16⟩
  | .local _ .vmem, ⟨38, _⟩ => ⟨S2000x64, .f32⟩
  | .local _ .vmem, ⟨39, _⟩ => ⟨S2000x64, .f32⟩
  | .local _ .vmem, ⟨40, _⟩ => ⟨S2000x1, .f32⟩
  | .local _ .vmem, ⟨41, _⟩ => ⟨S2000x1, .f32⟩
  | .local _ .vmem, ⟨42, _⟩ => ⟨S1x64, .f32⟩
  | .local _ .vmem, ⟨43, _⟩ => ⟨S64x1, .f32⟩
  | .local _ .vmem, ⟨44, _⟩ => ⟨S1x1, .f32⟩
  | .local _ .vmem, ⟨45, _⟩ => ⟨S2000x1, .f32⟩
  | .local _ .vmem, ⟨46, _⟩ => ⟨S2000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c : Ref sig .tc := ⟨.hbm, 60, rfl⟩
abbrev main_v28 : Ref sig .tc := ⟨.hbm, 61, rfl⟩
abbrev main_v29 : Ref sig .tc := ⟨.hbm, 62, rfl⟩
abbrev main_c_2 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_3 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_4 : Ref sig .tc := ⟨.hbm, 78, rfl⟩
abbrev main_v43 : Ref sig .tc := ⟨.hbm, 79, rfl⟩
abbrev main_v44 : Ref sig .tc := ⟨.hbm, 80, rfl⟩
abbrev main_c_5 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_6 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg25_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg3_0 : Ref sig .tc := ⟨.vmem, 35, rfl⟩
abbrev cc1_stg4_0 : Ref sig .tc := ⟨.vmem, 36, rfl⟩
abbrev cc1_stg4_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg5_0 : Ref sig .tc := ⟨.vmem, 45, rfl⟩
abbrev cc2_stg5_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem25_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem3_0 : DmaSem sig := 35
abbrev cc1_sem4_0 : DmaSem sig := 36
abbrev cc1_sem4_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem3_0 : DmaSem sig := 43
abbrev cc2_sem4_0 : DmaSem sig := 44
abbrev cc2_sem5_0 : DmaSem sig := 45
abbrev cc2_sem5_1 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x16 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S3x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S16x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S2000x64 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  shapeCasts_S100000_S100000x1 : S100000.ShapeCasts S100000x1
  slices_S19x64_S3x64_0_0 : S19x64.Slices ![0, 0] S3x64
  slices_S19x64_S16x64_3_0 : S19x64.Slices ![3, 0] S16x64
  shapeCasts_S128_S1x128 : S128.ShapeCasts S1x128
  shapeCasts_S64_S1x64 : S64.ShapeCasts S1x64
  shapeCasts_S32_S1x32 : S32.ShapeCasts S1x32
  shapeCasts_S16_S1x16 : S16.ShapeCasts S1x16
  inb_S2000x2_S2000x2_0_0 : ∀ a, (![0, 0] : Fin 2 → Nat) a + S2000x2.size a ≤ S2000x2.size a
  h_S2000x2 : 0 < S2000x2.numel
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x3_S2000x3_0_0 : ∀ a, (![0, 0] : Fin 2 → Nat) a + S2000x3.size a ≤ S2000x3.size a
  h_S2000x3 : 0 < S2000x3.numel
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S100000x64 : S_.BroadcastsInDim S100000x64 (![] : Fin 0 → Fin S100000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S100000_S2000000x1_S2000000_n_0_0_1_wf : ScatterDims.WF S100000 S2000000x1 S2000000 [] [0] [0] 1
  dot_S2000x2_S2x128_S2000x128_1_0_0_1_n_n_wf : DotDims.WF S2000x2 S2x128 S2000x128 [1] [0] [0] [1] [] []
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S2000x64_S64x32_S2000x32_1_0_0_1_n_n_wf : DotDims.WF S2000x64 S64x32 S2000x32 [1] [0] [0] [1] [] []
  dot_S2000x32_S32x16_S2000x16_1_0_0_1_n_n_wf : DotDims.WF S2000x32 S32x16 S2000x16 [1] [0] [0] [1] [] []
  dot_S2000x3_S3x64_S2000x64_1_0_0_1_n_n_wf : DotDims.WF S2000x3 S3x64 S2000x64 [1] [0] [0] [1] [] []
  dot_S2000x16_S16x64_S2000x64_1_0_0_1_n_n_wf : DotDims.WF S2000x16 S16x64 S2000x64 [1] [0] [0] [1] [] []
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S100000x2.size a
  hwx0_0 : ∀ i : grid0.Coords, EltTy.bits .f32 = 32 ∨ (Rect.block (s := S100000x2) S2000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S100000x3.size a
  hwx0_1 : ∀ i : grid0.Coords, EltTy.bits .f32 = 32 ∨ (Rect.block (s := S100000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x64.size a ≤ S128x64.size a
  hwx0_17 : ∀ i : grid0.Coords, EltTy.bits .f32 = 32 ∨ (Rect.block (s := S128x64) S128x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x32.size a ≤ S64x32.size a
  hwx0_19 : ∀ i : grid0.Coords, EltTy.bits .f32 = 32 ∨ (Rect.block (s := S64x32) S64x32.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x32.size a ≤ S1x32.size a
  hwx0_20 : ∀ i : grid0.Coords, EltTy.bits .f32 = 32 ∨ (Rect.block (s := S1x32) S1x32.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S32x16.size a ≤ S32x16.size a
  hwx0_21 : ∀ i : grid0.Coords, EltTy.bits .f32 = 32 ∨ (Rect.block (s := S32x16) S32x16.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x16.size a ≤ S1x16.size a
  hwx0_22 : ∀ i : grid0.Coords, EltTy.bits .f32 = 32 ∨ (Rect.block (s := S1x16) S1x16.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S3x64.size a ≤ S3x64.size a
  hwx0_23 : ∀ i : grid0.Coords, EltTy.bits .f32 = 32 ∨ (Rect.block (s := S3x64) S3x64.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S16x64.size a ≤ S16x64.size a
  hwx0_24 : ∀ i : grid0.Coords, EltTy.bits .f32 = 32 ∨ (Rect.block (s := S16x64) S16x64.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S2000x64.size a ≤ S100000x64.size a
  hwx0_25 : ∀ i : grid0.Coords, EltTy.bits .bf16 = 32 ∨ (Rect.block (s := S100000x64) S2000x64.size (cc0_transform_25 i) (hinb0_25 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .bf16 = 32 ∨ (Rect.block (s := S100000x64) S2000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S100000x1.size a
  hwx2_5 : ∀ i : grid2.Coords, EltTy.bits .f32 = 32 ∨ (Rect.block (s := S100000x1) S2000x1.size (cc2_transform_5 i) (hinb2_5 i)).WholeWords (EltTy.packing .f32)

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S2000x2_S2x128_S2000x128_1_0_0_1_n_n : DotDims S2000x2 S2x128 S2000x128 where
  lhsContracting := [1]
  rhsContracting := [0]
  lhsNonContracting := [0]
  rhsNonContracting := [1]
  lhsBatch := []
  rhsBatch := []
  wf := dot_S2000x2_S2x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def dot_S2000x3_S3x64_S2000x64_1_0_0_1_n_n : DotDims S2000x3 S3x64 S2000x64 where
  lhsContracting := [1]
  rhsContracting := [0]
  lhsNonContracting := [0]
  rhsNonContracting := [1]
  lhsBatch := []
  rhsBatch := []
  wf := dot_S2000x3_S3x64_S2000x64_1_0_0_1_n_n_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v22) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v23) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v24) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S64x32.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v25) S1x32.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S32x16.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v26) S1x16.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v12) S3x64.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v13) S16x64.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v27) S2000x64.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

abbrev win1_0 : Pipeline.Window sig grid1 :=
  Pipeline.Window.ofSpec (Memref.whole main_v40) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg25) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v55) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg27) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S2000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x2 : Shape := ⟨2, ![100000, 2]⟩
abbrev S100000x3 : Shape := ⟨2, ![100000, 3]⟩
abbrev S2x2000000 : Shape := ⟨2, ![2, 2000000]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S19x64 : Shape := ⟨2, ![19, 64]⟩
abbrev S64x64 : Shape := ⟨2, ![64, 64]⟩
abbrev S64x1 : Shape := ⟨2, ![64, 1]⟩
abbrev S1 : Shape := ⟨1, ![1]⟩
abbrev S100000x128 : Shape := ⟨2, ![100000, 128]⟩
abbrev S1x128 : Shape := ⟨2, ![1, 128]⟩
abbrev S_ : Shape := ⟨0, ![]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S100000x32 : Shape := ⟨2, ![100000, 32]⟩
abbrev S1x32 : Shape := ⟨2, ![1, 32]⟩
abbrev S100000x16 : Shape := ⟨2, ![100000, 16]⟩
abbrev S1x16 : Shape := ⟨2, ![1, 16]⟩
abbrev S100000x19 : Shape := ⟨2, ![100000, 19]⟩
abbrev S1x2000000 : Shape := ⟨2, ![1, 2000000]⟩
abbrev S2000000 : Shape := ⟨1, ![2000000]⟩
abbrev S2000000x1 : Shape := ⟨2, ![2000000, 1]⟩
abbrev S2000000x64 : Shape := ⟨2, ![2000000, 64]⟩
abbrev S1x1 : Shape := ⟨2, ![1, 1]⟩

abbrev nBuf : Space → Nat
  | .hbm => 278
  | .vmem => 0
  | .smem => 0
  | _ => 0

abbrev hbmTy0_0 (i : Nat) : BufTy := match i % 128 with
  | 0 => ⟨S100000x2, .f32⟩
  | 1 => ⟨S100000x3, .f32⟩
  | 2 => ⟨S2x2000000, .i32⟩
  | 3 => ⟨S2x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128x64, .f32⟩
  | 18 => ⟨S64, .f32⟩
  | 19 => ⟨S64x32, .f32⟩
  | 20 => ⟨S32, .f32⟩
  | 21 => ⟨S32x16, .f32⟩
  | 22 => ⟨S16, .f32⟩
  | 23 => ⟨S19x64, .f32⟩
  | 24 => ⟨S64, .f32⟩
  | 25 => ⟨S64x64, .f32⟩
  | 26 => ⟨S64, .f32⟩
  | 27 => ⟨S64x1, .f32⟩
  | 28 => ⟨S1, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S_, .f32⟩
  | 37 => ⟨S100000, .f32⟩
  | 38 => ⟨S100000x1, .f32⟩
  | 39 => ⟨S_, .f32⟩
  | 40 => ⟨S100000x1, .f32⟩
  | 41 => ⟨S100000x1, .f32⟩
  | 42 => ⟨S100000x128, .f32⟩
  | 43 => ⟨S100000x128, .f32⟩
  | 44 => ⟨S100000x128, .f32⟩
  | 45 => ⟨S_, .f32⟩
  | 46 => ⟨S100000, .f32⟩
  | 47 => ⟨S100000x1, .f32⟩
  | 48 => ⟨S_, .f32⟩
  | 49 => ⟨S100000x1, .f32⟩
  | 50 => ⟨S100000x1, .f32⟩
  | 51 => ⟨S100000x128, .f32⟩
  | 52 => ⟨S100000x128, .f32⟩
  | 53 => ⟨S_, .f32⟩
  | 54 => ⟨S100000x1, .f32⟩
  | 55 => ⟨S100000x1, .f32⟩
  | 56 => ⟨S100000x1, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x128, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S100000x128, .f32⟩
  | 88 => ⟨S100000x128, .f32⟩
  | 89 => ⟨S_, .f32⟩
  | 90 => ⟨S100000x1, .f32⟩
  | 91 => ⟨S100000x1, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S_, .f32⟩
  | 109 => ⟨S100000, .f32⟩
  | 110 => ⟨S100000x1, .f32⟩
  | 111 => ⟨S_, .f32⟩
  | 112 => ⟨S100000x1, .f32⟩
  | 113 => ⟨S100000x1, .f32⟩
  | 114 => ⟨S100000x128, .f32⟩
  | 115 => ⟨S100000x128, .f32⟩
  | 116 => ⟨S100000x128, .f32⟩
  | 117 => ⟨S_, .f32⟩
  | 118 => ⟨S100000, .f32⟩
  | 119 => ⟨S100000x1, .f32⟩
  | 120 => ⟨S_, .f32⟩
  | 121 => ⟨S100000x1, .f32⟩
  | 122 => ⟨S100000x1, .f32⟩
  | 123 => ⟨S100000x128, .f32⟩
  | 124 => ⟨S100000x128, .f32⟩
  | 125 => ⟨S_, .f32⟩
  | 126 => ⟨S100000x1, .f32⟩
  | 127 => ⟨S100000x1, .f32⟩
  | _ => ⟨S100000x2, .f32⟩

abbrev hbmTy0_1 (i : Nat) : BufTy := match i % 128 with
  | 0 => ⟨S100000x1, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x64, .f32⟩
  | 17 => ⟨S1x64, .f32⟩
  | 18 => ⟨S100000x64, .f32⟩
  | 19 => ⟨S100000x64, .f32⟩
  | 20 => ⟨S100000x64, .f32⟩
  | 21 => ⟨S100000x32, .f32⟩
  | 22 => ⟨S1x32, .f32⟩
  | 23 => ⟨S100000x32, .f32⟩
  | 24 => ⟨S100000x32, .f32⟩
  | 25 => ⟨S100000x32, .f32⟩
  | 26 => ⟨S100000x16, .f32⟩
  | 27 => ⟨S1x16, .f32⟩
  | 28 => ⟨S100000x16, .f32⟩
  | 29 => ⟨S100000x16, .f32⟩
  | 30 => ⟨S100000x19, .f32⟩
  | 31 => ⟨S1x2000000, .i32⟩
  | 32 => ⟨S2000000, .i32⟩
  | 33 => ⟨S1x2000000, .i32⟩
  | 34 => ⟨S2000000, .i32⟩
  | 35 => ⟨S100000x64, .f32⟩
  | 36 => ⟨S_, .f32⟩
  | 37 => ⟨S2000000, .f32⟩
  | 38 => ⟨S_, .f32⟩
  | 39 => ⟨S100000, .f32⟩
  | 40 => ⟨S2000000x1, .i32⟩
  | 41 => ⟨S100000, .f32⟩
  | 42 => ⟨S_, .f32⟩
  | 43 => ⟨S100000, .f32⟩
  | 44 => ⟨S100000, .f32⟩
  | 45 => ⟨S100000, .f32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S2000000x1, .i32⟩
  | 54 => ⟨S2000000, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000, .f32⟩
  | 64 => ⟨S2000000, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000x64, .f32⟩
  | 74 => ⟨S2000000x1, .f32⟩
  | 75 => ⟨S2000000x64, .f32⟩
  | 76 => ⟨S2000000x64, .f32⟩
  | 77 => ⟨S_, .f32⟩
  | 78 => ⟨S100000x64, .f32⟩
  | 79 => ⟨S2000000x1, .i32⟩
  | 80 => ⟨S100000x64, .f32⟩
  | 81 => ⟨S100000, .f32⟩
  | 82 => ⟨S100000x1, .f32⟩
  | 83 => ⟨S100000x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S_, .f32⟩
  | 94 => ⟨S2000000, .f32⟩
  | 95 => ⟨S_, .f32⟩
  | 96 => ⟨S100000, .f32⟩
  | 97 => ⟨S2000000x1, .i32⟩
  | 98 => ⟨S100000, .f32⟩
  | 99 => ⟨S_, .f32⟩
  | 100 => ⟨S100000, .f32⟩
  | 101 => ⟨S100000, .f32⟩
  | 102 => ⟨S100000, .f32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S2000000x1, .i32⟩
  | 111 => ⟨S2000000, .f32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000, .f32⟩
  | 121 => ⟨S2000000, .f32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S100000x2, .f32⟩

abbrev hbmTy0_2 (i : Nat) : BufTy := match i % 128 with
  | 0 => ⟨S2000000, .i32⟩
  | 1 => ⟨S2000000x1, .i32⟩
  | 2 => ⟨S2000000x64, .f32⟩
  | 3 => ⟨S2000000x1, .f32⟩
  | 4 => ⟨S2000000x64, .f32⟩
  | 5 => ⟨S2000000x64, .f32⟩
  | 6 => ⟨S_, .f32⟩
  | 7 => ⟨S100000x64, .f32⟩
  | 8 => ⟨S2000000x1, .i32⟩
  | 9 => ⟨S100000x64, .f32⟩
  | 10 => ⟨S100000, .f32⟩
  | 11 => ⟨S100000x1, .f32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S100000x1, .f32⟩
  | 19 => ⟨S1x1, .f32⟩
  | 20 => ⟨S100000x1, .f32⟩
  | 21 => ⟨S100000x1, .f32⟩
  | _ => ⟨S100000x2, .f32⟩

abbrev hbmTy (i : Nat) : BufTy := match i / 128 with
  | 0 => hbmTy0_0 i
  | 1 => hbmTy0_1 i
  | 2 => hbmTy0_2 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_call0_cst : Ref sig .tc := ⟨.hbm, 33, rfl⟩
abbrev main_call0_v0 : Ref sig .tc := ⟨.hbm, 34, rfl⟩
abbrev main_v4 : Ref sig .tc := ⟨.hbm, 35, rfl⟩
abbrev main_cst : Ref sig .tc := ⟨.hbm, 36, rfl⟩
abbrev main_v5 : Ref sig .tc := ⟨.hbm, 37, rfl⟩
abbrev main_v6 : Ref sig .tc := ⟨.hbm, 38, rfl⟩
abbrev main_cst_0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_1 : Ref sig .tc := ⟨.hbm, 45, rfl⟩
abbrev main_v12 : Ref sig .tc := ⟨.hbm, 46, rfl⟩
abbrev main_v13 : Ref sig .tc := ⟨.hbm, 47, rfl⟩
abbrev main_cst_2 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_3 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_call1_cst : Ref sig .tc := ⟨.hbm, 69, rfl⟩
abbrev main_call1_v0 : Ref sig .tc := ⟨.hbm, 70, rfl⟩
abbrev main_v33 : Ref sig .tc := ⟨.hbm, 71, rfl⟩
abbrev main_cst_4 : Ref sig .tc := ⟨.hbm, 72, rfl⟩
abbrev main_v34 : Ref sig .tc := ⟨.hbm, 73, rfl⟩
abbrev main_v35 : Ref sig .tc := ⟨.hbm, 74, rfl⟩
abbrev main_cst_5 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_6 : Ref sig .tc := ⟨.hbm, 81, rfl⟩
abbrev main_v41 : Ref sig .tc := ⟨.hbm, 82, rfl⟩
abbrev main_v42 : Ref sig .tc := ⟨.hbm, 83, rfl⟩
abbrev main_cst_7 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_8 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_call2_cst : Ref sig .tc := ⟨.hbm, 105, rfl⟩
abbrev main_call2_v0 : Ref sig .tc := ⟨.hbm, 106, rfl⟩
abbrev main_v62 : Ref sig .tc := ⟨.hbm, 107, rfl⟩
abbrev main_cst_9 : Ref sig .tc := ⟨.hbm, 108, rfl⟩
abbrev main_v63 : Ref sig .tc := ⟨.hbm, 109, rfl⟩
abbrev main_v64 : Ref sig .tc := ⟨.hbm, 110, rfl⟩
abbrev main_cst_10 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_11 : Ref sig .tc := ⟨.hbm, 117, rfl⟩
abbrev main_v70 : Ref sig .tc := ⟨.hbm, 118, rfl⟩
abbrev main_v71 : Ref sig .tc := ⟨.hbm, 119, rfl⟩
abbrev main_cst_12 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_13 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_call3_cst : Ref sig .tc := ⟨.hbm, 141, rfl⟩
abbrev main_call3_v0 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_14 : Ref sig .tc := ⟨.hbm, 164, rfl⟩
abbrev main_v112 : Ref sig .tc := ⟨.hbm, 165, rfl⟩
abbrev main_cst_15 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_16 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_c : Ref sig .tc := ⟨.hbm, 174, rfl⟩
abbrev main_v119 : Ref sig .tc := ⟨.hbm, 175, rfl⟩
abbrev main_v120 : Ref sig .tc := ⟨.hbm, 176, rfl⟩
abbrev main_c_17 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_c_18 : Ref sig .tc := ⟨.hbm, 183, rfl⟩
abbrev main_v126 : Ref sig .tc := ⟨.hbm, 184, rfl⟩
abbrev main_v127 : Ref sig .tc := ⟨.hbm, 185, rfl⟩
abbrev main_c_19 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_c_20 : Ref sig .tc := ⟨.hbm, 193, rfl⟩
abbrev main_v134 : Ref sig .tc := ⟨.hbm, 194, rfl⟩
abbrev main_v135 : Ref sig .tc := ⟨.hbm, 195, rfl⟩
abbrev main_c_21 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_cst_22 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_call4_cst : Ref sig .tc := ⟨.hbm, 217, rfl⟩
abbrev main_call4_v0 : Ref sig .tc := ⟨.hbm, 218, rfl⟩
abbrev main_v155 : Ref sig .tc := ⟨.hbm, 219, rfl⟩
abbrev main_v156 : Ref sig .tc := ⟨.hbm, 220, rfl⟩
abbrev main_cst_23 : Ref sig .tc := ⟨.hbm, 221, rfl⟩
abbrev main_v157 : Ref sig .tc := ⟨.hbm, 222, rfl⟩
abbrev main_cst_24 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_cst_25 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_c_26 : Ref sig .tc := ⟨.hbm, 231, rfl⟩
abbrev main_v164 : Ref sig .tc := ⟨.hbm, 232, rfl⟩
abbrev main_v165 : Ref sig .tc := ⟨.hbm, 233, rfl⟩
abbrev main_c_27 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_c_28 : Ref sig .tc := ⟨.hbm, 240, rfl⟩
abbrev main_v171 : Ref sig .tc := ⟨.hbm, 241, rfl⟩
abbrev main_v172 : Ref sig .tc := ⟨.hbm, 242, rfl⟩
abbrev main_c_29 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_c_30 : Ref sig .tc := ⟨.hbm, 250, rfl⟩
abbrev main_v179 : Ref sig .tc := ⟨.hbm, 251, rfl⟩
abbrev main_v180 : Ref sig .tc := ⟨.hbm, 252, rfl⟩
abbrev main_c_31 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_cst_32 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S100000x3_S100000x16_S100000x19_d1 : Shape.Concatenates [S100000x3, S100000x16] S100000x19 1
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x2_S2x128_S100000x128_1_0_0_1_n_n_wf : DotDims.WF S100000x2 S2x128 S100000x128 [1] [0] [0] [1] [] []
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  dot_S100000x32_S32x16_S100000x16_1_0_0_1_n_n_wf : DotDims.WF S100000x32 S32x16 S100000x16 [1] [0] [0] [1] [] []
  dot_S100000x19_S19x64_S100000x64_1_0_0_1_n_n_wf : DotDims.WF S100000x19 S19x64 S100000x64 [1] [0] [0] [1] [] []
  scatter_S100000_S2000000x1_S2000000_n_0_0_1_wf : ScatterDims.WF S100000 S2000000x1 S2000000 [] [0] [0] 1
  gather_S100000_S2000000x1_S2000000_n_0_n_n_0_1_1_wf : GatherDims.WF S100000 S2000000x1 S2000000 [] [0] [] [0] [] 1 ![1]
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x19_S19x64_S100000x64_1_0_0_1_n_n : DotDims S100000x19 S19x64 S100000x64 where
  lhsContracting := [1]
  rhsContracting := [0]
  lhsNonContracting := [0]
  rhsNonContracting := [1]
  lhsBatch := []
  rhsBatch := []
  wf := dot_S100000x19_S19x64_S100000x64_1_0_0_1_n_n_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KerRun.lean ====
/-
  The idealized kernel program's run, with every buffer it leaves named.

  The program is three tiled regions among stretches of host operations. From any launch memory every weakly fair
  execution terminates, and at the end each unscoped buffer of a core holds what the fold through the six segments
  leaves there: the launch contents pushed through the first host stretch, the first region's write-backs, the second
  stretch, and so on. The result array and the argument arrays are read off that final valuation.
-/
import proofs.«171494_j72095321031133_2_alg».proof.Proof.KernelIdealFrameP

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every unscoped buffer of every core at the fold's final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result array and the twenty-nine argument arrays after the run: the result at the fold's final contents, the
    arguments as launched. -/
theorem run_result : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨h c _ (mem_uc main_v58 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c),
     (h c _ (mem_uc main_arg17 (by decide))).trans (W6_main_arg17 m ρ c),
     (h c _ (mem_uc main_arg18 (by decide))).trans (W6_main_arg18 m ρ c),
     (h c _ (mem_uc main_arg19 (by decide))).trans (W6_main_arg19 m ρ c),
     (h c _ (mem_uc main_arg20 (by decide))).trans (W6_main_arg20 m ρ c),
     (h c _ (mem_uc main_arg21 (by decide))).trans (W6_main_arg21 m ρ c),
     (h c _ (mem_uc main_arg22 (by decide))).trans (W6_main_arg22 m ρ c),
     (h c _ (mem_uc main_arg23 (by decide))).trans (W6_main_arg23 m ρ c),
     (h c _ (mem_uc main_arg24 (by decide))).trans (W6_main_arg24 m ρ c),
     (h c _ (mem_uc main_arg25 (by decide))).trans (W6_main_arg25 m ρ c),
     (h c _ (mem_uc main_arg26 (by decide))).trans (W6_main_arg26 m ρ c),
     (h c _ (mem_uc main_arg27 (by decide))).trans (W6_main_arg27 m ρ c),
     (h c _ (mem_uc main_arg28 (by decide))).trans (W6_main_arg28 m ρ c)⟩)
    (run_all m ρ)

end Cert.KernelIdeal.RunValue

end
-- ==== Proof.KerHost.lean ====
/-
  The host stretches of the idealized kernel program, read at the buffers the three regions consume.

  Before the first region the host cuts the edge list into its row of targets and its row of sources, counts each node's
  incoming edges into a degree, takes the reciprocal square root of the degree plus one as the node's factor (kept as
  a column), cuts the 19 x 64 weight matrix into its first three and last sixteen rows, and recasts every parameter
  vector as a one-row matrix. Between regions it aggregates: every edge carries its source node's row (sources read with
  negative indices wrapped) to its target node, rows landing on one node are summed from zero, and the node's own row is
  added. Each fact below says what a stretch leaves at one buffer, from any contents it starts at.
-/
import proofs.«171494_j72095321031133_2_alg».proof.Proof.Gen.KernelIdeal.Launch
import Idealize.ShloMosaic.Lib.StableHlo.Run
import Idealize.ShloMosaic.Lib.Tactic

set_option maxRecDepth 16384

noncomputable section

namespace Cert.KernelIdeal.RunValue

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F]

/-- The edges' targets: row 0 of the edge list as a vector. -/
def rowVec (x2 : (⟨S2x2000000, .i32⟩ : BufTy).Contents (Elt F)) : (⟨S2000000, .i32⟩ : BufTy).Contents (Elt F) :=
  shapeCast S2000000 (extractStridedSlice S1x2000000 ![0, 0] x2 slices_S2x2000000_S1x2000000_0_0) shapeCasts_S1x2000000_S2000000

/-- The edges' sources: row 1 of the edge list as a vector. -/
def colVec (x2 : (⟨S2x2000000, .i32⟩ : BufTy).Contents (Elt F)) : (⟨S2000000, .i32⟩ : BufTy).Contents (Elt F) :=
  shapeCast S2000000 (extractStridedSlice S1x2000000 ![1, 0] x2 slices_S2x2000000_S1x2000000_1_0) shapeCasts_S1x2000000_S2000000

/-- The degree factors: one per node, the reciprocal square root of (edges landing on the node, counted from zero,
    plus one). -/
def dinvVec (row : (⟨S2000000, .i32⟩ : BufTy).Contents (Elt F)) : (⟨S100000, .f32⟩ : BufTy).Contents (Elt F) :=
  Host.rsqrt
    (addf
      (Host.scatterAdd scatter_S100000_S2000000x1_S2000000_n_0_0_1
        (broadcastInDim S100000 ![] bcast_S_S100000 (constant S_ .f32 0x00000000#32))
        (broadcastInDim S2000000x1 ![0] bcast_S2000000_S2000000x1_0 row)
        (broadcastInDim S2000000 ![] bcast_S_S2000000 (constant S_ .f32 0x3F800000#32)))
      (broadcastInDim S100000 ![] bcast_S_S100000 (constant S_ .f32 0x3F800000#32)))

/-- The source indices as the gather takes them: negative ones moved up by the node count, then one column. -/
def wrapIdx (col : (⟨S2000000, .i32⟩ : BufTy).Contents (Elt F)) : (⟨S2000000x1, .i32⟩ : BufTy).Contents (Elt F) :=
  broadcastInDim S2000000x1 ![0] bcast_S2000000_S2000000x1_0
    (select (cmpi CmpIPredicate.slt col (broadcastInDim S2000000 ![] bcast_S_S2000000 (constantI S_ 32 0#32)))
      (addi col (broadcastInDim S2000000 ![] bcast_S_S2000000 (constantI S_ 32 100000#32))) col)

/-- The aggregation between regions: rows of `sx` gathered at the edges' sources, summed from zero at the edges'
    targets, plus `sx` itself. -/
def aggr (sx : (⟨S100000x64, .bf16⟩ : BufTy).Contents (Elt F)) (row col : (⟨S2000000, .i32⟩ : BufTy).Contents (Elt F)) : (⟨S100000x64, .f32⟩ : BufTy).Contents (Elt F) :=
  addf
    (Host.scatterAdd scatter_S100000x64_S2000000x1_S2000000x64_1_0_0_1
      (broadcastInDim S100000x64 ![] bcast_S_S100000x64 (constant S_ .f32 0x00000000#32))
      (broadcastInDim S2000000x1 ![0] bcast_S2000000_S2000000x1_0 row)
      (extf .f32 (Host.gather gather_S100000x64_S2000000x1_S2000000x64_1_0_n_n_0_1_164 sx (wrapIdx col)) bitsLt_bf16_f32))
    (extf .f32 sx bitsLt_bf16_f32)

/-! ## Before the first region -/

theorem host0_v1 (W : Valuation τ sig (Elt F)) :
    (StableHlo.after (hostOps0 (F := F)) W (Proc.devRef .tc main_v1) : (⟨S2000000, .i32⟩ : BufTy).Contents (Elt F)) = rowVec (W (Proc.devRef .tc main_arg2)) := by
  after_results; rfl

theorem host0_v3 (W : Valuation τ sig (Elt F)) :
    (StableHlo.after (hostOps0 (F := F)) W (Proc.devRef .tc main_v3) : (⟨S2000000, .i32⟩ : BufTy).Contents (Elt F)) = colVec (W (Proc.devRef .tc main_arg2)) := by
  after_results; rfl

theorem host0_v11 (W : Valuation τ sig (Elt F)) :
    (StableHlo.after (hostOps0 (F := F)) W (Proc.devRef .tc main_v11) : (⟨S100000x1, .f32⟩ : BufTy).Contents (Elt F))
      = shapeCast S100000x1 (dinvVec (rowVec (W (Proc.devRef .tc main_arg2)))) shapeCasts_S100000_S100000x1 := by
  after_results; rfl

theorem host0_v12 (W : Valuation τ sig (Elt F)) :
    (StableHlo.after (hostOps0 (F := F)) W (Proc.devRef .tc main_v12) : (⟨S3x64, .f32⟩ : BufTy).Contents (Elt F))
      = extractStridedSlice S3x64 ![0, 0] (W (Proc.devRef .tc main_arg23)) slices_S19x64_S3x64_0_0 := by
  after_results

theorem host0_v13 (W : Valuation τ sig (Elt F)) :
    (StableHlo.after (hostOps0 (F := F)) W (Proc.devRef .tc main_v13) : (⟨S16x64, .f32⟩ : BufTy).Contents (Elt F))
      = extractStridedSlice S16x64 ![3, 0] (W (Proc.devRef .tc main_arg23)) slices_S19x64_S16x64_3_0 := by
  after_results

theorem host0_v14 (W : Valuation τ sig (Elt F)) :
    (StableHlo.after (hostOps0 (F := F)) W (Proc.devRef .tc main_v14) : (⟨S1x128, .f32⟩ : BufTy).Contents (Elt F))
      = shapeCast S1x128 (W (Proc.devRef .tc main_arg4)) shapeCasts_S128_S1x128 := by
  after_results; rfl

theorem host0_v15 (W : Valuation τ sig (Elt F)) :
    (StableHlo.after (hostOps0 (F := F)) W (Proc.devRef .tc main_v15) : (⟨S1x128, .f32⟩ : BufTy).Contents (Elt F))
      = shapeCast S1x128 (W (Proc.devRef .tc main_arg5)) shapeCasts_S128_S1x128 := by
  after_results; rfl

theorem host0_v16 (W : Valuation τ sig (Elt F)) :
    (StableHlo.after (hostOps0 (F := F)) W (Proc.devRef .tc main_v16) : (⟨S1x128, .f32⟩ : BufTy).Contents (Elt F))
      = shapeCast S1x128 (W (Proc.devRef .tc main_arg6)) shapeCasts_S128_S1x128 := by
  after_results; rfl

theorem host0_v17 (W : Valuation τ sig (Elt F)) :
    (StableHlo.after (hostOps0 (F := F)) W (Proc.devRef .tc main_v17) : (⟨S1x128, .f32⟩ : BufTy).Contents (Elt F))
      = shapeCast S1x128 (W (Proc.devRef .tc main_arg8)) shapeCasts_S128_S1x128 := by
  after_results; rfl

theorem host0_v18 (W : Valuation τ sig (Elt F)) :
    (StableHlo.after (hostOps0 (F := F)) W (Proc.devRef .tc main_v18) : (⟨S1x128, .f32⟩ : BufTy).Contents (Elt F))
      = shapeCast S1x128 (W (Proc.devRef .tc main_arg9)) shapeCasts_S128_S1x128 := by
  after_results; rfl

theorem host0_v19 (W : Valuation τ sig (Elt F)) :
    (StableHlo.after (hostOps0 (F := F)) W (Proc.devRef .tc main_v19) : (⟨S1x128, .f32⟩ : BufTy).Contents (Elt F))
      = shapeCast S1x128 (W (Proc.devRef .tc main_arg10)) shapeCasts_S128_S1x128 := by
  after_results; rfl

theorem host0_v20 (W : Valuation τ sig (Elt F)) :
    (StableHlo.after (hostOps0 (F := F)) W (Proc.devRef .tc main_v20) : (⟨S1x128, .f32⟩ : BufTy).Contents (Elt F))
      = shapeCast S1x128 (W (Proc.devRef .tc main_arg12)) shapeCasts_S128_S1x128 := by
  after_results; rfl

theorem host0_v21 (W : Valuation τ sig (Elt F)) :
    (StableHlo.after (hostOps0 (F := F)) W (Proc.devRef .tc main_v21) : (⟨S1x128, .f32⟩ : BufTy).Contents (Elt F))
      = shapeCast S1x128 (W (Proc.devRef .tc main_arg13)) shapeCasts_S128_S1x128 := by
  after_results; rfl

theorem host0_v22 (W : Valuation τ sig (Elt F)) :
    (StableHlo.after (hostOps0 (F := F)) W (Proc.devRef .tc main_v22) : (⟨S1x128, .f32⟩ : BufTy).Contents (Elt F))
      = shapeCast S1x128 (W (Proc.devRef .tc main_arg14)) shapeCasts_S128_S1x128 := by
  after_results; rfl

theorem host0_v23 (W : Valuation τ sig (Elt F)) :
    (StableHlo.after (hostOps0 (F := F)) W (Proc.devRef .tc main_v23) : (⟨S1x128, .f32⟩ : BufTy).Contents (Elt F))
      = shapeCast S1x128 (W (Proc.devRef .tc main_arg16)) shapeCasts_S128_S1x128 := by
  after_results; rfl

theorem host0_v24 (W : Valuation τ sig (Elt F)) :
    (StableHlo.after (hostOps0 (F := F)) W (Proc.devRef .tc main_v24) : (⟨S1x64, .f32⟩ : BufTy).Contents (Elt F))
      = shapeCast S1x64 (W (Proc.devRef .tc main_arg18)) shapeCasts_S64_S1x64 := by
  after_results; rfl

theorem host0_v25 (W : Valuation τ sig (Elt F)) :
    (StableHlo.after (hostOps0 (F := F)) W (Proc.devRef .tc main_v25) : (⟨S1x32, .f32⟩ : BufTy).Contents (Elt F))
      = shapeCast S1x32 (W (Proc.devRef .tc main_arg20)) shapeCasts_S32_S1x32 := by
  after_results; rfl

theorem host0_v26 (W : Valuation τ sig (Elt F)) :
    (StableHlo.after (hostOps0 (F := F)) W (Proc.devRef .tc main_v26) : (⟨S1x16, .f32⟩ : BufTy).Contents (Elt F))
      = shapeCast S1x16 (W (Proc.devRef .tc main_arg22)) shapeCasts_S16_S1x16 := by
  after_results; rfl

theorem host0_keep_main_arg0 (W : Valuation τ sig (Elt F)) :
    StableHlo.after (hostOps0 (F := F)) W (Proc.devRef .tc main_arg0) = W (Proc.devRef .tc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg1 (W : Valuation τ sig (Elt F)) :
    StableHlo.after (hostOps0 (F := F)) W (Proc.devRef .tc main_arg1) = W (Proc.devRef .tc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg3 (W : Valuation τ sig (Elt F)) :
    StableHlo.after (hostOps0 (F := F)) W (Proc.devRef .tc main_arg3) = W (Proc.devRef .tc main_arg3) :=
  StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg7 (W : Valuation τ sig (Elt F)) :
    StableHlo.after (hostOps0 (F := F)) W (Proc.devRef .tc main_arg7) = W (Proc.devRef .tc main_arg7) :=
  StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg11 (W : Valuation τ sig (Elt F)) :
    StableHlo.after (hostOps0 (F := F)) W (Proc.devRef .tc main_arg11) = W (Proc.devRef .tc main_arg11) :=
  StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg15 (W : Valuation τ sig (Elt F)) :
    StableHlo.after (hostOps0 (F := F)) W (Proc.devRef .tc main_arg15) = W (Proc.devRef .tc main_arg15) :=
  StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg17 (W : Valuation τ sig (Elt F)) :
    StableHlo.after (hostOps0 (F := F)) W (Proc.devRef .tc main_arg17) = W (Proc.devRef .tc main_arg17) :=
  StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg19 (W : Valuation τ sig (Elt F)) :
    StableHlo.after (hostOps0 (F := F)) W (Proc.devRef .tc main_arg19) = W (Proc.devRef .tc main_arg19) :=
  StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg21 (W : Valuation τ sig (Elt F)) :
    StableHlo.after (hostOps0 (F := F)) W (Proc.devRef .tc main_arg21) = W (Proc.devRef .tc main_arg21) :=
  StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg24 (W : Valuation τ sig (Elt F)) :
    StableHlo.after (hostOps0 (F := F)) W (Proc.devRef .tc main_arg24) = W (Proc.devRef .tc main_arg24) :=
  StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg25 (W : Valuation τ sig (Elt F)) :
    StableHlo.after (hostOps0 (F := F)) W (Proc.devRef .tc main_arg25) = W (Proc.devRef .tc main_arg25) :=
  StableHlo.after_of_forall_not_mem (b := Proc.devRef .tc main_arg25) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg26 (W : Valuation τ sig (Elt F)) :
    StableHlo.after (hostOps0 (F := F)) W (Proc.devRef .tc main_arg26) = W (Proc.devRef .tc main_arg26) :=
  StableHlo.after_of_forall_not_mem (b := Proc.devRef .tc main_arg26) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg27 (W : Valuation τ sig (Elt F)) :
    StableHlo.after (hostOps0 (F := F)) W (Proc.devRef .tc main_arg27) = W (Proc.devRef .tc main_arg27) :=
  StableHlo.after_of_forall_not_mem (b := Proc.devRef .tc main_arg27) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host0_keep_main_arg28 (W : Valuation τ sig (Elt F)) :
    StableHlo.after (hostOps0 (F := F)) W (Proc.devRef .tc main_arg28) = W (Proc.devRef .tc main_arg28) :=
  StableHlo.after_of_forall_not_mem (b := Proc.devRef .tc main_arg28) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## Between the first and second regions -/

set_option maxHeartbeats 4000000 in
theorem host1_v40 (W : Valuation τ sig (Elt F)) :
    (StableHlo.after (hostOps1 (F := F)) W (Proc.devRef .tc main_v40) : (⟨S100000x64, .f32⟩ : BufTy).Contents (Elt F))
      = aggr (W (Proc.devRef .tc main_v27)) (W (Proc.devRef .tc main_v1)) (W (Proc.devRef .tc main_v3)) := by
  after_results_simp; rfl

set_option maxHeartbeats 4000000 in
theorem host1_v41 (W : Valuation τ sig (Elt F)) :
    (StableHlo.after (hostOps1 (F := F)) W (Proc.devRef .tc main_v41) : (⟨S1x64, .f32⟩ : BufTy).Contents (Elt F))
      = shapeCast S1x64 (W (Proc.devRef .tc main_arg24)) shapeCasts_S64_S1x64 := by
  after_results_simp; rfl

theorem host1_keep_main_v1 (W : Valuation τ sig (Elt F)) :
    StableHlo.after (hostOps1 (F := F)) W (Proc.devRef .tc main_v1) = W (Proc.devRef .tc main_v1) :=
  StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host1_keep_main_v3 (W : Valuation τ sig (Elt F)) :
    StableHlo.after (hostOps1 (F := F)) W (Proc.devRef .tc main_v3) = W (Proc.devRef .tc main_v3) :=
  StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host1_keep_main_v11 (W : Valuation τ sig (Elt F)) :
    StableHlo.after (hostOps1 (F := F)) W (Proc.devRef .tc main_v11) = W (Proc.devRef .tc main_v11) :=
  StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host1_keep_main_arg25 (W : Valuation τ sig (Elt F)) :
    StableHlo.after (hostOps1 (F := F)) W (Proc.devRef .tc main_arg25) = W (Proc.devRef .tc main_arg25) :=
  StableHlo.after_of_forall_not_mem (b := Proc.devRef .tc main_arg25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host1_keep_main_arg26 (W : Valuation τ sig (Elt F)) :
    StableHlo.after (hostOps1 (F := F)) W (Proc.devRef .tc main_arg26) = W (Proc.devRef .tc main_arg26) :=
  StableHlo.after_of_forall_not_mem (b := Proc.devRef .tc main_arg26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host1_keep_main_arg27 (W : Valuation τ sig (Elt F)) :
    StableHlo.after (hostOps1 (F := F)) W (Proc.devRef .tc main_arg27) = W (Proc.devRef .tc main_arg27) :=
  StableHlo.after_of_forall_not_mem (b := Proc.devRef .tc main_arg27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host1_keep_main_arg28 (W : Valuation τ sig (Elt F)) :
    StableHlo.after (hostOps1 (F := F)) W (Proc.devRef .tc main_arg28) = W (Proc.devRef .tc main_arg28) :=
  StableHlo.after_of_forall_not_mem (b := Proc.devRef .tc main_arg28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## Between the second and third regions -/

set_option maxHeartbeats 4000000 in
theorem host2_v55 (W : Valuation τ sig (Elt F)) :
    (StableHlo.after (hostOps2 (F := F)) W (Proc.devRef .tc main_v55) : (⟨S100000x64, .f32⟩ : BufTy).Contents (Elt F))
      = aggr (W (Proc.devRef .tc main_v42)) (W (Proc.devRef .tc main_v1)) (W (Proc.devRef .tc main_v3)) := by
  after_results_simp; rfl

set_option maxHeartbeats 4000000 in
theorem host2_v56 (W : Valuation τ sig (Elt F)) :
    (StableHlo.after (hostOps2 (F := F)) W (Proc.devRef .tc main_v56) : (⟨S1x64, .f32⟩ : BufTy).Contents (Elt F))
      = shapeCast S1x64 (W (Proc.devRef .tc main_arg26)) shapeCasts_S64_S1x64 := by
  after_results_simp; rfl

set_option maxHeartbeats 4000000 in
theorem host2_v57 (W : Valuation τ sig (Elt F)) :
    (StableHlo.after (hostOps2 (F := F)) W (Proc.devRef .tc main_v57) : (⟨S1x1, .f32⟩ : BufTy).Contents (Elt F))
      = shapeCast S1x1 (W (Proc.devRef .tc main_arg28)) shapeCasts_S1_S1x1 := by
  after_results_simp; rfl

theorem host2_keep_main_v11 (W : Valuation τ sig (Elt F)) :
    StableHlo.after (hostOps2 (F := F)) W (Proc.devRef .tc main_v11) = W (Proc.devRef .tc main_v11) :=
  StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host2_keep_main_arg27 (W : Valuation τ sig (Elt F)) :
    StableHlo.after (hostOps2 (F := F)) W (Proc.devRef .tc main_arg27) = W (Proc.devRef .tc main_arg27) :=
  StableHlo.after_of_forall_not_mem (b := Proc.devRef .tc main_arg27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host2_keep_main_v1 (W : Valuation τ sig (Elt F)) :
    StableHlo.after (hostOps2 (F := F)) W (Proc.devRef .tc main_v1) = W (Proc.devRef .tc main_v1) :=
  StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem host2_keep_main_v3 (W : Valuation τ sig (Elt F)) :
    StableHlo.after (hostOps2 (F := F)) W (Proc.devRef .tc main_v3) = W (Proc.devRef .tc main_v3) :=
  StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.RunValue

end
-- ==== Proof.KerBlk0.lean ====
/-
  Region 0 of the idealized kernel program: what a grid point's input blocks are, read off the arrays as the region
  finds them.

  The grid has fifty points; point t takes rows 2000 t … 2000 t + 1999 of the three node-indexed arrays (coordinates,
  raw features, degree factors) and the whole of each of the twenty-two parameter arrays.
-/
import proofs.«171494_j72095321031133_2_alg».proof.Proof.KernelIdealFrameP
import Idealize.ShloMosaic.Lib.ValueIdx
import Idealize.ShloMosaic.Lib.Pipeline.Value

set_option maxRecDepth 16384

noncomputable section

namespace Cert.KernelIdeal.RunValue

open Idealize.ShloMosaic Idealize.ShloMosaic.TcCoe Idealize.ShloMosaic.ValueIdx Idealize.SL.Sem
open Cert.KernelIdeal Cert.KernelIdeal.Gen Cert.KernelIdeal.GenP

variable {F : FTy → Type} [FloatOps F]
variable (V : (c : Dev nD) → (b : Ref sig .tc) → Buf (Elt F) ((c : Thread nD τ).loc b))

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = 0 ∧ win0_13.index t (1 : Fin 2) = 0 :=
  (by decide +kernel : ∀ t : Fin grid0.N, _)
theorem idx0_14 : ∀ t : Fin cfg0.N, win0_14.index t (0 : Fin 2) = 0 ∧ win0_14.index t (1 : Fin 2) = 0 :=
  (by decide +kernel : ∀ t : Fin grid0.N, _)
theorem idx0_15 : ∀ t : Fin cfg0.N, win0_15.index t (0 : Fin 2) = 0 ∧ win0_15.index t (1 : Fin 2) = 0 :=
  (by decide +kernel : ∀ t : Fin grid0.N, _)
theorem idx0_16 : ∀ t : Fin cfg0.N, win0_16.index t (0 : Fin 2) = 0 ∧ win0_16.index t (1 : Fin 2) = 0 :=
  (by decide +kernel : ∀ t : Fin grid0.N, _)
theorem idx0_17 : ∀ t : Fin cfg0.N, win0_17.index t (0 : Fin 2) = 0 ∧ win0_17.index t (1 : Fin 2) = 0 :=
  (by decide +kernel : ∀ t : Fin grid0.N, _)
theorem idx0_18 : ∀ t : Fin cfg0.N, win0_18.index t (0 : Fin 2) = 0 ∧ win0_18.index t (1 : Fin 2) = 0 :=
  (by decide +kernel : ∀ t : Fin grid0.N, _)
theorem idx0_19 : ∀ t : Fin cfg0.N, win0_19.index t (0 : Fin 2) = 0 ∧ win0_19.index t (1 : Fin 2) = 0 :=
  (by decide +kernel : ∀ t : Fin grid0.N, _)
theorem idx0_20 : ∀ t : Fin cfg0.N, win0_20.index t (0 : Fin 2) = 0 ∧ win0_20.index t (1 : Fin 2) = 0 :=
  (by decide +kernel : ∀ t : Fin grid0.N, _)
theorem idx0_21 : ∀ t : Fin cfg0.N, win0_21.index t (0 : Fin 2) = 0 ∧ win0_21.index t (1 : Fin 2) = 0 :=
  (by decide +kernel : ∀ t : Fin grid0.N, _)
theorem idx0_22 : ∀ t : Fin cfg0.N, win0_22.index t (0 : Fin 2) = 0 ∧ win0_22.index t (1 : Fin 2) = 0 :=
  (by decide +kernel : ∀ t : Fin grid0.N, _)
theorem idx0_23 : ∀ t : Fin cfg0.N, win0_23.index t (0 : Fin 2) = 0 ∧ win0_23.index t (1 : Fin 2) = 0 :=
  (by decide +kernel : ∀ t : Fin grid0.N, _)
theorem idx0_24 : ∀ t : Fin cfg0.N, win0_24.index t (0 : Fin 2) = 0 ∧ win0_24.index t (1 : Fin 2) = 0 :=
  (by decide +kernel : ∀ t : Fin grid0.N, _)
theorem idx0_25 : ∀ t : Fin cfg0.N, win0_25.index t (0 : Fin 2) = t.val ∧ win0_25.index t (1 : Fin 2) = 0 :=
  (by decide +kernel : ∀ t : Fin grid0.N, _)

theorem lt50_0 (t : Fin cfg0.N) : t.val < 50 := t.isLt

/-- Row `p` of point `t`'s block of window 0 is row `2000 t + p` of its array. -/
theorem rd0_0 (c : Dev nD) (t : Fin cfg0.N) (p : Fin 2000) (k : Fin 2) :
    iblk0 V c 0 t (ix2 p k) = V c main_arg0 (ix2 (⟨t.val * 2000 + p.val, by have := lt50_0 t; have := p.isLt; omega⟩ : Fin 100000) k) := by
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = t.val * 2000 + p.val; rw [(idx0_0 t).1]; omega
  | ⟨1, _⟩ => show win0_0.index t (1 : Fin 2) * 2 + 1 * k.val = k.val; rw [(idx0_0 t).2]; omega

/-- Row `p` of point `t`'s block of window 1 is row `2000 t + p` of its array. -/
theorem rd0_1 (c : Dev nD) (t : Fin cfg0.N) (p : Fin 2000) (k : Fin 3) :
    iblk0 V c 1 t (ix2 p k) = V c main_arg1 (ix2 (⟨t.val * 2000 + p.val, by have := lt50_0 t; have := p.isLt; omega⟩ : Fin 100000) k) := by
  show V c main_arg1 (((cfg0.win 1).blk t).view.emb (ix2 p k)) = _
  refine congrArg (V c main_arg1) (funext fun a => Fin.ext ?_)
  match a with
  | ⟨0, _⟩ => show win0_1.index t (0 : Fin 2) * 2000 + 1 * p.val = t.val * 2000 + p.val; rw [(idx0_1 t).1]; omega
  | ⟨1, _⟩ => show win0_1.index t (1 : Fin 2) * 3 + 1 * k.val = k.val; rw [(idx0_1 t).2]; omega

/-- Row `p` of point `t`'s block of window 2 is row `2000 t + p` of its array. -/
theorem rd0_2 (c : Dev nD) (t : Fin cfg0.N) (p : Fin 2000) (k : Fin 1) :
    iblk0 V c 2 t (ix2 p k) = V c main_v11 (ix2 (⟨t.val * 2000 + p.val, by have := lt50_0 t; have := p.isLt; omega⟩ : Fin 100000) k) := by
  show V c main_v11 (((cfg0.win 2).blk t).view.emb (ix2 p k)) = _
  refine congrArg (V c main_v11) (funext fun a => Fin.ext ?_)
  match a with
  | ⟨0, _⟩ => show win0_2.index t (0 : Fin 2) * 2000 + 1 * p.val = t.val * 2000 + p.val; rw [(idx0_2 t).1]; omega
  | ⟨1, _⟩ => show win0_2.index t (1 : Fin 2) * 1 + 1 * k.val = k.val; rw [(idx0_2 t).2]; omega

/-- Window 3 is resident: every point's block is the whole array. -/
theorem rd0_3 (c : Dev nD) (t : Fin cfg0.N) : iblk0 V c 3 t = V c main_arg3 := by
  funext y
  show V c main_arg3 (((cfg0.win 3).blk t).view.emb y) = V c main_arg3 y
  refine congrArg (V c main_arg3) (funext fun a => Fin.ext ?_)
  match a with
  | ⟨0, _⟩ => show win0_3.index t (0 : Fin 2) * 2 + 1 * (y 0).val = (y 0).val; rw [(idx0_3 t).1]; omega
  | ⟨1, _⟩ => show win0_3.index t (1 : Fin 2) * 128 + 1 * (y 1).val = (y 1).val; rw [(idx0_3 t).2]; omega

/-- Window 4 is resident: every point's block is the whole array. -/
theorem rd0_4 (c : Dev nD) (t : Fin cfg0.N) : iblk0 V c 4 t = V c main_v14 := by
  funext y
  show V c main_v14 (((cfg0.win 4).blk t).view.emb y) = V c main_v14 y
  refine congrArg (V c main_v14) (funext fun a => Fin.ext ?_)
  match a with
  | ⟨0, _⟩ => show win0_4.index t (0 : Fin 2) * 1 + 1 * (y 0).val = (y 0).val; rw [(idx0_4 t).1]; omega
  | ⟨1, _⟩ => show win0_4.index t (1 : Fin 2) * 128 + 1 * (y 1).val = (y 1).val; rw [(idx0_4 t).2]; omega

/-- Window 5 is resident: every point's block is the whole array. -/
theorem rd0_5 (c : Dev nD) (t : Fin cfg0.N) : iblk0 V c 5 t = V c main_v15 := by
  funext y
  show V c main_v15 (((cfg0.win 5).blk t).view.emb y) = V c main_v15 y
  refine congrArg (V c main_v15) (funext fun a => Fin.ext ?_)
  match a with
  | ⟨0, _⟩ => show win0_5.index t (0 : Fin 2) * 1 + 1 * (y 0).val = (y 0).val; rw [(idx0_5 t).1]; omega
  | ⟨1, _⟩ => show win0_5.index t (1 : Fin 2) * 128 + 1 * (y 1).val = (y 1).val; rw [(idx0_5 t).2]; omega

/-- Window 6 is resident: every point's block is the whole array. -/
theorem rd0_6 (c : Dev nD) (t : Fin cfg0.N) : iblk0 V c 6 t = V c main_v16 := by
  funext y
  show V c main_v16 (((cfg0.win 6).blk t).view.emb y) = V c main_v16 y
  refine congrArg (V c main_v16) (funext fun a => Fin.ext ?_)
  match a with
  | ⟨0, _⟩ => show win0_6.index t (0 : Fin 2) * 1 + 1 * (y 0).val = (y 0).val; rw [(idx0_6 t).1]; omega
  | ⟨1, _⟩ => show win0_6.index t (1 : Fin 2) * 128 + 1 * (y 1).val = (y 1).val; rw [(idx0_6 t).2]; omega

/-- Window 7 is resident: every point's block is the whole array. -/
theorem rd0_7 (c : Dev nD) (t : Fin cfg0.N) : iblk0 V c 7 t = V c main_arg7 := by
  funext y
  show V c main_arg7 (((cfg0.win 7).blk t).view.emb y) = V c main_arg7 y
  refine congrArg (V c main_arg7) (funext fun a => Fin.ext ?_)
  match a with
  | ⟨0, _⟩ => show win0_7.index t (0 : Fin 2) * 128 + 1 * (y 0).val = (y 0).val; rw [(idx0_7 t).1]; omega
  | ⟨1, _⟩ => show win0_7.index t (1 : Fin 2) * 128 + 1 * (y 1).val = (y 1).val; rw [(idx0_7 t).2]; omega

/-- Window 8 is resident: every point's block is the whole array. -/
theorem rd0_8 (c : Dev nD) (t : Fin cfg0.N) : iblk0 V c 8 t = V c main_v17 := by
  funext y
  show V c main_v17 (((cfg0.win 8).blk t).view.emb y) = V c main_v17 y
  refine congrArg (V c main_v17) (funext fun a => Fin.ext ?_)
  match a with
  | ⟨0, _⟩ => show win0_8.index t (0 : Fin 2) * 1 + 1 * (y 0).val = (y 0).val; rw [(idx0_8 t).1]; omega
  | ⟨1, _⟩ => show win0_8.index t (1 : Fin 2) * 128 + 1 * (y 1).val = (y 1).val; rw [(idx0_8 t).2]; omega

/-- Window 9 is resident: every point's block is the whole array. -/
theorem rd0_9 (c : Dev nD) (t : Fin cfg0.N) : iblk0 V c 9 t = V c main_v18 := by
  funext y
  show V c main_v18 (((cfg0.win 9).blk t).view.emb y) = V c main_v18 y
  refine congrArg (V c main_v18) (funext fun a => Fin.ext ?_)
  match a with
  | ⟨0, _⟩ => show win0_9.index t (0 : Fin 2) * 1 + 1 * (y 0).val = (y 0).val; rw [(idx0_9 t).1]; omega
  | ⟨1, _⟩ => show win0_9.index t (1 : Fin 2) * 128 + 1 * (y 1).val = (y 1).val; rw [(idx0_9 t).2]; omega

/-- Window 10 is resident: every point's block is the whole array. -/
theorem rd0_10 (c : Dev nD) (t : Fin cfg0.N) : iblk0 V c 10 t = V c main_v19 := by
  funext y
  show V c main_v19 (((cfg0.win 10).blk t).view.emb y) = V c main_v19 y
  refine congrArg (V c main_v19) (funext fun a => Fin.ext ?_)
  match a with
  | ⟨0, _⟩ => show win0_10.index t (0 : Fin 2) * 1 + 1 * (y 0).val = (y 0).val; rw [(idx0_10 t).1]; omega
  | ⟨1, _⟩ => show win0_10.index t (1 : Fin 2) * 128 + 1 * (y 1).val = (y 1).val; rw [(idx0_10 t).2]; omega

/-- Window 11 is resident: every point's block is the whole array. -/
theorem rd0_11 (c : Dev nD) (t : Fin cfg0.N) : iblk0 V c 11 t = V c main_arg11 := by
  funext y
  show V c main_arg11 (((cfg0.win 11).blk t).view.emb y) = V c main_arg11 y
  refine congrArg (V c main_arg11) (funext fun a => Fin.ext ?_)
  match a with
  | ⟨0, _⟩ => show win0_11.index t (0 : Fin 2) * 128 + 1 * (y 0).val = (y 0).val; rw [(idx0_11 t).1]; omega
  | ⟨1, _⟩ => show win0_11.index t (1 : Fin 2) * 128 + 1 * (y 1).val = (y 1).val; rw [(idx0_11 t).2]; omega

/-- Window 12 is resident: every point's block is the whole array. -/
theorem rd0_12 (c : Dev nD) (t : Fin cfg0.N) : iblk0 V c 12 t = V c main_v20 := by
  funext y
  show V c main_v20 (((cfg0.win 12).blk t).view.emb y) = V c main_v20 y
  refine congrArg (V c main_v20) (funext fun a => Fin.ext ?_)
  match a with
  | ⟨0, _⟩ => show win0_12.index t (0 : Fin 2) * 1 + 1 * (y 0).val = (y 0).val; rw [(idx0_12 t).1]; omega
  | ⟨1, _⟩ => show win0_12.index t (1 : Fin 2) * 128 + 1 * (y 1).val = (y 1).val; rw [(idx0_12 t).2]; omega

/-- Window 13 is resident: every point's block is the whole array. -/
theorem rd0_13 (c : Dev nD) (t : Fin cfg0.N) : iblk0 V c 13 t = V c main_v21 := by
  funext y
  show V c main_v21 (((cfg0.win 13).blk t).view.emb y) = V c main_v21 y
  refine congrArg (V c main_v21) (funext fun a => Fin.ext ?_)
  match a with
  | ⟨0, _⟩ => show win0_13.index t (0 : Fin 2) * 1 + 1 * (y 0).val = (y 0).val; rw [(idx0_13 t).1]; omega
  | ⟨1, _⟩ => show win0_13.index t (1 : Fin 2) * 128 + 1 * (y 1).val = (y 1).val; rw [(idx0_13 t).2]; omega

/-- Window 14 is resident: every point's block is the whole array. -/
theorem rd0_14 (c : Dev nD) (t : Fin cfg0.N) : iblk0 V c 14 t = V c main_v22 := by
  funext y
  show V c main_v22 (((cfg0.win 14).blk t).view.emb y) = V c main_v22 y
  refine congrArg (V c main_v22) (funext fun a => Fin.ext ?_)
  match a with
  | ⟨0, _⟩ => show win0_14.index t (0 : Fin 2) * 1 + 1 * (y 0).val = (y 0).val; rw [(idx0_14 t).1]; omega
  | ⟨1, _⟩ => show win0_14.index t (1 : Fin 2) * 128 + 1 * (y 1).val = (y 1).val; rw [(idx0_14 t).2]; omega

/-- Window 15 is resident: every point's block is the whole array. -/
theorem rd0_15 (c : Dev nD) (t : Fin cfg0.N) : iblk0 V c 15 t = V c main_arg15 := by
  funext y
  show V c main_arg15 (((cfg0.win 15).blk t).view.emb y) = V c main_arg15 y
  refine congrArg (V c main_arg15) (funext fun a => Fin.ext ?_)
  match a with
  | ⟨0, _⟩ => show win0_15.index t (0 : Fin 2) * 128 + 1 * (y 0).val = (y 0).val; rw [(idx0_15 t).1]; omega
  | ⟨1, _⟩ => show win0_15.index t (1 : Fin 2) * 128 + 1 * (y 1).val = (y 1).val; rw [(idx0_15 t).2]; omega

/-- Window 16 is resident: every point's block is the whole array. -/
theorem rd0_16 (c : Dev nD) (t : Fin cfg0.N) : iblk0 V c 16 t = V c main_v23 := by
  funext y
  show V c main_v23 (((cfg0.win 16).blk t).view.emb y) = V c main_v23 y
  refine congrArg (V c main_v23) (funext fun a => Fin.ext ?_)
  match a with
  | ⟨0, _⟩ => show win0_16.index t (0 : Fin 2) * 1 + 1 * (y 0).val = (y 0).val; rw [(idx0_16 t).1]; omega
  | ⟨1, _⟩ => show win0_16.index t (1 : Fin 2) * 128 + 1 * (y 1).val = (y 1).val; rw [(idx0_16 t).2]; omega

/-- Window 17 is resident: every point's block is the whole array. -/
theorem rd0_17 (c : Dev nD) (t : Fin cfg0.N) : iblk0 V c 17 t = V c main_arg17 := by
  funext y
  show V c main_arg17 (((cfg0.win 17).blk t).view.emb y) = V c main_arg17 y
  refine congrArg (V c main_arg17) (funext fun a => Fin.ext ?_)
  match a with
  | ⟨0, _⟩ => show win0_17.index t (0 : Fin 2) * 128 + 1 * (y 0).val = (y 0).val; rw [(idx0_17 t).1]; omega
  | ⟨1, _⟩ => show win0_17.index t (1 : Fin 2) * 64 + 1 * (y 1).val = (y 1).val; rw [(idx0_17 t).2]; omega

/-- Window 18 is resident: every point's block is the whole array. -/
theorem rd0_18 (c : Dev nD) (t : Fin cfg0.N) : iblk0 V c 18 t = V c main_v24 := by
  funext y
  show V c main_v24 (((cfg0.win 18).blk t).view.emb y) = V c main_v24 y
  refine congrArg (V c main_v24) (funext fun a => Fin.ext ?_)
  match a with
  | ⟨0, _⟩ => show win0_18.index t (0 : Fin 2) * 1 + 1 * (y 0).val = (y 0).val; rw [(idx0_18 t).1]; omega
  | ⟨1, _⟩ => show win0_18.index t (1 : Fin 2) * 64 + 1 * (y 1).val = (y 1).val; rw [(idx0_18 t).2]; omega

/-- Window 19 is resident: every point's block is the whole array. -/
theorem rd0_19 (c : Dev nD) (t : Fin cfg0.N) : iblk0 V c 19 t = V c main_arg19 := by
  funext y
  show V c main_arg19 (((cfg0.win 19).blk t).view.emb y) = V c main_arg19 y
  refine congrArg (V c main_arg19) (funext fun a => Fin.ext ?_)
  match a with
  | ⟨0, _⟩ => show win0_19.index t (0 : Fin 2) * 64 + 1 * (y 0).val = (y 0).val; rw [(idx0_19 t).1]; omega
  | ⟨1, _⟩ => show win0_19.index t (1 : Fin 2) * 32 + 1 * (y 1).val = (y 1).val; rw [(idx0_19 t).2]; omega

/-- Window 20 is resident: every point's block is the whole array. -/
theorem rd0_20 (c : Dev nD) (t : Fin cfg0.N) : iblk0 V c 20 t = V c main_v25 := by
  funext y
  show V c main_v25 (((cfg0.win 20).blk t).view.emb y) = V c main_v25 y
  refine congrArg (V c main_v25) (funext fun a => Fin.ext ?_)
  match a with
  | ⟨0, _⟩ => show win0_20.index t (0 : Fin 2) * 1 + 1 * (y 0).val = (y 0).val; rw [(idx0_20 t).1]; omega
  | ⟨1, _⟩ => show win0_20.index t (1 : Fin 2) * 32 + 1 * (y 1).val = (y 1).val; rw [(idx0_20 t).2]; omega

/-- Window 21 is resident: every point's block is the whole array. -/
theorem rd0_21 (c : Dev nD) (t : Fin cfg0.N) : iblk0 V c 21 t = V c main_arg21 := by
  funext y
  show V c main_arg21 (((cfg0.win 21).blk t).view.emb y) = V c main_arg21 y
  refine congrArg (V c main_arg21) (funext fun a => Fin.ext ?_)
  match a with
  | ⟨0, _⟩ => show win0_21.index t (0 : Fin 2) * 32 + 1 * (y 0).val = (y 0).val; rw [(idx0_21 t).1]; omega
  | ⟨1, _⟩ => show win0_21.index t (1 : Fin 2) * 16 + 1 * (y 1).val = (y 1).val; rw [(idx0_21 t).2]; omega

/-- Window 22 is resident: every point's block is the whole array. -/
theorem rd0_22 (c : Dev nD) (t : Fin cfg0.N) : iblk0 V c 22 t = V c main_v26 := by
  funext y
  show V c main_v26 (((cfg0.win 22).blk t).view.emb y) = V c main_v26 y
  refine congrArg (V c main_v26) (funext fun a => Fin.ext ?_)
  match a with
  | ⟨0, _⟩ => show win0_22.index t (0 : Fin 2) * 1 + 1 * (y 0).val = (y 0).val; rw [(idx0_22 t).1]; omega
  | ⟨1, _⟩ => show win0_22.index t (1 : Fin 2) * 16 + 1 * (y 1).val = (y 1).val; rw [(idx0_22 t).2]; omega

/-- Window 23 is resident: every point's block is the whole array. -/
theorem rd0_23 (c : Dev nD) (t : Fin cfg0.N) : iblk0 V c 23 t = V c main_v12 := by
  funext y
  show V c main_v12 (((cfg0.win 23).blk t).view.emb y) = V c main_v12 y
  refine congrArg (V c main_v12) (funext fun a => Fin.ext ?_)
  match a with
  | ⟨0, _⟩ => show win0_23.index t (0 : Fin 2) * 3 + 1 * (y 0).val = (y 0).val; rw [(idx0_23 t).1]; omega
  | ⟨1, _⟩ => show win0_23.index t (1 : Fin 2) * 64 + 1 * (y 1).val = (y 1).val; rw [(idx0_23 t).2]; omega

/-- Window 24 is resident: every point's block is the whole array. -/
theorem rd0_24 (c : Dev nD) (t : Fin cfg0.N) : iblk0 V c 24 t = V c main_v13 := by
  funext y
  show V c main_v13 (((cfg0.win 24).blk t).view.emb y) = V c main_v13 y
  refine congrArg (V c main_v13) (funext fun a => Fin.ext ?_)
  match a with
  | ⟨0, _⟩ => show win0_24.index t (0 : Fin 2) * 16 + 1 * (y 0).val = (y 0).val; rw [(idx0_24 t).1]; omega
  | ⟨1, _⟩ => show win0_24.index t (1 : Fin 2) * 64 + 1 * (y 1).val = (y 1).val; rw [(idx0_24 t).2]; omega

end Cert.KernelIdeal.RunValue

end
-- ==== Proof.Spec.lean ====
/-
  The network, one node at a time, on the extended reals.

  A node's row goes through a position encoder (three blocks "affine map, rectifier, layer normalisation over the
  128 features", a fourth affine map with rectifier), a decoder (two affine maps with hyperbolic tangent, a third
  affine map down to 16 features) and the first graph convolution's projection: the node's 3 raw features and its
  16 decoded features against the two row blocks of the 19 x 64 weight matrix. Nothing here mentions how many nodes
  there are or how they are tiled: both programs apply these functions to every row.
-/
import Idealize.ShloMosaic.PureOps.Ideal
import Idealize.ShloMosaic.Lib.ValueIdx

noncomputable section

namespace Pegcn

open Idealize.ShloMosaic

/-- The rectifier's threshold, the layer norm's divisor 128 and its epsilon, as the words both programs carry. -/
def zeroW : EReal := Ideal.ofBits .f32 0x00000000#32
def c128 : EReal := Ideal.ofBits .f32 0x43000000#32
def ceps : EReal := Ideal.ofBits .f32 0x3727C5AC#32

variable {K N : ℕ}

/-- `x W + b` at output feature `q`. -/
def affine (x : Fin K → EReal) (W : Fin K → Fin N → EReal) (b : Fin N → EReal) : Fin N → EReal :=
  fun q => (∑ k : Fin K, x k * W k q) + b q

/-- The rectifier, feature by feature. -/
def relu (x : Fin N → EReal) : Fin N → EReal := fun q => max (x q) zeroW

/-- The hyperbolic tangent, feature by feature. -/
def tanhv (x : Fin N → EReal) : Fin N → EReal := fun q => Ideal.tanh (x q)

/-- The sum of a row's features over the literal 128. -/
def mean128 (x : Fin N → EReal) : EReal := Ideal.div (∑ k : Fin N, x k) c128

/-- A row's deviations from its mean. -/
def centred (x : Fin N → EReal) : Fin N → EReal := fun q => x q - mean128 x

/-- Layer normalisation of a row: centred, scaled by the reciprocal root of the mean square deviation plus epsilon,
    then gain and offset. -/
def lnorm (x g e : Fin N → EReal) : Fin N → EReal :=
  fun q => centred x q * Ideal.rsqrt (mean128 (fun k => centred x k * centred x k) + ceps) * g q + e q

/-- The weights, each matrix as a function of (input feature, output feature), each vector of the feature. -/
structure Params where
  fw0 : Fin 2 → Fin 128 → EReal
  fb0 : Fin 128 → EReal
  fg0 : Fin 128 → EReal
  fe0 : Fin 128 → EReal
  fw1 : Fin 128 → Fin 128 → EReal
  fb1 : Fin 128 → EReal
  fg1 : Fin 128 → EReal
  fe1 : Fin 128 → EReal
  fw2 : Fin 128 → Fin 128 → EReal
  fb2 : Fin 128 → EReal
  fg2 : Fin 128 → EReal
  fe2 : Fin 128 → EReal
  fw3 : Fin 128 → Fin 128 → EReal
  fb3 : Fin 128 → EReal
  dw0 : Fin 128 → Fin 64 → EReal
  db0 : Fin 64 → EReal
  dw1 : Fin 64 → Fin 32 → EReal
  db1 : Fin 32 → EReal
  dw2 : Fin 32 → Fin 16 → EReal
  db2 : Fin 16 → EReal
  cwf : Fin 3 → Fin 64 → EReal
  cwe : Fin 16 → Fin 64 → EReal

/-- One encoder block: affine map, rectifier, layer normalisation. -/
def block (x : Fin K → EReal) (W : Fin K → Fin 128 → EReal) (b g e : Fin 128 → EReal) : Fin 128 → EReal :=
  lnorm (relu (affine x W b)) g e

/-- The encoder's 128 features of a node with coordinates `c`. -/
def enc (P : Params) (c : Fin 2 → EReal) : Fin 128 → EReal :=
  relu (affine (block (block (block c P.fw0 P.fb0 P.fg0 P.fe0) P.fw1 P.fb1 P.fg1 P.fe1) P.fw2 P.fb2 P.fg2 P.fe2) P.fw3 P.fb3)

/-- The decoder's 16 features. -/
def emb (P : Params) (c : Fin 2 → EReal) : Fin 16 → EReal :=
  affine (tanhv (affine (tanhv (affine (enc P c) P.dw0 P.db0)) P.dw1 P.db1)) P.dw2 P.db2

/-- The first convolution's projection of a node: raw features against the first three weight rows plus decoded
    features against the other sixteen. -/
def proj1 (P : Params) (c : Fin 2 → EReal) (f : Fin 3 → EReal) : Fin 64 → EReal :=
  fun q => (∑ k : Fin 3, f k * P.cwf k q) + ∑ k : Fin 16, emb P c k * P.cwe k q

/-- The second kernel's row: the aggregated first-layer row `s` scaled by the node's degree factor `d`, offset, rectified,
    projected, and scaled by `d` again. -/
def proj2 (s : Fin 64 → EReal) (d : EReal) (b : Fin 64 → EReal) (W : Fin 64 → Fin 64 → EReal) : Fin 64 → EReal :=
  fun q => (∑ k : Fin 64, max (s k * d + b k) zeroW * W k q) * d

/-- The third kernel's row: the aggregated second-layer row scaled and offset, then the 64-to-1 head. -/
def head (s : Fin 64 → EReal) (d : EReal) (b : Fin 64 → EReal) (w : Fin 64 → EReal) (ob : EReal) : EReal :=
  (∑ k : Fin 64, (s k * d + b k) * w k) + ob

end Pegcn

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.KerBody12.lean ====
/-
  The second and third kernel bodies, read at an entry of the 2000-row block.

  Each body is a short chain: the aggregated row scaled by the node's degree factor (a column broadcast across the
  row), the offset row added, (the rectifier,) the product with the weight matrix into a zero accumulator, and then a
  second scaling or the scalar offset. Read at the entry (p, q), the chain is the specification's row-level function of
  row p of the block. Every narrowing of a value to a shorter format is the identity on the extended reals, and a load
  or a store through the rectangle that covers its whole block moves the block unchanged.
-/
import proofs.«171494_j72095321031133_2_alg».proof.Proof.Spec
import proofs.«171494_j72095321031133_2_alg».proof.Proof.LibPlainDot
import proofs.«171494_j72095321031133_2_alg».proof.Proof.LibRowOps
import proofs.«171494_j72095321031133_2_alg».proof.Proof.KernelIdealFrameP
import Idealize.ShloMosaic.Lib.ValueLayout
import Idealize.ShloMosaic.Lib.Pipeline.Value

noncomputable section

namespace Pegcn.Ker

open Idealize.ShloMosaic Idealize.ShloMosaic.ValueIdx Cert.KernelIdeal Cert.KernelIdeal.Gen Cert.KernelIdeal.GenP

variable {a K N : ℕ}

/-! # A product into the zero accumulator, read at an entry -/

/-- The product of a tile with a matrix into the zero accumulator, at the entry (p, q): the sum over the contracted
    coordinate of the tile's row p, handed in as `r`, against column q of the matrix. -/
theorem dotV_apply {φ₁ φ₂ : FTy} (lhs : FVec Ideal ⟨2, ![a, K]⟩ φ₁) (W : FVec Ideal ⟨2, ![K, N]⟩ φ₂)
    (prec : Option ContractPrecision) (p : Fin a) (r : Fin K → EReal) (hr : ∀ k, lhs (ix2 p k) = r k) (q : Fin N) :
    matmul (DotDims.plain a K N) prec lhs W (constant ⟨2, ![a, N]⟩ .f32 0x00000000#32) (ix2 p q)
      = ∑ k : Fin K, r k * W (ix2 k q) := by
  show FloatOps.matmul (DotDims.plain a K N) prec lhs W (constant ⟨2, ![a, N]⟩ .f32 0x00000000#32) (ix2 p q) = _
  rw [Gcn.Lib.plain_matmul_zero_apply]
  exact Finset.sum_congr rfl fun k _ => by rw [hr k]

/-- The zero offsets of a whole-block rectangle of a matrix, as the constant function. -/
theorem hz : (![0, 0] : Fin 2 → Nat) = fun _ => 0 := funext fun a => by fin_cases a <;> rfl

/-! # The second and third kernels' payloads -/

/-- The second kernel's arithmetic at the entry (p, q). -/
theorem k1_pay1_apply (v0 : Vec Ideal S2000x64 .f32) (v2 : Vec Ideal S2000x1 .f32) (v6 : Vec Ideal S1x64 .f32)
    (v13 : Vec Ideal S64x64 .f32) (p : Fin 2000) (q : Fin 64) :
    k1_pay1 (F := Ideal) v0 v2 v6 v13 (ix2 p q)
      = Pegcn.proj2 (fun k => v0 (ix2 p k)) (v2 (ix2 p 0)) (fun k => v6 (ix2 0 k)) (fun k q => v13 (ix2 k q)) q := by
  unfold k1_pay1
  simp only [shapeCast_self]
  show (_ : EReal) * _ = _
  refine congrArg₂ (· * ·) ?_ (Gcn.Lib.broadcastTo_a1_ab_apply v2 broadcasts_S2000x1_S2000x64 p q)
  exact dotV_apply (a := 2000) (K := 64) (N := 64) _ (truncf .bf16 v13 bitsLt_bf16_f32) none p _
    (fun k => by
      show max (v0 (ix2 p k) * broadcastTo S2000x64 v2 broadcasts_S2000x1_S2000x64 (ix2 p k)
        + broadcastTo S2000x64 v6 broadcasts_S1x64_S2000x64 (ix2 p k)) Pegcn.zeroW = _
      rw [Gcn.Lib.broadcastTo_a1_ab_apply, broadcastTo_1b_ab_apply]) q

/-- The third kernel's arithmetic at the entry (p, 0). -/
theorem k2_pay1_apply (v0 : Vec Ideal S2000x64 .f32) (v2 : Vec Ideal S2000x1 .f32) (v6 : Vec Ideal S1x64 .f32)
    (v11 : Vec Ideal S64x1 .f32) (v14 : Vec Ideal S1x1 .f32) (p : Fin 2000) (u : Fin 1) :
    k2_pay1 (F := Ideal) v0 v2 v6 v11 v14 (ix2 p u)
      = Pegcn.head (fun k => v0 (ix2 p k)) (v2 (ix2 p 0)) (fun k => v6 (ix2 0 k)) (fun k => v11 (ix2 k 0)) (v14 (ix2 0 0)) := by
  have hu : u = 0 := Subsingleton.elim _ _
  subst hu
  unfold k2_pay1
  simp only [shapeCast_self]
  show (_ : EReal) + _ = _
  refine congrArg₂ (· + ·) ?_ (broadcastTo_1b_ab_apply v14 broadcasts_S1x1_S2000x1 p 0)
  exact dotV_apply (a := 2000) (K := 64) (N := 1) _ (truncf .bf16 v11 bitsLt_bf16_f32) none p _
    (fun k => by
      show v0 (ix2 p k) * broadcastTo S2000x64 v2 broadcasts_S2000x1_S2000x64 (ix2 p k)
        + broadcastTo S2000x64 v6 broadcasts_S1x64_S2000x64 (ix2 p k) = _
      rw [Gcn.Lib.broadcastTo_a1_ab_apply, broadcastTo_1b_ab_apply]) 0

/-! # The output blocks -/

/-- The second kernel's output block at the entry (p, q). -/
theorem out1_4_apply (x0 : Vec Ideal S2000x64 .f32) (x1 : Vec Ideal S2000x1 .f32) (x2 : Vec Ideal S1x64 .f32)
    (x3 : Vec Ideal S64x64 .f32) (p : Fin 2000) (q : Fin 64) :
    Cert.KernelIdeal.GenP.out1_4 (F := Ideal) x0 x1 x2 x3 (ix2 p q)
      = Pegcn.proj2 (fun k => x0 (ix2 p k)) (x1 (ix2 p 0)) (fun k => x2 (ix2 0 k)) (fun k q => x3 (ix2 k q)) q := by
  unfold Cert.KernelIdeal.GenP.out1_4
  rw [View.canon_unit_zero hz]
  simp only [View.ld_unit_zero (S := S2000x64) hz, View.ld_unit_zero (S := S2000x1) hz, View.ld_unit_zero (S := S1x64) hz,
    View.ld_unit_zero (S := S64x64) hz]
  exact k1_pay1_apply x0 x1 x2 x3 p q

/-- The third kernel's output block at the entry (p, 0). -/
theorem out2_5_apply (x0 : Vec Ideal S2000x64 .f32) (x1 : Vec Ideal S2000x1 .f32) (x2 : Vec Ideal S1x64 .f32)
    (x3 : Vec Ideal S64x1 .f32) (x4 : Vec Ideal S1x1 .f32) (p : Fin 2000) (u : Fin 1) :
    Cert.KernelIdeal.GenP.out2_5 (F := Ideal) x0 x1 x2 x3 x4 (ix2 p u)
      = Pegcn.head (fun k => x0 (ix2 p k)) (x1 (ix2 p 0)) (fun k => x2 (ix2 0 k)) (fun k => x3 (ix2 k 0)) (x4 (ix2 0 0)) := by
  unfold Cert.KernelIdeal.GenP.out2_5
  rw [View.canon_unit_zero hz]
  simp only [View.ld_unit_zero (S := S2000x64) hz, View.ld_unit_zero (S := S2000x1) hz, View.ld_unit_zero (S := S1x64) hz,
    View.ld_unit_zero (S := S64x1) hz, View.ld_unit_zero (S := S1x1) hz]
  exact k2_pay1_apply x0 x1 x2 x3 x4 p u

end Pegcn.Ker

end
-- ==== Proof.KerBody0.lean ====
/-
  The first kernel's body, read at an entry of the 2000-row block.

  The body is the position encoder (three blocks "product with a weight matrix into a zero accumulator, offset row,
  rectifier, layer normalisation over the 128 features", a fourth product with offset and rectifier), the decoder (two
  products with offset and hyperbolic tangent, a third with offset), the two products of the first graph convolution
  (the raw features and the decoded features against their row blocks of the weight matrix) and the scaling by the
  node's degree factor. Its arithmetic comes as five payloads, each a function of the blocks it loads and of the
  payload before it.

  First the patterns that repeat, over any row count and any widths: a product plus a broadcast offset row is the
  affine map of the tile's row; the chain "row sums as a column over the literal 128, subtract, square, row sums
  again, add epsilon, reciprocal root, scale, gain row, offset row" is the layer normalisation of the tile's row. Each
  is stated with the tile's row p handed in as a function `r` and a proof that the tile reads as `r` along that row,
  so that the payloads chain: what one payload's lemma proves about its row is the hypothesis of the next. Then one
  lemma per payload, and the output block.
-/
import proofs.«171494_j72095321031133_2_alg».proof.Proof.KerBody12

noncomputable section

namespace Pegcn.Ker

open Idealize.ShloMosaic Idealize.ShloMosaic.ValueIdx Cert.KernelIdeal Cert.KernelIdeal.Gen Cert.KernelIdeal.GenP

variable {a b K N : ℕ}

/-! # Tile patterns read at an entry -/

/-- A product into the zero accumulator plus an offset row broadcast down the tile: the affine map of the tile's row. -/
theorem affineV_apply {φ₁ φ₂ : FTy} (lhs : FVec Ideal ⟨2, ![a, K]⟩ φ₁) (W : FVec Ideal ⟨2, ![K, N]⟩ φ₂)
    (bias : FVec Ideal ⟨2, ![1, N]⟩ .f32) (hb : (⟨2, ![1, N]⟩ : Shape).Broadcasts ⟨2, ![a, N]⟩)
    (prec : Option ContractPrecision) (p : Fin a) (r : Fin K → EReal) (hr : ∀ k, lhs (ix2 p k) = r k) (q : Fin N) :
    addf (matmul (DotDims.plain a K N) prec lhs W (constant ⟨2, ![a, N]⟩ .f32 0x00000000#32))
        (broadcastTo ⟨2, ![a, N]⟩ bias hb) (ix2 p q)
      = Pegcn.affine r (fun k q => W (ix2 k q)) (fun q => bias (ix2 0 q)) q := by
  show FloatOps.matmul (DotDims.plain a K N) prec lhs W (constant ⟨2, ![a, N]⟩ .f32 0x00000000#32) (ix2 p q)
      + broadcastTo ⟨2, ![a, N]⟩ bias hb (ix2 p q) = _
  rw [Gcn.Lib.plain_matmul_zero_apply, broadcastTo_1b_ab_apply]
  unfold Pegcn.affine
  exact congrArg (· + bias (ix2 0 q)) (Finset.sum_congr rfl fun k _ => by rw [hr k])

/-- The column of row means of a tile: row sums recast to a column, over the literal 128. -/
def meanCol (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) : FVec Ideal ⟨2, ![a, 1]⟩ .f32 :=
  divf (shapeCast ⟨2, ![a, 1]⟩ (multiReduction .add [1] ⟨1, ![a]⟩ v 0x00000000#32 h hφ hacc) h1)
    (broadcast ⟨2, ![a, 1]⟩ (Scalar.ofBits (F := Ideal) .f32 0x43000000#32))

theorem meanCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (p : Fin a) (u : Fin 1)
    (r : Fin b → EReal) (hr : ∀ k, v (ix2 p k) = r k) :
    meanCol v h hφ hacc h1 (ix2 p u) = Pegcn.mean128 r := by
  show Ideal.div (shapeCast ⟨2, ![a, 1]⟩ (multiReduction .add [1] ⟨1, ![a]⟩ v 0x00000000#32 h hφ hacc) h1 (ix2 p u))
      (Ideal.ofBits .f32 0x43000000#32) = _
  rw [Gcn.Lib.shapeCast_a_a1_apply, Gcn.Lib.rowSum_apply]
  unfold Pegcn.mean128
  exact congrArg (fun s => Ideal.div s Pegcn.c128) (Finset.sum_congr rfl fun k _ => hr k)

/-- A tile less its column of row means. -/
def centredV (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩) :
    FVec Ideal ⟨2, ![a, b]⟩ .f32 :=
  subf v (broadcastTo ⟨2, ![a, b]⟩ (meanCol v h hφ hacc h1) h2)

theorem centredV_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (r : Fin b → EReal) (hr : ∀ k, v (ix2 p k) = r k) (q : Fin b) :
    centredV v h hφ hacc h1 h2 (ix2 p q) = Pegcn.centred r q := by
  show v (ix2 p q) - broadcastTo ⟨2, ![a, b]⟩ (meanCol v h hφ hacc h1) h2 (ix2 p q) = _
  rw [Gcn.Lib.broadcastTo_a1_ab_apply, meanCol_apply v h hφ hacc h1 p 0 r hr, hr q]
  rfl

/-- The layer-normalisation chain of a tile against a gain row and an offset row. -/
def lnormV (v : FVec Ideal ⟨2, ![a, b]⟩ .f32) (g e : FVec Ideal ⟨2, ![1, b]⟩ .f32)
    (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (hg : (⟨2, ![1, b]⟩ : Shape).Broadcasts ⟨2, ![a, b]⟩) : FVec Ideal ⟨2, ![a, b]⟩ .f32 :=
  addf (mulf (mulf (centredV v h hφ hacc h1 h2)
      (broadcastTo ⟨2, ![a, b]⟩ (rsqrt (addf (meanCol (mulf (centredV v h hφ hacc h1 h2) (centredV v h hφ hacc h1 h2)) h hφ hacc h1)
        (broadcast ⟨2, ![a, 1]⟩ (Scalar.ofBits (F := Ideal) .f32 0x3727C5AC#32)))) h2))
    (broadcastTo ⟨2, ![a, b]⟩ g hg)) (broadcastTo ⟨2, ![a, b]⟩ e hg)

theorem lnormV_apply (v : FVec Ideal ⟨2, ![a, b]⟩ .f32) (g e : FVec Ideal ⟨2, ![1, b]⟩ .f32)
    (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (hg : (⟨2, ![1, b]⟩ : Shape).Broadcasts ⟨2, ![a, b]⟩)
    (p : Fin a) (r : Fin b → EReal) (hr : ∀ k, v (ix2 p k) = r k) (q : Fin b) :
    lnormV v g e h hφ hacc h1 h2 hg (ix2 p q) = Pegcn.lnorm r (fun q => g (ix2 0 q)) (fun q => e (ix2 0 q)) q := by
  show centredV v h hφ hacc h1 h2 (ix2 p q)
        * broadcastTo ⟨2, ![a, b]⟩ (rsqrt (addf (meanCol (mulf (centredV v h hφ hacc h1 h2) (centredV v h hφ hacc h1 h2)) h hφ hacc h1)
            (broadcast ⟨2, ![a, 1]⟩ (Scalar.ofBits (F := Ideal) .f32 0x3727C5AC#32)))) h2 (ix2 p q)
        * broadcastTo ⟨2, ![a, b]⟩ g hg (ix2 p q) + broadcastTo ⟨2, ![a, b]⟩ e hg (ix2 p q) = _
  rw [Gcn.Lib.broadcastTo_a1_ab_apply, broadcastTo_1b_ab_apply, broadcastTo_1b_ab_apply, centredV_apply v h hφ hacc h1 h2 p r hr q]
  show _ * Ideal.rsqrt (meanCol (mulf (centredV v h hφ hacc h1 h2) (centredV v h hφ hacc h1 h2)) h hφ hacc h1 (ix2 p 0)
      + Ideal.ofBits .f32 0x3727C5AC#32) * _ + _ = _
  rw [meanCol_apply (mulf (centredV v h hφ hacc h1 h2) (centredV v h hφ hacc h1 h2)) h hφ hacc h1 p 0
    (fun k => Pegcn.centred r k * Pegcn.centred r k)
    (fun k => by
      show centredV v h hφ hacc h1 h2 (ix2 p k) * centredV v h hφ hacc h1 h2 (ix2 p k) = _
      rw [centredV_apply v h hφ hacc h1 h2 p r hr k])]
  rfl

/-- The rectified affine map of the tile's row. -/
theorem reluAffineV_apply {φ₁ φ₂ : FTy} (lhs : FVec Ideal ⟨2, ![a, K]⟩ φ₁) (W : FVec Ideal ⟨2, ![K, N]⟩ φ₂)
    (bias : FVec Ideal ⟨2, ![1, N]⟩ .f32) (hb : (⟨2, ![1, N]⟩ : Shape).Broadcasts ⟨2, ![a, N]⟩)
    (prec : Option ContractPrecision) (p : Fin a) (r : Fin K → EReal) (hr : ∀ k, lhs (ix2 p k) = r k) (q : Fin N) :
    maximumf (addf (matmul (DotDims.plain a K N) prec lhs W (constant ⟨2, ![a, N]⟩ .f32 0x00000000#32))
        (broadcastTo ⟨2, ![a, N]⟩ bias hb)) (broadcast ⟨2, ![a, N]⟩ (Scalar.ofBits (F := Ideal) .f32 0x00000000#32)) (ix2 p q)
      = Pegcn.relu (Pegcn.affine r (fun k q => W (ix2 k q)) (fun q => bias (ix2 0 q))) q := by
  show max (addf (matmul (DotDims.plain a K N) prec lhs W (constant ⟨2, ![a, N]⟩ .f32 0x00000000#32))
        (broadcastTo ⟨2, ![a, N]⟩ bias hb) (ix2 p q)) Pegcn.zeroW = _
  rw [affineV_apply lhs W bias hb prec p r hr q]
  rfl

/-- The hyperbolic tangent of the affine map of the tile's row. -/
theorem tanhAffineV_apply {φ₁ φ₂ : FTy} (lhs : FVec Ideal ⟨2, ![a, K]⟩ φ₁) (W : FVec Ideal ⟨2, ![K, N]⟩ φ₂)
    (bias : FVec Ideal ⟨2, ![1, N]⟩ .f32) (hb : (⟨2, ![1, N]⟩ : Shape).Broadcasts ⟨2, ![a, N]⟩)
    (prec : Option ContractPrecision) (p : Fin a) (r : Fin K → EReal) (hr : ∀ k, lhs (ix2 p k) = r k) (q : Fin N) :
    tanh (addf (matmul (DotDims.plain a K N) prec lhs W (constant ⟨2, ![a, N]⟩ .f32 0x00000000#32))
        (broadcastTo ⟨2, ![a, N]⟩ bias hb)) (ix2 p q)
      = Pegcn.tanhv (Pegcn.affine r (fun k q => W (ix2 k q)) (fun q => bias (ix2 0 q))) q := by
  show Ideal.tanh (addf (matmul (DotDims.plain a K N) prec lhs W (constant ⟨2, ![a, N]⟩ .f32 0x00000000#32))
        (broadcastTo ⟨2, ![a, N]⟩ bias hb) (ix2 p q)) = _
  rw [affineV_apply lhs W bias hb prec p r hr q]
  rfl

/-- One encoder block of a tile: product, offset, rectifier, layer normalisation. -/
theorem blockV_apply {φ₁ φ₂ : FTy} (lhs : FVec Ideal ⟨2, ![a, K]⟩ φ₁) (W : FVec Ideal ⟨2, ![K, 128]⟩ φ₂)
    (bias g e : FVec Ideal ⟨2, ![1, 128]⟩ .f32) (hb : (⟨2, ![1, 128]⟩ : Shape).Broadcasts ⟨2, ![a, 128]⟩)
    (prec : Option ContractPrecision)
    (h : Shape.Reduces ⟨2, ![a, 128]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, 128]⟩)
    (p : Fin a) (r : Fin K → EReal) (hr : ∀ k, lhs (ix2 p k) = r k) (q : Fin 128) :
    lnormV (maximumf (addf (matmul (DotDims.plain a K 128) prec lhs W (constant ⟨2, ![a, 128]⟩ .f32 0x00000000#32))
        (broadcastTo ⟨2, ![a, 128]⟩ bias hb)) (broadcast ⟨2, ![a, 128]⟩ (Scalar.ofBits (F := Ideal) .f32 0x00000000#32)))
        g e h hφ hacc h1 h2 hb (ix2 p q)
      = Pegcn.block r (fun k q => W (ix2 k q)) (fun q => bias (ix2 0 q)) (fun q => g (ix2 0 q)) (fun q => e (ix2 0 q)) q :=
  lnormV_apply _ g e h hφ hacc h1 h2 hb p _ (fun k => reluAffineV_apply lhs W bias hb prec p r hr k) q

/-! # The payloads -/

/-- The first payload: the first encoder block of the coordinates. -/
theorem pay2_apply (v0 : Vec Ideal S2000x2 .f32) (v2 : Vec Ideal S2x128 .f32) (v5 v29 v33 : Vec Ideal S1x128 .f32)
    (p : Fin 2000) (q : Fin 128) :
    k0_pay2 (F := Ideal) v0 v2 v5 v29 v33 (ix2 p q)
      = Pegcn.block (fun k => v0 (ix2 p k)) (fun k j => v2 (ix2 k j)) (fun j => v5 (ix2 0 j)) (fun j => v29 (ix2 0 j))
          (fun j => v33 (ix2 0 j)) q := by
  unfold k0_pay2
  simp only [shapeCast_self]
  exact blockV_apply (a := 2000) (K := 2) (truncf .bf16 v0 bitsLt_bf16_f32) (truncf .bf16 v2 bitsLt_bf16_f32) v5 v29 v33
    broadcasts_S1x128_S2000x128 none reduces_S2000x128_S2000 (.inl rfl) rfl shapeCasts_S2000_S2000x1
    broadcasts_S2000x1_S2000x128 p (fun k => v0 (ix2 p k)) (fun _ => rfl) q

/-- The second payload is its operand: narrowing is the identity on the extended reals. -/
theorem pay3_apply (v38 : Vec Ideal S128x128 .f32) (i : S128x128.Idx) : k0_pay3 (F := Ideal) v38 i = v38 i := rfl

/-- The third payload: the second encoder block of the row handed in, then the third block's affine map. -/
theorem pay4_apply (v37 : FVec Ideal S2000x128 .bf16) (v39 : FVec Ideal S128x128 .bf16) (v41 v65 v69 : Vec Ideal S1x128 .f32)
    (v74 : Vec Ideal S128x128 .f32) (v77 : Vec Ideal S1x128 .f32)
    (p : Fin 2000) (r : Fin 128 → EReal) (hr : ∀ k, v37 (ix2 p k) = r k) (q : Fin 128) :
    k0_pay4 (F := Ideal) v37 v39 v41 v65 v69 v74 v77 (ix2 p q)
      = Pegcn.affine (Pegcn.block r (fun k j => v39 (ix2 k j)) (fun j => v41 (ix2 0 j)) (fun j => v65 (ix2 0 j))
          (fun j => v69 (ix2 0 j))) (fun k j => v74 (ix2 k j)) (fun j => v77 (ix2 0 j)) q := by
  unfold k0_pay4
  simp only [shapeCast_self]
  exact affineV_apply (a := 2000) (K := 128) (N := 128) _ (truncf .bf16 v74 bitsLt_bf16_f32) v77 broadcasts_S1x128_S2000x128 none p _
    (fun k => blockV_apply (a := 2000) (K := 128) v37 v39 v41 v65 v69 broadcasts_S1x128_S2000x128 none
      reduces_S2000x128_S2000 (.inl rfl) rfl shapeCasts_S2000_S2000x1 broadcasts_S2000x1_S2000x128 p r hr k) q

/-- The fourth payload: rectifier and layer normalisation closing the third block, the fourth affine map with its
    rectifier, and the product with the decoder's first matrix. -/
theorem pay5_apply (v80 : FVec Ideal S2000x128 .f32) (v101 v105 : Vec Ideal S1x128 .f32) (v110 : Vec Ideal S128x128 .f32)
    (v113 : Vec Ideal S1x128 .f32) (v120 : Vec Ideal S128x64 .f32)
    (p : Fin 2000) (r : Fin 128 → EReal) (hr : ∀ k, v80 (ix2 p k) = r k) (q : Fin 64) :
    k0_pay5 (F := Ideal) v80 (Scalar.ofBits .f32 0x00000000#32) v101 v105 v110 v113 v120 (ix2 p q)
      = ∑ k : Fin 128, Pegcn.relu (Pegcn.affine (Pegcn.lnorm (Pegcn.relu r) (fun j => v101 (ix2 0 j)) (fun j => v105 (ix2 0 j)))
          (fun k j => v110 (ix2 k j)) (fun j => v113 (ix2 0 j))) k * v120 (ix2 k q) := by
  unfold k0_pay5
  simp only [shapeCast_self]
  exact dotV_apply (a := 2000) (K := 128) (N := 64) _ (truncf .bf16 v120 bitsLt_bf16_f32) none p _
    (fun k => reluAffineV_apply (a := 2000) (K := 128) (N := 128) _ (truncf .bf16 v110 bitsLt_bf16_f32) v113
      broadcasts_S1x128_S2000x128 none p _
      (fun k' => lnormV_apply (a := 2000) (b := 128) _ v101 v105 reduces_S2000x128_S2000 (.inl rfl) rfl shapeCasts_S2000_S2000x1
        broadcasts_S2000x1_S2000x128 broadcasts_S1x128_S2000x128 p (Pegcn.relu r)
        (fun j => by show max (v80 (ix2 p j)) Pegcn.zeroW = _; rw [hr j]; rfl) k') k) q

/-- The fifth payload: the decoder from its first offset on, the two projections of the first convolution, and the
    scaling by the node's degree factor. -/
theorem pay6_apply (v122 : FVec Ideal S2000x64 .f32) (v123 : Vec Ideal S1x64 .f32) (v129 : Vec Ideal S64x32 .f32)
    (v132 : Vec Ideal S1x32 .f32) (v138 : Vec Ideal S32x16 .f32) (v141 : Vec Ideal S1x16 .f32) (v145 : Vec Ideal S2000x3 .f32)
    (v147 : Vec Ideal S3x64 .f32) (v152 : Vec Ideal S16x64 .f32) (v157 : Vec Ideal S2000x1 .f32)
    (p : Fin 2000) (r : Fin 64 → EReal) (hr : ∀ k, v122 (ix2 p k) = r k) (q : Fin 64) :
    k0_pay6 (F := Ideal) v122 v123 v129 v132 v138 v141 v145 v147 v152 v157 (ix2 p q)
      = ((∑ k : Fin 3, v145 (ix2 p k) * v147 (ix2 k q))
          + ∑ k : Fin 16, Pegcn.affine (Pegcn.tanhv (Pegcn.affine (Pegcn.tanhv (fun j => r j + v123 (ix2 0 j)))
              (fun k j => v129 (ix2 k j)) (fun j => v132 (ix2 0 j)))) (fun k j => v138 (ix2 k j)) (fun j => v141 (ix2 0 j)) k
            * v152 (ix2 k q))
        * v157 (ix2 p 0) := by
  unfold k0_pay6
  simp only [shapeCast_self]
  show ((_ : EReal) + _) * _ = _
  refine congrArg₂ (· * ·) (congrArg₂ (· + ·) ?_ ?_) (Gcn.Lib.broadcastTo_a1_ab_apply v157 broadcasts_S2000x1_S2000x64 p q)
  · exact dotV_apply (a := 2000) (K := 3) (N := 64) (truncf .bf16 v145 bitsLt_bf16_f32) (truncf .bf16 v147 bitsLt_bf16_f32) none p
      (fun k => v145 (ix2 p k)) (fun _ => rfl) q
  · exact dotV_apply (a := 2000) (K := 16) (N := 64) _ (truncf .bf16 v152 bitsLt_bf16_f32) none p _
      (fun k => affineV_apply (a := 2000) (K := 32) (N := 16) _ (truncf .bf16 v138 bitsLt_bf16_f32) v141 broadcasts_S1x16_S2000x16 none p _
        (fun k' => tanhAffineV_apply (a := 2000) (K := 64) (N := 32) _ (truncf .bf16 v129 bitsLt_bf16_f32) v132 broadcasts_S1x32_S2000x32 none p _
          (fun j => by
            show Ideal.tanh (v122 (ix2 p j) + broadcastTo S2000x64 v123 broadcasts_S1x64_S2000x64 (ix2 p j)) = _
            rw [hr j, broadcastTo_1b_ab_apply]; rfl) k') k) q

/-- The stored payload is the fifth: narrowing is the identity on the extended reals. -/
theorem pay1_apply (v160 : FVec Ideal S2000x64 .f32) (i : S2000x64.Idx) : k0_pay1 (F := Ideal) v160 i = v160 i := rfl

/-! # The output block -/

/-- The weights as the first kernel's parameter blocks hold them: a matrix block entry by entry, a one-row block by
    its row. -/
def blockParams (x3 : Vec Ideal S2x128 .f32)
    (x4 x5 x6 : Vec Ideal S1x128 .f32) (x7 : Vec Ideal S128x128 .f32) (x8 x9 x10 : Vec Ideal S1x128 .f32)
    (x11 : Vec Ideal S128x128 .f32) (x12 x13 x14 : Vec Ideal S1x128 .f32) (x15 : Vec Ideal S128x128 .f32)
    (x16 : Vec Ideal S1x128 .f32) (x17 : Vec Ideal S128x64 .f32) (x18 : Vec Ideal S1x64 .f32) (x19 : Vec Ideal S64x32 .f32)
    (x20 : Vec Ideal S1x32 .f32) (x21 : Vec Ideal S32x16 .f32) (x22 : Vec Ideal S1x16 .f32) (x23 : Vec Ideal S3x64 .f32)
    (x24 : Vec Ideal S16x64 .f32) : Pegcn.Params where
  fw0 := fun k q => x3 (ix2 k q)
  fb0 := fun q => x4 (ix2 0 q)
  fg0 := fun q => x5 (ix2 0 q)
  fe0 := fun q => x6 (ix2 0 q)
  fw1 := fun k q => x7 (ix2 k q)
  fb1 := fun q => x8 (ix2 0 q)
  fg1 := fun q => x9 (ix2 0 q)
  fe1 := fun q => x10 (ix2 0 q)
  fw2 := fun k q => x11 (ix2 k q)
  fb2 := fun q => x12 (ix2 0 q)
  fg2 := fun q => x13 (ix2 0 q)
  fe2 := fun q => x14 (ix2 0 q)
  fw3 := fun k q => x15 (ix2 k q)
  fb3 := fun q => x16 (ix2 0 q)
  dw0 := fun k q => x17 (ix2 k q)
  db0 := fun q => x18 (ix2 0 q)
  dw1 := fun k q => x19 (ix2 k q)
  db1 := fun q => x20 (ix2 0 q)
  dw2 := fun k q => x21 (ix2 k q)
  db2 := fun q => x22 (ix2 0 q)
  cwf := fun k q => x23 (ix2 k q)
  cwe := fun k q => x24 (ix2 k q)

/-- The first kernel's output block at the entry (p, q): the first convolution's projection of row p, scaled by the
    row's degree factor. -/
theorem out0_25_apply (x0 : Vec Ideal S2000x2 .f32) (x1 : Vec Ideal S2000x3 .f32) (x2 : Vec Ideal S2000x1 .f32) (x3 : Vec Ideal S2x128 .f32)
    (x4 x5 x6 : Vec Ideal S1x128 .f32) (x7 : Vec Ideal S128x128 .f32) (x8 x9 x10 : Vec Ideal S1x128 .f32)
    (x11 : Vec Ideal S128x128 .f32) (x12 x13 x14 : Vec Ideal S1x128 .f32) (x15 : Vec Ideal S128x128 .f32)
    (x16 : Vec Ideal S1x128 .f32) (x17 : Vec Ideal S128x64 .f32) (x18 : Vec Ideal S1x64 .f32) (x19 : Vec Ideal S64x32 .f32)
    (x20 : Vec Ideal S1x32 .f32) (x21 : Vec Ideal S32x16 .f32) (x22 : Vec Ideal S1x16 .f32) (x23 : Vec Ideal S3x64 .f32)
    (x24 : Vec Ideal S16x64 .f32) (p : Fin 2000) (q : Fin 64) :
    Cert.KernelIdeal.GenP.out0_25 (F := Ideal) x0 x1 x2 x3 x4 x5 x6 x7 x8 x9 x10 x11 x12 x13 x14 x15 x16 x17 x18 x19 x20 x21 x22 x23 x24 (ix2 p q)
      = Pegcn.proj1 (blockParams x3 x4 x5 x6 x7 x8 x9 x10 x11 x12 x13 x14 x15 x16 x17 x18 x19 x20 x21 x22 x23 x24) (fun k => x0 (ix2 p k)) (fun k => x1 (ix2 p k)) q * x2 (ix2 p 0) := by
  unfold Cert.KernelIdeal.GenP.out0_25
  rw [View.canon_unit_zero hz]
  simp only [View.ld_unit_zero (S := S2000x2) hz, View.ld_unit_zero (S := S2000x3) hz, View.ld_unit_zero (S := S2000x1) hz,
    View.ld_unit_zero (S := S2x128) hz, View.ld_unit_zero (S := S1x128) hz, View.ld_unit_zero (S := S128x128) hz,
    View.ld_unit_zero (S := S128x64) hz, View.ld_unit_zero (S := S1x64) hz, View.ld_unit_zero (S := S64x32) hz,
    View.ld_unit_zero (S := S1x32) hz, View.ld_unit_zero (S := S32x16) hz, View.ld_unit_zero (S := S1x16) hz,
    View.ld_unit_zero (S := S3x64) hz, View.ld_unit_zero (S := S16x64) hz]
  exact (pay6_apply _ x18 x19 x20 x21 x22 x1 x23 x24 x2 p _
    (fun j => pay5_apply _ x13 x14 x15 x16 x17 p _
      (fun k => pay4_apply _ _ x8 x9 x10 x11 x12 p _ (fun k' => pay2_apply x0 x3 x4 x5 x6 p k') k) j) q).trans rfl

end Pegcn.Ker

end
-- ==== Proof.KerArr0.lean ====
/-
  Region 0 of the idealized kernel program, from blocks to the whole array.

  Every grid point writes back one 2000-row block of the output array, computed from the rows of the same numbers in
  the node-indexed inputs and from the whole parameter arrays; the fifty blocks tile the array. So after the region the
  output array is, entry by entry, the kernel's row function of the arrays the region found.
-/
import proofs.«171494_j72095321031133_2_alg».proof.Proof.KerBlk0
import proofs.«171494_j72095321031133_2_alg».proof.Proof.KerBody0

set_option maxRecDepth 16384

noncomputable section

namespace Cert.KernelIdeal.RunValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The output entry `(n, q)` as the row function of the arrays the region finds. -/
def g0 (c : Dev nD) (n : Fin 100000) (q : Fin 64) : EReal :=
  Pegcn.proj1 (Pegcn.Ker.blockParams (V c main_arg3) (V c main_v14) (V c main_v15) (V c main_v16) (V c main_arg7) (V c main_v17) (V c main_v18) (V c main_v19) (V c main_arg11) (V c main_v20) (V c main_v21) (V c main_v22) (V c main_arg15) (V c main_v23) (V c main_arg17) (V c main_v24) (V c main_arg19) (V c main_v25) (V c main_arg21) (V c main_v26) (V c main_v12) (V c main_v13))
    (fun k => V c main_arg0 (ix2 n k)) (fun k => V c main_arg1 (ix2 n k)) q * V c main_v11 (ix2 n 0)

/-- The same as one function on the output array's indices. -/
def G0 (c : Dev nD) : S100000x64.Idx → EReal := fun i => g0 V c ⟨(i 0).val, (i 0).isLt⟩ ⟨(i 1).val, (i 1).isLt⟩

/-- Entry `(p, q)` of point `t`'s output block is entry `(2000 t + p, q)` of the array. -/
theorem emb_out0 (t : Fin cfg0.N) (p : Fin 2000) (q : Fin 64) :
    ((cfg0.win 25).blk t).view.emb (ix2 p q) = ix2 (⟨t.val * 2000 + p.val, by have := lt50_0 t; have := p.isLt; omega⟩ : Fin 100000) q := by
  funext a
  apply Fin.ext
  match a with
  | ⟨0, _⟩ => show win0_25.index t (0 : Fin 2) * 2000 + 1 * p.val = t.val * 2000 + p.val; rw [(idx0_25 t).1]; omega
  | ⟨1, _⟩ => show win0_25.index t (1 : Fin 2) * 64 + 1 * q.val = q.val; rw [(idx0_25 t).2]; omega

/-- WHAT POINT `t` WRITES BACK is block `t` of the row function applied to the arrays as found. -/
theorem flushed0_eq (c : Dev nD) (t : Fin cfg0.N) :
    (dat0 V c).flushed 25 t = ((cfg0.win 25).blk t).view.read (Elt Ideal) (G0 V c) := by
  show (cfg0.win 25).cut (grid0.coords t) ((dat0 V c).after 25 t) = _
  rw [after0_25]
  funext y
  obtain ⟨p, q, rfl⟩ : ∃ (p : Fin 2000) (q : Fin 64), y = ix2 p q := ⟨y 0, y 1, eq_ix2 y⟩
  show out0_25 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (ix2 p q) = G0 V c (((cfg0.win 25).blk t).view.emb (ix2 p q))
  rw [emb_out0 t p q]
  refine (Pegcn.Ker.out0_25_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) p q).trans ?_
  have hr0 : (fun k => iblk0 V c 0 t (ix2 p k)) = fun k => V c main_arg0 (ix2 (⟨t.val * 2000 + p.val, by have := lt50_0 t; have := p.isLt; omega⟩ : Fin 100000) k) := funext fun k => rd0_0 V c t p k
  have hr1 : (fun k => iblk0 V c 1 t (ix2 p k)) = fun k => V c main_arg1 (ix2 (⟨t.val * 2000 + p.val, by have := lt50_0 t; have := p.isLt; omega⟩ : Fin 100000) k) := funext fun k => rd0_1 V c t p k
  have hr2 : iblk0 V c 2 t (ix2 p (0 : Fin 1)) = V c main_v11 (ix2 (⟨t.val * 2000 + p.val, by have := lt50_0 t; have := p.isLt; omega⟩ : Fin 100000) (0 : Fin 1)) := rd0_2 V c t p 0
  rw [hr0, hr1, hr2, rd0_3 V c t, rd0_4 V c t, rd0_5 V c t, rd0_6 V c t, rd0_7 V c t, rd0_8 V c t, rd0_9 V c t, rd0_10 V c t, rd0_11 V c t, rd0_12 V c t, rd0_13 V c t, rd0_14 V c t, rd0_15 V c t, rd0_16 V c t, rd0_17 V c t, rd0_18 V c t, rd0_19 V c t, rd0_20 V c t, rd0_21 V c t, rd0_22 V c t, rd0_23 V c t, rd0_24 V c t]
  rfl

/-- An index of the array is in point `t`'s block iff each coordinate is in the block's range. -/
theorem mem_blk0 (t : Fin cfg0.N) (i : S100000x64.Idx) :
    i ∈ ((cfg0.win 25).blk t).view.set ↔ ∀ a : Fin 2, win0_25.index t a * S2000x64.size a ≤ (i a).val ∧ (i a).val < win0_25.index t a * S2000x64.size a + S2000x64.size a := by
  show i ∈ ((View.whole main_v27).slice (win0_25.rect t)).set ↔ _
  rw [View.set_slice_whole, Rect.mem_set_unit]
  exact Iff.rfl

/-- The fifty blocks tile the array: row `r` is in the block of point `r / 2000`. -/
theorem cover0 (i : S100000x64.Idx) :
    ∃ t : Fin cfg0.N, (cfg0.win 25).flush t = true ∧ i ∈ ((cfg0.win 25).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_25 _, ?_⟩
  rw [mem_blk0]
  intro a
  match a with
  | ⟨0, _⟩ =>
    show win0_25.index _ (0 : Fin 2) * 2000 ≤ (i 0).val ∧ (i 0).val < win0_25.index _ (0 : Fin 2) * 2000 + 2000
    rw [(idx0_25 _).1]
    show (i 0).val / 2000 * 2000 ≤ (i 0).val ∧ (i 0).val < (i 0).val / 2000 * 2000 + 2000
    omega
  | ⟨1, _⟩ =>
    show win0_25.index _ (1 : Fin 2) * 64 ≤ (i 1).val ∧ (i 1).val < win0_25.index _ (1 : Fin 2) * 64 + 64
    rw [(idx0_25 _).2]
    omega

/-- THE ARRAY after the region: the row function, entry by entry. -/
theorem final0 (c : Dev nD) : (dat0 V c).arrAt 25 cfg0.N = G0 V c :=
  (dat0 V c).arrAt_eq_of_cover 25 (G0 V c) (fun t _ => flushed0_eq V c t) cover0

end Cert.KernelIdeal.RunValue

end
-- ==== Proof.KerBlk1.lean ====
/-
  Region 1 of the idealized kernel program: what a grid point's input blocks are, read off the arrays as the region
  finds them.

  Point t takes rows 2000 t … 2000 t + 1999 of the aggregated first-layer array and of the degree factors, and the whole
  of the offset row and the 64 x 64 weight matrix.
-/
import proofs.«171494_j72095321031133_2_alg».proof.Proof.KernelIdealFrameP
import Idealize.ShloMosaic.Lib.ValueIdx
import Idealize.ShloMosaic.Lib.Pipeline.Value

set_option maxRecDepth 16384

noncomputable section

namespace Cert.KernelIdeal.RunValue

open Idealize.ShloMosaic Idealize.ShloMosaic.TcCoe Idealize.ShloMosaic.ValueIdx Idealize.SL.Sem
open Cert.KernelIdeal Cert.KernelIdeal.Gen Cert.KernelIdeal.GenP

variable {F : FTy → Type} [FloatOps F]
variable (V : (c : Dev nD) → (b : Ref sig .tc) → Buf (Elt F) ((c : Thread nD τ).loc b))

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)

theorem lt50_1 (t : Fin cfg1.N) : t.val < 50 := t.isLt

/-- Row `p` of point `t`'s block of window 0 is row `2000 t + p` of its array. -/
theorem rd1_0 (c : Dev nD) (t : Fin cfg1.N) (p : Fin 2000) (k : Fin 64) :
    iblk1 V c 0 t (ix2 p k) = V c main_v40 (ix2 (⟨t.val * 2000 + p.val, by have := lt50_1 t; have := p.isLt; omega⟩ : Fin 100000) k) := by
  show V c main_v40 (((cfg1.win 0).blk t).view.emb (ix2 p k)) = _
  refine congrArg (V c main_v40) (funext fun a => Fin.ext ?_)
  match a with
  | ⟨0, _⟩ => show win1_0.index t (0 : Fin 2) * 2000 + 1 * p.val = t.val * 2000 + p.val; rw [(idx1_0 t).1]; omega
  | ⟨1, _⟩ => show win1_0.index t (1 : Fin 2) * 64 + 1 * k.val = k.val; rw [(idx1_0 t).2]; omega

/-- Row `p` of point `t`'s block of window 1 is row `2000 t + p` of its array. -/
theorem rd1_1 (c : Dev nD) (t : Fin cfg1.N) (p : Fin 2000) (k : Fin 1) :
    iblk1 V c 1 t (ix2 p k) = V c main_v11 (ix2 (⟨t.val * 2000 + p.val, by have := lt50_1 t; have := p.isLt; omega⟩ : Fin 100000) k) := by
  show V c main_v11 (((cfg1.win 1).blk t).view.emb (ix2 p k)) = _
  refine congrArg (V c main_v11) (funext fun a => Fin.ext ?_)
  match a with
  | ⟨0, _⟩ => show win1_1.index t (0 : Fin 2) * 2000 + 1 * p.val = t.val * 2000 + p.val; rw [(idx1_1 t).1]; omega
  | ⟨1, _⟩ => show win1_1.index t (1 : Fin 2) * 1 + 1 * k.val = k.val; rw [(idx1_1 t).2]; omega

/-- Window 2 is resident: every point's block is the whole array. -/
theorem rd1_2 (c : Dev nD) (t : Fin cfg1.N) : iblk1 V c 2 t = V c main_v41 := by
  funext y
  show V c main_v41 (((cfg1.win 2).blk t).view.emb y) = V c main_v41 y
  refine congrArg (V c main_v41) (funext fun a => Fin.ext ?_)
  match a with
  | ⟨0, _⟩ => show win1_2.index t (0 : Fin 2) * 1 + 1 * (y 0).val = (y 0).val; rw [(idx1_2 t).1]; omega
  | ⟨1, _⟩ => show win1_2.index t (1 : Fin 2) * 64 + 1 * (y 1).val = (y 1).val; rw [(idx1_2 t).2]; omega

/-- Window 3 is resident: every point's block is the whole array. -/
theorem rd1_3 (c : Dev nD) (t : Fin cfg1.N) : iblk1 V c 3 t = V c main_arg25 := by
  funext y
  show V c main_arg25 (((cfg1.win 3).blk t).view.emb y) = V c main_arg25 y
  refine congrArg (V c main_arg25) (funext fun a => Fin.ext ?_)
  match a with
  | ⟨0, _⟩ => show win1_3.index t (0 : Fin 2) * 64 + 1 * (y 0).val = (y 0).val; rw [(idx1_3 t).1]; omega
  | ⟨1, _⟩ => show win1_3.index t (1 : Fin 2) * 64 + 1 * (y 1).val = (y 1).val; rw [(idx1_3 t).2]; omega

end Cert.KernelIdeal.RunValue

end
-- ==== Proof.KerArr1.lean ====
/-
  Region 1 of the idealized kernel program, from blocks to the whole array.

  Every grid point writes back one 2000-row block of the output array, computed from the rows of the same numbers in
  the node-indexed inputs and from the whole parameter arrays; the fifty blocks tile the array. So after the region the
  output array is, entry by entry, the kernel's row function of the arrays the region found.
-/
import proofs.«171494_j72095321031133_2_alg».proof.Proof.KerBlk1
import proofs.«171494_j72095321031133_2_alg».proof.Proof.KerBody12

set_option maxRecDepth 16384

noncomputable section

namespace Cert.KernelIdeal.RunValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The output entry `(n, q)` as the row function of the arrays the region finds. -/
def g1 (c : Dev nD) (n : Fin 100000) (q : Fin 64) : EReal :=
  Pegcn.proj2 (fun k => V c main_v40 (ix2 n k)) (V c main_v11 (ix2 n 0)) (fun k => V c main_v41 (ix2 0 k)) (fun k q' => V c main_arg25 (ix2 k q')) q

/-- The same as one function on the output array's indices. -/
def G1 (c : Dev nD) : S100000x64.Idx → EReal := fun i => g1 V c ⟨(i 0).val, (i 0).isLt⟩ ⟨(i 1).val, (i 1).isLt⟩

/-- Entry `(p, q)` of point `t`'s output block is entry `(2000 t + p, q)` of the array. -/
theorem emb_out1 (t : Fin cfg1.N) (p : Fin 2000) (q : Fin 64) :
    ((cfg1.win 4).blk t).view.emb (ix2 p q) = ix2 (⟨t.val * 2000 + p.val, by have := lt50_1 t; have := p.isLt; omega⟩ : Fin 100000) q := by
  funext a
  apply Fin.ext
  match a with
  | ⟨0, _⟩ => show win1_4.index t (0 : Fin 2) * 2000 + 1 * p.val = t.val * 2000 + p.val; rw [(idx1_4 t).1]; omega
  | ⟨1, _⟩ => show win1_4.index t (1 : Fin 2) * 64 + 1 * q.val = q.val; rw [(idx1_4 t).2]; omega

/-- WHAT POINT `t` WRITES BACK is block `t` of the row function applied to the arrays as found. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  funext y
  obtain ⟨p, q, rfl⟩ : ∃ (p : Fin 2000) (q : Fin 64), y = ix2 p q := ⟨y 0, y 1, eq_ix2 y⟩
  show out1_4 (F := Ideal) (iblk1 V c 0 t) (iblk1 V c 1 t) (iblk1 V c 2 t) (iblk1 V c 3 t) (ix2 p q) = G1 V c (((cfg1.win 4).blk t).view.emb (ix2 p q))
  rw [emb_out1 t p q]
  refine (Pegcn.Ker.out1_4_apply (iblk1 V c 0 t) (iblk1 V c 1 t) (iblk1 V c 2 t) (iblk1 V c 3 t) p q).trans ?_
  have hr0 : (fun k => iblk1 V c 0 t (ix2 p k)) = fun k => V c main_v40 (ix2 (⟨t.val * 2000 + p.val, by have := lt50_1 t; have := p.isLt; omega⟩ : Fin 100000) k) := funext fun k => rd1_0 V c t p k
  have hr1 : iblk1 V c 1 t (ix2 p (0 : Fin 1)) = V c main_v11 (ix2 (⟨t.val * 2000 + p.val, by have := lt50_1 t; have := p.isLt; omega⟩ : Fin 100000) (0 : Fin 1)) := rd1_1 V c t p 0
  rw [hr0, hr1, rd1_2 V c t, rd1_3 V c t]
  rfl

/-- An index of the array is in point `t`'s block iff each coordinate is in the block's range. -/
theorem mem_blk1 (t : Fin cfg1.N) (i : S100000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v42).slice (win1_4.rect t)).set ↔ _
  rw [View.set_slice_whole, Rect.mem_set_unit]
  exact Iff.rfl

/-- The fifty blocks tile the array: row `r` is in the block of point `r / 2000`. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 50 := N_1
  refine ⟨⟨(i 0).val / 2000, by rw [hN]; omega⟩, flush1_4 _, ?_⟩
  rw [mem_blk1]
  intro a
  match a with
  | ⟨0, _⟩ =>
    show win1_4.index _ (0 : Fin 2) * 2000 ≤ (i 0).val ∧ (i 0).val < win1_4.index _ (0 : Fin 2) * 2000 + 2000
    rw [(idx1_4 _).1]
    show (i 0).val / 2000 * 2000 ≤ (i 0).val ∧ (i 0).val < (i 0).val / 2000 * 2000 + 2000
    omega
  | ⟨1, _⟩ =>
    show win1_4.index _ (1 : Fin 2) * 64 ≤ (i 1).val ∧ (i 1).val < win1_4.index _ (1 : Fin 2) * 64 + 64
    rw [(idx1_4 _).2]
    omega

/-- THE ARRAY after the region: the row function, entry by entry. -/
theorem final1 (c : Dev nD) : (dat1 V c).arrAt 4 cfg1.N = G1 V c :=
  (dat1 V c).arrAt_eq_of_cover 4 (G1 V c) (fun t _ => flushed1_eq V c t) cover1

end Cert.KernelIdeal.RunValue

end
-- ==== Proof.KerBlk2.lean ====
/-
  Region 2 of the idealized kernel program: what a grid point's input blocks are, read off the arrays as the region
  finds them.

  Point t takes rows 2000 t … 2000 t + 1999 of the aggregated second-layer array and of the degree factors, and the
  whole of the offset row, the 64 x 1 head weights and the head's offset.
-/
import proofs.«171494_j72095321031133_2_alg».proof.Proof.KernelIdealFrameP
import Idealize.ShloMosaic.Lib.ValueIdx
import Idealize.ShloMosaic.Lib.Pipeline.Value

set_option maxRecDepth 16384

noncomputable section

namespace Cert.KernelIdeal.RunValue

open Idealize.ShloMosaic Idealize.ShloMosaic.TcCoe Idealize.ShloMosaic.ValueIdx Idealize.SL.Sem
open Cert.KernelIdeal Cert.KernelIdeal.Gen Cert.KernelIdeal.GenP

variable {F : FTy → Type} [FloatOps F]
variable (V : (c : Dev nD) → (b : Ref sig .tc) → Buf (Elt F) ((c : Thread nD τ).loc b))

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)

theorem lt50_2 (t : Fin cfg2.N) : t.val < 50 := t.isLt

/-- Row `p` of point `t`'s block of window 0 is row `2000 t + p` of its array. -/
theorem rd2_0 (c : Dev nD) (t : Fin cfg2.N) (p : Fin 2000) (k : Fin 64) :
    iblk2 V c 0 t (ix2 p k) = V c main_v55 (ix2 (⟨t.val * 2000 + p.val, by have := lt50_2 t; have := p.isLt; omega⟩ : Fin 100000) k) := by
  show V c main_v55 (((cfg2.win 0).blk t).view.emb (ix2 p k)) = _
  refine congrArg (V c main_v55) (funext fun a => Fin.ext ?_)
  match a with
  | ⟨0, _⟩ => show win2_0.index t (0 : Fin 2) * 2000 + 1 * p.val = t.val * 2000 + p.val; rw [(idx2_0 t).1]; omega
  | ⟨1, _⟩ => show win2_0.index t (1 : Fin 2) * 64 + 1 * k.val = k.val; rw [(idx2_0 t).2]; omega

/-- Row `p` of point `t`'s block of window 1 is row `2000 t + p` of its array. -/
theorem rd2_1 (c : Dev nD) (t : Fin cfg2.N) (p : Fin 2000) (k : Fin 1) :
    iblk2 V c 1 t (ix2 p k) = V c main_v11 (ix2 (⟨t.val * 2000 + p.val, by have := lt50_2 t; have := p.isLt; omega⟩ : Fin 100000) k) := by
  show V c main_v11 (((cfg2.win 1).blk t).view.emb (ix2 p k)) = _
  refine congrArg (V c main_v11) (funext fun a => Fin.ext ?_)
  match a with
  | ⟨0, _⟩ => show win2_1.index t (0 : Fin 2) * 2000 + 1 * p.val = t.val * 2000 + p.val; rw [(idx2_1 t).1]; omega
  | ⟨1, _⟩ => show win2_1.index t (1 : Fin 2) * 1 + 1 * k.val = k.val; rw [(idx2_1 t).2]; omega

/-- Window 2 is resident: every point's block is the whole array. -/
theorem rd2_2 (c : Dev nD) (t : Fin cfg2.N) : iblk2 V c 2 t = V c main_v56 := by
  funext y
  show V c main_v56 (((cfg2.win 2).blk t).view.emb y) = V c main_v56 y
  refine congrArg (V c main_v56) (funext fun a => Fin.ext ?_)
  match a with
  | ⟨0, _⟩ => show win2_2.index t (0 : Fin 2) * 1 + 1 * (y 0).val = (y 0).val; rw [(idx2_2 t).1]; omega
  | ⟨1, _⟩ => show win2_2.index t (1 : Fin 2) * 64 + 1 * (y 1).val = (y 1).val; rw [(idx2_2 t).2]; omega

/-- Window 3 is resident: every point's block is the whole array. -/
theorem rd2_3 (c : Dev nD) (t : Fin cfg2.N) : iblk2 V c 3 t = V c main_arg27 := by
  funext y
  show V c main_arg27 (((cfg2.win 3).blk t).view.emb y) = V c main_arg27 y
  refine congrArg (V c main_arg27) (funext fun a => Fin.ext ?_)
  match a with
  | ⟨0, _⟩ => show win2_3.index t (0 : Fin 2) * 64 + 1 * (y 0).val = (y 0).val; rw [(idx2_3 t).1]; omega
  | ⟨1, _⟩ => show win2_3.index t (1 : Fin 2) * 1 + 1 * (y 1).val = (y 1).val; rw [(idx2_3 t).2]; omega

/-- Window 4 is resident: every point's block is the whole array. -/
theorem rd2_4 (c : Dev nD) (t : Fin cfg2.N) : iblk2 V c 4 t = V c main_v57 := by
  funext y
  show V c main_v57 (((cfg2.win 4).blk t).view.emb y) = V c main_v57 y
  refine congrArg (V c main_v57) (funext fun a => Fin.ext ?_)
  match a with
  | ⟨0, _⟩ => show win2_4.index t (0 : Fin 2) * 1 + 1 * (y 0).val = (y 0).val; rw [(idx2_4 t).1]; omega
  | ⟨1, _⟩ => show win2_4.index t (1 : Fin 2) * 1 + 1 * (y 1).val = (y 1).val; rw [(idx2_4 t).2]; omega

end Cert.KernelIdeal.RunValue

end
-- ==== Proof.KerArr2.lean ====
/-
  Region 2 of the idealized kernel program, from blocks to the whole array.

  Every grid point writes back one 2000-row block of the output array, computed from the rows of the same numbers in
  the node-indexed inputs and from the whole parameter arrays; the fifty blocks tile the array. So after the region the
  output array is, entry by entry, the kernel's row function of the arrays the region found.
-/
import proofs.«171494_j72095321031133_2_alg».proof.Proof.KerBlk2
import proofs.«171494_j72095321031133_2_alg».proof.Proof.KerBody12

set_option maxRecDepth 16384

noncomputable section

namespace Cert.KernelIdeal.RunValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The output entry `(n, q)` as the row function of the arrays the region finds. -/
def g2 (c : Dev nD) (n : Fin 100000) (q : Fin 1) : EReal :=
  Pegcn.head (fun k => V c main_v55 (ix2 n k)) (V c main_v11 (ix2 n 0)) (fun k => V c main_v56 (ix2 0 k)) (fun k => V c main_arg27 (ix2 k 0)) (V c main_v57 (ix2 0 0))

/-- The same as one function on the output array's indices. -/
def G2 (c : Dev nD) : S100000x1.Idx → EReal := fun i => g2 V c ⟨(i 0).val, (i 0).isLt⟩ ⟨(i 1).val, (i 1).isLt⟩

/-- Entry `(p, q)` of point `t`'s output block is entry `(2000 t + p, q)` of the array. -/
theorem emb_out2 (t : Fin cfg2.N) (p : Fin 2000) (q : Fin 1) :
    ((cfg2.win 5).blk t).view.emb (ix2 p q) = ix2 (⟨t.val * 2000 + p.val, by have := lt50_2 t; have := p.isLt; omega⟩ : Fin 100000) q := by
  funext a
  apply Fin.ext
  match a with
  | ⟨0, _⟩ => show win2_5.index t (0 : Fin 2) * 2000 + 1 * p.val = t.val * 2000 + p.val; rw [(idx2_5 t).1]; omega
  | ⟨1, _⟩ => show win2_5.index t (1 : Fin 2) * 1 + 1 * q.val = q.val; rw [(idx2_5 t).2]; omega

/-- WHAT POINT `t` WRITES BACK is block `t` of the row function applied to the arrays as found. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  funext y
  obtain ⟨p, q, rfl⟩ : ∃ (p : Fin 2000) (q : Fin 1), y = ix2 p q := ⟨y 0, y 1, eq_ix2 y⟩
  show out2_5 (F := Ideal) (iblk2 V c 0 t) (iblk2 V c 1 t) (iblk2 V c 2 t) (iblk2 V c 3 t) (iblk2 V c 4 t) (ix2 p q) = G2 V c (((cfg2.win 5).blk t).view.emb (ix2 p q))
  rw [emb_out2 t p q]
  refine (Pegcn.Ker.out2_5_apply (iblk2 V c 0 t) (iblk2 V c 1 t) (iblk2 V c 2 t) (iblk2 V c 3 t) (iblk2 V c 4 t) p q).trans ?_
  have hr0 : (fun k => iblk2 V c 0 t (ix2 p k)) = fun k => V c main_v55 (ix2 (⟨t.val * 2000 + p.val, by have := lt50_2 t; have := p.isLt; omega⟩ : Fin 100000) k) := funext fun k => rd2_0 V c t p k
  have hr1 : iblk2 V c 1 t (ix2 p (0 : Fin 1)) = V c main_v11 (ix2 (⟨t.val * 2000 + p.val, by have := lt50_2 t; have := p.isLt; omega⟩ : Fin 100000) (0 : Fin 1)) := rd2_1 V c t p 0
  rw [hr0, hr1, rd2_2 V c t, rd2_3 V c t, rd2_4 V c t]
  rfl

/-- An index of the array is in point `t`'s block iff each coordinate is in the block's range. -/
theorem mem_blk2 (t : Fin cfg2.N) (i : S100000x1.Idx) :
    i ∈ ((cfg2.win 5).blk t).view.set ↔ ∀ a : Fin 2, win2_5.index t a * S2000x1.size a ≤ (i a).val ∧ (i a).val < win2_5.index t a * S2000x1.size a + S2000x1.size a := by
  show i ∈ ((View.whole main_v58).slice (win2_5.rect t)).set ↔ _
  rw [View.set_slice_whole, Rect.mem_set_unit]
  exact Iff.rfl

/-- The fifty blocks tile the array: row `r` is in the block of point `r / 2000`. -/
theorem cover2 (i : S100000x1.Idx) :
    ∃ t : Fin cfg2.N, (cfg2.win 5).flush t = true ∧ i ∈ ((cfg2.win 5).blk t).view.set := by
  have hi0 : (i 0).val < 100000 := (i 0).isLt
  have hi1 : (i 1).val < 1 := (i 1).isLt
  have hN : cfg2.N = 50 := N_2
  refine ⟨⟨(i 0).val / 2000, by rw [hN]; omega⟩, flush2_5 _, ?_⟩
  rw [mem_blk2]
  intro a
  match a with
  | ⟨0, _⟩ =>
    show win2_5.index _ (0 : Fin 2) * 2000 ≤ (i 0).val ∧ (i 0).val < win2_5.index _ (0 : Fin 2) * 2000 + 2000
    rw [(idx2_5 _).1]
    show (i 0).val / 2000 * 2000 ≤ (i 0).val ∧ (i 0).val < (i 0).val / 2000 * 2000 + 2000
    omega
  | ⟨1, _⟩ =>
    show win2_5.index _ (1 : Fin 2) * 1 ≤ (i 1).val ∧ (i 1).val < win2_5.index _ (1 : Fin 2) * 1 + 1
    rw [(idx2_5 _).2]
    omega

/-- THE ARRAY after the region: the row function, entry by entry. -/
theorem final2 (c : Dev nD) : (dat2 V c).arrAt 5 cfg2.N = G2 V c :=
  (dat2 V c).arrAt_eq_of_cover 5 (G2 V c) (fun t _ => flushed2_eq V c t) cover2

end Cert.KernelIdeal.RunValue

end
-- ==== Proof.KerChain.lean ====
/-
  The kernel program's fold, walked back to the launch memory.

  At each of the six segment boundaries a core's buffers hold the previous boundary's contents pushed through a host
  stretch or a region's write-backs. For every buffer a later region reads, this module says what the boundary
  holds there: an argument array as launched, a recast or a slice of one, the degree-factor column, the edge list's
  two index vectors, a region's output array as its row function, or the aggregation of such an array.
-/
import proofs.«171494_j72095321031133_2_alg».proof.Proof.KerRun
import proofs.«171494_j72095321031133_2_alg».proof.Proof.KerHost
import proofs.«171494_j72095321031133_2_alg».proof.Proof.KerArr0
import proofs.«171494_j72095321031133_2_alg».proof.Proof.KerArr1
import proofs.«171494_j72095321031133_2_alg».proof.Proof.KerArr2

set_option maxRecDepth 16384

noncomputable section

namespace Cert.KernelIdeal.RunValue

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.GenP

variable (m : (ℓ : Loc nD τ sig) → Buf (Elt Ideal) ℓ) (ρ : Dev nD → PrngReg)

/-! ## After the first host stretch -/

theorem W1_arg0 (c : Dev nD) : W1 m ρ c (Proc.devRef .tc main_arg0) = m ((c : Thread nD τ).loc main_arg0) :=
  host0_keep_main_arg0 (W0 m ρ c)
theorem W1_arg1 (c : Dev nD) : W1 m ρ c (Proc.devRef .tc main_arg1) = m ((c : Thread nD τ).loc main_arg1) :=
  host0_keep_main_arg1 (W0 m ρ c)
theorem W1_arg3 (c : Dev nD) : W1 m ρ c (Proc.devRef .tc main_arg3) = m ((c : Thread nD τ).loc main_arg3) :=
  host0_keep_main_arg3 (W0 m ρ c)
theorem W1_arg7 (c : Dev nD) : W1 m ρ c (Proc.devRef .tc main_arg7) = m ((c : Thread nD τ).loc main_arg7) :=
  host0_keep_main_arg7 (W0 m ρ c)
theorem W1_arg11 (c : Dev nD) : W1 m ρ c (Proc.devRef .tc main_arg11) = m ((c : Thread nD τ).loc main_arg11) :=
  host0_keep_main_arg11 (W0 m ρ c)
theorem W1_arg15 (c : Dev nD) : W1 m ρ c (Proc.devRef .tc main_arg15) = m ((c : Thread nD τ).loc main_arg15) :=
  host0_keep_main_arg15 (W0 m ρ c)
theorem W1_arg17 (c : Dev nD) : W1 m ρ c (Proc.devRef .tc main_arg17) = m ((c : Thread nD τ).loc main_arg17) :=
  host0_keep_main_arg17 (W0 m ρ c)
theorem W1_arg19 (c : Dev nD) : W1 m ρ c (Proc.devRef .tc main_arg19) = m ((c : Thread nD τ).loc main_arg19) :=
  host0_keep_main_arg19 (W0 m ρ c)
theorem W1_arg21 (c : Dev nD) : W1 m ρ c (Proc.devRef .tc main_arg21) = m ((c : Thread nD τ).loc main_arg21) :=
  host0_keep_main_arg21 (W0 m ρ c)
theorem W1_arg24 (c : Dev nD) : W1 m ρ c (Proc.devRef .tc main_arg24) = m ((c : Thread nD τ).loc main_arg24) :=
  host0_keep_main_arg24 (W0 m ρ c)
theorem W1_arg25 (c : Dev nD) : W1 m ρ c (Proc.devRef .tc main_arg25) = m ((c : Thread nD τ).loc main_arg25) :=
  host0_keep_main_arg25 (W0 m ρ c)
theorem W1_arg26 (c : Dev nD) : W1 m ρ c (Proc.devRef .tc main_arg26) = m ((c : Thread nD τ).loc main_arg26) :=
  host0_keep_main_arg26 (W0 m ρ c)
theorem W1_arg27 (c : Dev nD) : W1 m ρ c (Proc.devRef .tc main_arg27) = m ((c : Thread nD τ).loc main_arg27) :=
  host0_keep_main_arg27 (W0 m ρ c)
theorem W1_arg28 (c : Dev nD) : W1 m ρ c (Proc.devRef .tc main_arg28) = m ((c : Thread nD τ).loc main_arg28) :=
  host0_keep_main_arg28 (W0 m ρ c)
theorem W1_v1 (c : Dev nD) : W1 m ρ c (Proc.devRef .tc main_v1) = rowVec (m ((c : Thread nD τ).loc main_arg2)) := host0_v1 (W0 m ρ c)
theorem W1_v3 (c : Dev nD) : W1 m ρ c (Proc.devRef .tc main_v3) = colVec (m ((c : Thread nD τ).loc main_arg2)) := host0_v3 (W0 m ρ c)
theorem W1_v11 (c : Dev nD) : W1 m ρ c (Proc.devRef .tc main_v11)
    = shapeCast S100000x1 (dinvVec (rowVec (m ((c : Thread nD τ).loc main_arg2)))) shapeCasts_S100000_S100000x1 := host0_v11 (W0 m ρ c)
theorem W1_v12 (c : Dev nD) : W1 m ρ c (Proc.devRef .tc main_v12)
    = extractStridedSlice S3x64 ![0, 0] (m ((c : Thread nD τ).loc main_arg23)) slices_S19x64_S3x64_0_0 := host0_v12 (W0 m ρ c)
theorem W1_v13 (c : Dev nD) : W1 m ρ c (Proc.devRef .tc main_v13)
    = extractStridedSlice S16x64 ![3, 0] (m ((c : Thread nD τ).loc main_arg23)) slices_S19x64_S16x64_3_0 := host0_v13 (W0 m ρ c)
theorem W1_v14 (c : Dev nD) : W1 m ρ c (Proc.devRef .tc main_v14) = shapeCast S1x128 (m ((c : Thread nD τ).loc main_arg4)) shapeCasts_S128_S1x128 :=
  host0_v14 (W0 m ρ c)
theorem W1_v15 (c : Dev nD) : W1 m ρ c (Proc.devRef .tc main_v15) = shapeCast S1x128 (m ((c : Thread nD τ).loc main_arg5)) shapeCasts_S128_S1x128 :=
  host0_v15 (W0 m ρ c)
theorem W1_v16 (c : Dev nD) : W1 m ρ c (Proc.devRef .tc main_v16) = shapeCast S1x128 (m ((c : Thread nD τ).loc main_arg6)) shapeCasts_S128_S1x128 :=
  host0_v16 (W0 m ρ c)
theorem W1_v17 (c : Dev nD) : W1 m ρ c (Proc.devRef .tc main_v17) = shapeCast S1x128 (m ((c : Thread nD τ).loc main_arg8)) shapeCasts_S128_S1x128 :=
  host0_v17 (W0 m ρ c)
theorem W1_v18 (c : Dev nD) : W1 m ρ c (Proc.devRef .tc main_v18) = shapeCast S1x128 (m ((c : Thread nD τ).loc main_arg9)) shapeCasts_S128_S1x128 :=
  host0_v18 (W0 m ρ c)
theorem W1_v19 (c : Dev nD) : W1 m ρ c (Proc.devRef .tc main_v19) = shapeCast S1x128 (m ((c : Thread nD τ).loc main_arg10)) shapeCasts_S128_S1x128 :=
  host0_v19 (W0 m ρ c)
theorem W1_v20 (c : Dev nD) : W1 m ρ c (Proc.devRef .tc main_v20) = shapeCast S1x128 (m ((c : Thread nD τ).loc main_arg12)) shapeCasts_S128_S1x128 :=
  host0_v20 (W0 m ρ c)
theorem W1_v21 (c : Dev nD) : W1 m ρ c (Proc.devRef .tc main_v21) = shapeCast S1x128 (m ((c : Thread nD τ).loc main_arg13)) shapeCasts_S128_S1x128 :=
  host0_v21 (W0 m ρ c)
theorem W1_v22 (c : Dev nD) : W1 m ρ c (Proc.devRef .tc main_v22) = shapeCast S1x128 (m ((c : Thread nD τ).loc main_arg14)) shapeCasts_S128_S1x128 :=
  host0_v22 (W0 m ρ c)
theorem W1_v23 (c : Dev nD) : W1 m ρ c (Proc.devRef .tc main_v23) = shapeCast S1x128 (m ((c : Thread nD τ).loc main_arg16)) shapeCasts_S128_S1x128 :=
  host0_v23 (W0 m ρ c)
theorem W1_v24 (c : Dev nD) : W1 m ρ c (Proc.devRef .tc main_v24) = shapeCast S1x64 (m ((c : Thread nD τ).loc main_arg18)) shapeCasts_S64_S1x64 :=
  host0_v24 (W0 m ρ c)
theorem W1_v25 (c : Dev nD) : W1 m ρ c (Proc.devRef .tc main_v25) = shapeCast S1x32 (m ((c : Thread nD τ).loc main_arg20)) shapeCasts_S32_S1x32 :=
  host0_v25 (W0 m ρ c)
theorem W1_v26 (c : Dev nD) : W1 m ρ c (Proc.devRef .tc main_v26) = shapeCast S1x16 (m ((c : Thread nD τ).loc main_arg22)) shapeCasts_S16_S1x16 :=
  host0_v26 (W0 m ρ c)

/-! ## After the first region -/

theorem W2_v27 (c : Dev nD) : W2 m ρ c (Proc.devRef .tc main_v27) = G0 (V1 m ρ) c :=
  (W2_arr m ρ c 25).trans (final0 (V1 m ρ) c)
theorem W2_v11 (c : Dev nD) : W2 m ρ c (Proc.devRef .tc main_v11)
    = shapeCast S100000x1 (dinvVec (rowVec (m ((c : Thread nD τ).loc main_arg2)))) shapeCasts_S100000_S100000x1 :=
  ((W2_arr m ρ c 2).trans (((dat0 (V1 m ρ) c).arrAt_in 2 rfl _).trans (A_eq0 (V1 m ρ) c 2))).trans (W1_v11 m ρ c)
theorem W2_v1 (c : Dev nD) : W2 m ρ c (Proc.devRef .tc main_v1) = rowVec (m ((c : Thread nD τ).loc main_arg2)) :=
  (W2_of_ne m ρ c main_v1 (by decide)).trans (W1_v1 m ρ c)
theorem W2_v3 (c : Dev nD) : W2 m ρ c (Proc.devRef .tc main_v3) = colVec (m ((c : Thread nD τ).loc main_arg2)) :=
  (W2_of_ne m ρ c main_v3 (by decide)).trans (W1_v3 m ρ c)
theorem W2_arg24 (c : Dev nD) : W2 m ρ c (Proc.devRef .tc main_arg24) = m ((c : Thread nD τ).loc main_arg24) :=
  (W2_of_ne m ρ c main_arg24 (by decide)).trans (W1_arg24 m ρ c)
theorem W2_arg25 (c : Dev nD) : W2 m ρ c (Proc.devRef .tc main_arg25) = m ((c : Thread nD τ).loc main_arg25) :=
  (W2_of_ne m ρ c main_arg25 (by decide)).trans (W1_arg25 m ρ c)
theorem W2_arg26 (c : Dev nD) : W2 m ρ c (Proc.devRef .tc main_arg26) = m ((c : Thread nD τ).loc main_arg26) :=
  (W2_of_ne m ρ c main_arg26 (by decide)).trans (W1_arg26 m ρ c)
theorem W2_arg27 (c : Dev nD) : W2 m ρ c (Proc.devRef .tc main_arg27) = m ((c : Thread nD τ).loc main_arg27) :=
  (W2_of_ne m ρ c main_arg27 (by decide)).trans (W1_arg27 m ρ c)
theorem W2_arg28 (c : Dev nD) : W2 m ρ c (Proc.devRef .tc main_arg28) = m ((c : Thread nD τ).loc main_arg28) :=
  (W2_of_ne m ρ c main_arg28 (by decide)).trans (W1_arg28 m ρ c)

/-! ## After the second host stretch -/

theorem W3_v40 (c : Dev nD) : W3 m ρ c (Proc.devRef .tc main_v40)
    = aggr (G0 (V1 m ρ) c) (rowVec (m ((c : Thread nD τ).loc main_arg2))) (colVec (m ((c : Thread nD τ).loc main_arg2))) := by
  refine (host1_v40 (W2 m ρ c)).trans ?_
  rw [W2_v27, W2_v1, W2_v3]
theorem W3_v41 (c : Dev nD) : W3 m ρ c (Proc.devRef .tc main_v41) = shapeCast S1x64 (m ((c : Thread nD τ).loc main_arg24)) shapeCasts_S64_S1x64 := by
  refine (host1_v41 (W2 m ρ c)).trans ?_
  rw [W2_arg24]
theorem W3_v11 (c : Dev nD) : W3 m ρ c (Proc.devRef .tc main_v11)
    = shapeCast S100000x1 (dinvVec (rowVec (m ((c : Thread nD τ).loc main_arg2)))) shapeCasts_S100000_S100000x1 :=
  (host1_keep_main_v11 (W2 m ρ c)).trans (W2_v11 m ρ c)
theorem W3_v1 (c : Dev nD) : W3 m ρ c (Proc.devRef .tc main_v1) = rowVec (m ((c : Thread nD τ).loc main_arg2)) :=
  (host1_keep_main_v1 (W2 m ρ c)).trans (W2_v1 m ρ c)
theorem W3_v3 (c : Dev nD) : W3 m ρ c (Proc.devRef .tc main_v3) = colVec (m ((c : Thread nD τ).loc main_arg2)) :=
  (host1_keep_main_v3 (W2 m ρ c)).trans (W2_v3 m ρ c)
theorem W3_arg25 (c : Dev nD) : W3 m ρ c (Proc.devRef .tc main_arg25) = m ((c : Thread nD τ).loc main_arg25) :=
  (host1_keep_main_arg25 (W2 m ρ c)).trans (W2_arg25 m ρ c)
theorem W3_arg26 (c : Dev nD) : W3 m ρ c (Proc.devRef .tc main_arg26) = m ((c : Thread nD τ).loc main_arg26) :=
  (host1_keep_main_arg26 (W2 m ρ c)).trans (W2_arg26 m ρ c)
theorem W3_arg27 (c : Dev nD) : W3 m ρ c (Proc.devRef .tc main_arg27) = m ((c : Thread nD τ).loc main_arg27) :=
  (host1_keep_main_arg27 (W2 m ρ c)).trans (W2_arg27 m ρ c)
theorem W3_arg28 (c : Dev nD) : W3 m ρ c (Proc.devRef .tc main_arg28) = m ((c : Thread nD τ).loc main_arg28) :=
  (host1_keep_main_arg28 (W2 m ρ c)).trans (W2_arg28 m ρ c)

/-! ## After the second region -/

theorem W4_v42 (c : Dev nD) : W4 m ρ c (Proc.devRef .tc main_v42) = G1 (V3 m ρ) c :=
  (W4_arr m ρ c 4).trans (final1 (V3 m ρ) c)
theorem W4_v11 (c : Dev nD) : W4 m ρ c (Proc.devRef .tc main_v11)
    = shapeCast S100000x1 (dinvVec (rowVec (m ((c : Thread nD τ).loc main_arg2)))) shapeCasts_S100000_S100000x1 :=
  ((W4_arr m ρ c 1).trans (((dat1 (V3 m ρ) c).arrAt_in 1 rfl _).trans (A_eq1 (V3 m ρ) c 1))).trans (W3_v11 m ρ c)
theorem W4_v1 (c : Dev nD) : W4 m ρ c (Proc.devRef .tc main_v1) = rowVec (m ((c : Thread nD τ).loc main_arg2)) :=
  (W4_of_ne m ρ c main_v1 (by decide)).trans (W3_v1 m ρ c)
theorem W4_v3 (c : Dev nD) : W4 m ρ c (Proc.devRef .tc main_v3) = colVec (m ((c : Thread nD τ).loc main_arg2)) :=
  (W4_of_ne m ρ c main_v3 (by decide)).trans (W3_v3 m ρ c)
theorem W4_arg26 (c : Dev nD) : W4 m ρ c (Proc.devRef .tc main_arg26) = m ((c : Thread nD τ).loc main_arg26) :=
  (W4_of_ne m ρ c main_arg26 (by decide)).trans (W3_arg26 m ρ c)
theorem W4_arg27 (c : Dev nD) : W4 m ρ c (Proc.devRef .tc main_arg27) = m ((c : Thread nD τ).loc main_arg27) :=
  (W4_of_ne m ρ c main_arg27 (by decide)).trans (W3_arg27 m ρ c)
theorem W4_arg28 (c : Dev nD) : W4 m ρ c (Proc.devRef .tc main_arg28) = m ((c : Thread nD τ).loc main_arg28) :=
  (W4_of_ne m ρ c main_arg28 (by decide)).trans (W3_arg28 m ρ c)

/-! ## After the third host stretch -/

theorem W5_v55 (c : Dev nD) : W5 m ρ c (Proc.devRef .tc main_v55)
    = aggr (G1 (V3 m ρ) c) (rowVec (m ((c : Thread nD τ).loc main_arg2))) (colVec (m ((c : Thread nD τ).loc main_arg2))) := by
  refine (host2_v55 (W4 m ρ c)).trans ?_
  rw [W4_v42, W4_v1, W4_v3]
theorem W5_v56 (c : Dev nD) : W5 m ρ c (Proc.devRef .tc main_v56) = shapeCast S1x64 (m ((c : Thread nD τ).loc main_arg26)) shapeCasts_S64_S1x64 := by
  refine (host2_v56 (W4 m ρ c)).trans ?_
  rw [W4_arg26]
theorem W5_v57 (c : Dev nD) : W5 m ρ c (Proc.devRef .tc main_v57) = shapeCast S1x1 (m ((c : Thread nD τ).loc main_arg28)) shapeCasts_S1_S1x1 := by
  refine (host2_v57 (W4 m ρ c)).trans ?_
  rw [W4_arg28]
theorem W5_v11 (c : Dev nD) : W5 m ρ c (Proc.devRef .tc main_v11)
    = shapeCast S100000x1 (dinvVec (rowVec (m ((c : Thread nD τ).loc main_arg2)))) shapeCasts_S100000_S100000x1 :=
  (host2_keep_main_v11 (W4 m ρ c)).trans (W4_v11 m ρ c)
theorem W5_arg27 (c : Dev nD) : W5 m ρ c (Proc.devRef .tc main_arg27) = m ((c : Thread nD τ).loc main_arg27) :=
  (host2_keep_main_arg27 (W4 m ρ c)).trans (W4_arg27 m ρ c)

/-! ## After the third region -/

theorem W6_v58 (c : Dev nD) : W6 m ρ c (Proc.devRef .tc main_v58) = G2 (V5 m ρ) c :=
  (W6_arr m ρ c 5).trans (final2 (V5 m ρ) c)

end Cert.KernelIdeal.RunValue

end
-- ==== Proof.EAlg.lean ====
/-
  Extended-real algebra behind the graph convolution's two arrangements.

  One program scales every neighbour's row by that neighbour's degree factor before aggregating and scales the
  aggregate (neighbours plus the node's own scaled row) by the node's factor afterwards; the other scales each
  message by the product of both factors and the node's own row by the square of its factor. The two agree when the
  node's factor `D` distributes over the sums, which on the extended reals holds for a factor that is non-negative and
  not `⊤` — and a degree factor is the reciprocal square root of a count plus one.
-/
import Idealize.ShloMosaic.PureOps.Ideal
import Idealize.ShloMosaic.PureOps.Ideal.Laws

noncomputable section

namespace Pegcn.Alg

open Idealize.ShloMosaic

/-- The word of `1.0` denotes `1`. -/
theorem ofBits_one : Ideal.ofBits .f32 0x3F800000#32 = 1 := by
  simp [Ideal.ofBits, Ideal.ieee, -EReal.coe_mul]; norm_num

/-- A count of ones from zero, plus one, is positive. -/
theorem deg_pos {ι : Type} (S : Finset ι) : (0 : EReal) < (0 + ∑ _u ∈ S, (1 : EReal)) + 1 := by
  have h : (0 : EReal) ≤ ∑ _u ∈ S, (1 : EReal) := Finset.sum_nonneg fun _ _ => zero_le_one
  rw [zero_add]
  calc (0 : EReal) < 1 := zero_lt_one
    _ = 0 + 1 := (zero_add 1).symm
    _ ≤ (∑ _u ∈ S, (1 : EReal)) + 1 := add_le_add_left h 1

/-- The reciprocal square root of a positive extended real is non-negative and not `⊤`. -/
theorem rsqrt_of_pos {x : EReal} (hx : 0 < x) : 0 ≤ Ideal.rsqrt x ∧ Ideal.rsqrt x ≠ ⊤ := by
  induction x using EReal.rec with
  | bot => exact absurd hx (not_lt.mpr bot_le)
  | top => exact ⟨le_refl _, EReal.zero_ne_top⟩
  | coe r =>
    have hr : 0 < r := by exact_mod_cast hx
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [e]
    exact ⟨by exact_mod_cast inv_nonneg.mpr (Real.sqrt_nonneg r), EReal.coe_ne_top _⟩

/-- A non-negative factor that is not `⊤` distributes over a finite sum, from the right. -/
theorem sum_mul {ι : Type} (S : Finset ι) (f : ι → EReal) {D : EReal} (h0 : 0 ≤ D) (ht : D ≠ ⊤) :
    (∑ u ∈ S, f u) * D = ∑ u ∈ S, f u * D := by
  classical
  induction S using Finset.induction_on with
  | empty => simp
  | insert a S ha ih =>
    rw [Finset.sum_insert ha, Finset.sum_insert ha, EReal.right_distrib_of_nonneg_of_ne_top h0 ht, ih]

/-- THE LAW: neighbours' rows `a u` pre-scaled by their factors `dc u`, summed from zero, the node's own pre-scaled row
    `z * D` added, the whole scaled by the node's factor `D`, is the sum from zero of the rows scaled by both factors
    plus the own row scaled by the square. -/
theorem conv_law {ι : Type} (S : Finset ι) (a dc : ι → EReal) (z : EReal) {D : EReal} (h0 : 0 ≤ D) (ht : D ≠ ⊤) :
    ((0 + ∑ u ∈ S, a u * dc u) + z * D) * D = (0 + ∑ u ∈ S, a u * (D * dc u)) + z * (D * D) := by
  rw [zero_add, zero_add, EReal.right_distrib_of_nonneg_of_ne_top h0 ht, sum_mul S _ h0 ht, mul_assoc z D D]
  congr 1
  refine Finset.sum_congr rfl fun u _ => ?_
  rw [mul_assoc, mul_comm (dc u) D]

end Pegcn.Alg

end
-- ==== Proof.NetAlg.lean ====
/-
  The two arrangements of the network's graph convolutions agree.

  Messages are indexed by an abstract type; `L n j` is the finite set of messages landing on entry `(n, j)`, `g u` the node
  a message is read from, `cc u` its feature, `r u` the node whose factor the reference multiplies in for the target —
  which is the target itself for every message that lands (`hr`). One program pre-scales the projected rows by the
  nodes' factors, aggregates, and scales the aggregate once more inside the next kernel; the other builds the
  symmetric normalisation message by message. With every factor non-negative and not `⊤` the two networks give the
  same output at every node.
-/
import proofs.«171494_j72095321031133_2_alg».proof.Proof.Spec
import proofs.«171494_j72095321031133_2_alg».proof.Proof.EAlg

noncomputable section

namespace Pegcn.Net

open Idealize.ShloMosaic

variable {N : ℕ} {ι : Type} (L : Fin N → Fin 64 → Finset ι) (g r : ι → Fin N) (cc : ι → Fin 64) (D : Fin N → EReal)

/-- Aggregation of an array of rows: the rows read at the landing messages' sources, summed from zero, plus the
    node's own row. -/
def aggK (SX : Fin N → Fin 64 → EReal) (n : Fin N) (j : Fin 64) : EReal :=
  (0 + ∑ u ∈ L n j, SX (g u) (cc u)) + SX n j

/-- The symmetric-normalised convolution of a projected array: each landing message scaled by the product of the two
    factors, summed from zero, plus the own row scaled by the squared factor, plus the offset. -/
def convR (XW : Fin N → Fin 64 → EReal) (b : Fin 64 → EReal) (n : Fin N) (j : Fin 64) : EReal :=
  ((0 + ∑ u ∈ L n j, XW (g u) (cc u) * (D (r u) * D (g u))) + XW n j * (D n * D n)) + b j

variable {L g r cc D}

/-- One layer: aggregating the pre-scaled rows, scaling by the node's factor and adding the offset is the
    symmetric-normalised convolution. -/
theorem agg_scale (hr : ∀ n j u, u ∈ L n j → r u = n) (hD : ∀ n, 0 ≤ D n ∧ D n ≠ ⊤)
    (XW : Fin N → Fin 64 → EReal) (b : Fin 64 → EReal) (n : Fin N) (j : Fin 64) :
    aggK L g cc (fun m k => XW m k * D m) n j * D n + b j = convR L g r cc D XW b n j := by
  unfold aggK convR
  refine congrArg (· + b j) ?_
  rw [Pegcn.Alg.conv_law (L n j) (fun u => XW (g u) (cc u)) (fun u => D (g u)) (XW n j) (hD n).1 (hD n).2]
  refine congrArg (fun s => (0 + s) + XW n j * (D n * D n)) (Finset.sum_congr rfl fun u hu => ?_)
  rw [hr n j u hu]

/-- The kernel program's network from the first projection `A1`: aggregate the pre-scaled projection, second kernel's
    row function, aggregate again, head. -/
def kerNet (L : Fin N → Fin 64 → Finset ι) (g : ι → Fin N) (cc : ι → Fin 64) (D : Fin N → EReal)
    (A1 : Fin N → Fin 64 → EReal) (cb1 : Fin 64 → EReal) (cw2 : Fin 64 → Fin 64 → EReal)
    (cb2 ow : Fin 64 → EReal) (ob : EReal) (n : Fin N) : EReal :=
  head (aggK L g cc (fun m k => proj2 (aggK L g cc (fun m' k' => A1 m' k' * D m') m) (D m) cb1 cw2 k) n) (D n) cb2 ow ob

/-- The reference's network from the same projection. -/
def refNet (L : Fin N → Fin 64 → Finset ι) (g r : ι → Fin N) (cc : ι → Fin 64) (D : Fin N → EReal)
    (A1 : Fin N → Fin 64 → EReal) (cb1 : Fin 64 → EReal) (cw2 : Fin 64 → Fin 64 → EReal)
    (cb2 ow : Fin 64 → EReal) (ob : EReal) (n : Fin N) : EReal :=
  (∑ k : Fin 64, convR L g r cc D (fun m k' => ∑ j : Fin 64, max (convR L g r cc D A1 cb1 m j) zeroW * cw2 j k') cb2 n k * ow k) + ob

/-- THE NETWORKS AGREE at every node. -/
theorem net_eq (hr : ∀ n j u, u ∈ L n j → r u = n) (hD : ∀ n, 0 ≤ D n ∧ D n ≠ ⊤)
    (A1 : Fin N → Fin 64 → EReal) (cb1 : Fin 64 → EReal) (cw2 : Fin 64 → Fin 64 → EReal)
    (cb2 ow : Fin 64 → EReal) (ob : EReal) (n : Fin N) :
    kerNet L g cc D A1 cb1 cw2 cb2 ow ob n = refNet L g r cc D A1 cb1 cw2 cb2 ow ob n := by
  unfold kerNet refNet head
  have h2 : (fun m k => proj2 (aggK L g cc (fun m' k' => A1 m' k' * D m') m) (D m) cb1 cw2 k)
      = fun m k => (∑ j : Fin 64, max (convR L g r cc D A1 cb1 m j) zeroW * cw2 j k) * D m := by
    funext m k
    unfold proj2
    refine congrArg (· * D m) (Finset.sum_congr rfl fun j _ => ?_)
    rw [agg_scale hr hD A1 cb1 m j]
  rw [h2]
  refine congrArg (· + ob) (Finset.sum_congr rfl fun k _ => ?_)
  rw [agg_scale hr hD (fun m k' => ∑ j : Fin 64, max (convR L g r cc D A1 cb1 m j) zeroW * cw2 j k') cb2 n k]

end Pegcn.Net

end
-- ==== Proof.LibGatherScatter.lean ====
/-
  The host's gather and accumulating scatter along axis 0, read at an index.

  A flat array x : [N] or a table x : [N, C] is gathered at a column idx : [E, 1] of start indices (what x[idx] lowers to), and
  updates u : [E] or u : [E, C] are accumulated into such an operand at the rows the column names (what x.at[idx].add(u)
  lowers to). The lemmas hold for ANY dimension-number record of the right type whose lists are the ones this lowering prints;
  the hypotheses on the record's fields are closed by rfl on a printed record.
-/
import Idealize.ShloMosaic.PureOps.Ideal
import Idealize.ShloMosaic.PureOps.Contract
import Idealize.ShloMosaic.Lib.ValueIdx

noncomputable section

open scoped BigOperators

namespace Pegcn.Lib

open Idealize.ShloMosaic Idealize.ShloMosaic.ValueIdx

/-! ## Gather along axis 0 -/

/-- The gather's dimension numbers for an operand [N], start indices [E, 1] and result [E], as an explicit record. -/
private abbrev gDims1 (N E : Nat) (sb : List (Fin (Shape.rank ⟨2, ![E, 1]⟩)))
    (wf : GatherDims.WF ⟨1, ![N]⟩ ⟨2, ![E, 1]⟩ ⟨1, ![E]⟩ [] [0] [] [0] sb 1 ![1]) :
    GatherDims ⟨1, ![N]⟩ ⟨2, ![E, 1]⟩ ⟨1, ![E]⟩ where
  offsetDims := []
  collapsedSliceDims := [0]
  operandBatchingDims := []
  startIndicesBatchingDims := sb
  startIndexMap := [0]
  indexVectorDim := 1
  sliceSizes := ![1]
  wf := wf

/-- The rank-1 gather at the explicit record. -/
private theorem gather1_core {α : Type} {N E w : Nat} (hN : 0 < N) (sb : List (Fin (Shape.rank ⟨2, ![E, 1]⟩)))
    (wf : GatherDims.WF ⟨1, ![N]⟩ ⟨2, ![E, 1]⟩ ⟨1, ![E]⟩ [] [0] [] [0] sb 1 ![1])
    (x : (⟨1, ![N]⟩ : Shape).Idx → α) (idx : IVec ⟨2, ![E, 1]⟩ w) (e : Fin E) :
    Host.gather (gDims1 N E sb wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gDims1 N E sb wf).start (ix1 e) idx 0 + (gDims1 N E sb wf).batchCoord (ix1 e) 0
    + (gDims1 N E sb wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E sb wf).startIndexMap from List.mem_singleton.mpr rfl)]
  have hsi : (gDims1 N E sb wf).siIdx (ix1 e) ⟨List.idxOf (0 : Fin 1) (gDims1 N E sb wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A rank-1 operand x : [N] gathered at a column idx : [E, 1] of start indices (collapsed axis 0, start index map [0], the
    index vector on axis 1, slices of one element): result element e is x at the start index idx[e, 0], read as a signed
    integer and clamped into [0, N - 1]. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsm : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at hod hcd hob hsm hiv hss
  subst hod hcd hob hsm hiv hss
  exact gather1_core hN sb wf x idx e

/-- Of a rank-2 shape's two axes, the one that is not axis 0 is axis 1. -/
private theorem kept2_0 :
    (List.finRange 2).filter (fun a : Fin 2 => decide (a ∉ ([0] ++ [] : List (Fin 2)))) = ([1] : List (Fin 2)) := by
  decide

/-- The gather's dimension numbers for an operand [N, C], start indices [E, 1] and result [E, C], as an explicit record. -/
private abbrev gDims2 (N E C : Nat) (sb : List (Fin (Shape.rank ⟨2, ![E, 1]⟩)))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

/-- The row gather at the explicit record. -/
private theorem gather2_core {α : Type} {N E C w : Nat} (hN : 0 < N) (sb : List (Fin (Shape.rank ⟨2, ![E, 1]⟩)))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (j : Fin C) :
    Host.gather (gDims2 N E C sb wf) x idx (ix2 e j)
      = x (ix2 ⟨min (idx (ix2 e 0)).toInt.toNat (N - 1), by omega⟩ j) := by
  unfold Host.gather
  congr 1
  funext a
  refine Fin.ext ?_
  show (gDims2 N E C sb wf).start (ix2 e j) idx a + (gDims2 N E C sb wf).batchCoord (ix2 e j) a
    + (gDims2 N E C sb wf).offCoord (ix2 e j) a = _
  rw [GatherDims.batchCoord_eq_zero _ _ _ List.not_mem_nil]
  have ha : a = 0 ∨ a = 1 := by
    rcases a with ⟨v, hv⟩
    have hv' : v < 2 := hv
    rcases (by omega : v = 0 ∨ v = 1) with rfl | rfl
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims2 N E C sb wf).startIndexMap from List.mem_singleton.mpr rfl)]
    have hsi : (gDims2 N E C sb wf).siIdx (ix2 e j) ⟨List.idxOf (0 : Fin 2) (gDims2 N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N E C sb wf).startIndexMap := by
      intro h; exact absurd (congrArg Fin.val (List.mem_singleton.mp h)) Nat.one_ne_zero
    have hk : (gDims2 N E C sb wf).sKept = [1] := by
      exact kept2_0
    have hget : ∀ (k : Nat) (hk : k < 1), ([1] : List (Fin 2))[k] = 1 := by
      intro k hk; obtain rfl : k = 0 := by omega
      rfl
    unfold GatherDims.start GatherDims.offCoord
    rw [dif_neg h1, dif_pos (by rw [hk]; exact List.mem_singleton.mpr rfl)]
    rw [hget]
    simp only [Nat.zero_add]
    rfl

/-- A table x : [N, C] gathered by rows at a column idx : [E, 1] of start indices (offset axis 1, collapsed axis 0, start
    index map [0], the index vector on axis 1, slices of one whole row): result element (e, j) is x at row idx[e, 0], read as
    a signed integer and clamped into [0, N - 1], column j. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  obtain ⟨od, cd, ob, sb, sm, iv, ss, wf⟩ := d
  simp only at hod hcd hob hsm hiv hss
  subst hod hcd hob hsm hiv hss
  exact gather2_core hN sb wf x idx e j

/-! ## Where an update lands -/

/-- An update lands at operand index i exactly when, on every operand axis, the start read signed off the scatter indices plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hi a
      have hi' := congrFun (Option.some.inj hi) a
      have hv : (d.start j idx a + (d.window j a : Int)).toNat = (i a).val := congrArg Fin.val hi'
      have := h a
      omega
    · intro hi
      congr 1
      funext a
      refine Fin.ext ?_
      have := hi a
      have := h a
      show (d.start j idx a + (d.window j a : Int)).toNat = (i a).val
      omega
  · rename_i h
    constructor
    · intro hi
      exact absurd hi (by simp)
    · intro hi
      exfalso
      apply h
      intro a
      have := hi a
      have := (i a).isLt
      omega

/-- The scatter's dimension numbers for an operand [N], scatter indices [E, 1] and updates [E], as an explicit record. -/
private abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The rank-1 landing condition at the explicit record. -/
private theorem scatter1_core {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hs : (sDims1 N E wf).start (ix1 e) idx 0 = (idx (ix2 e 0)).toInt := by
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw : (sDims1 N E wf).window (ix1 e) 0 = 0 := by
    unfold ScatterDims.window
    rw [dif_neg (by simp [Shape.kept])]
  rw [resultIdx?_eq_some_iff]
  constructor
  · intro h
    have h0 : _ = ((n.val : Nat) : Int) := h 0
    rw [hs, hw] at h0
    simpa using h0
  · intro h a
    obtain rfl : a = 0 := Subsingleton.elim _ _
    show _ = ((n.val : Nat) : Int)
    rw [hs, hw, h]
    simp

/-- Updates u : [E] scattered into an operand [N] at a column idx : [E, 1] of scatter indices (no window axes, inserted axis 0,
    the index vector on axis 1): update e lands at element n exactly when its index idx[e, 0], read as a signed integer and
    NOT clamped, is n; an index outside [0, N) lands nowhere. -/
theorem scatter1_lands_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at huw hiw hsd hiv
  subst huw hiw hsd hiv
  exact scatter1_core wf idx e n

/-- The scatter's dimension numbers for an operand [N, C], scatter indices [E, 1] and updates [E, C], as an explicit record. -/
private abbrev sDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Of a rank-2 shape's two axes, the one that is not the inserted axis 0 is axis 1. -/
private theorem kept2_0' :
    (List.finRange 2).filter (fun a : Fin 2 => decide (a ∉ ([0] : List (Fin 2)))) = ([1] : List (Fin 2)) := by
  decide

/-- The row landing condition at the explicit record. -/
private theorem scatter2_core {N E C w : Nat} (wf : ScatterDims.WF ⟨2, ![N, C]⟩ ⟨2, ![E, 1]⟩ ⟨2, ![E, C]⟩ [1] [0] [0] 1)
    (idx : IVec ⟨2, ![E, 1]⟩ w) (e : Fin E) (j' : Fin C) (n : Fin N) (j : Fin C) :
    (sDims2 N E C wf).resultIdx? (ix2 e j') idx = some (ix2 n j)
      ↔ (idx (ix2 e 0)).toInt = (n.val : Int) ∧ j' = j := by
  have hs0 : (sDims2 N E C wf).start (ix2 e j') idx 0 = (idx (ix2 e 0)).toInt := by
    unfold ScatterDims.start
    rw [dif_pos (show (0 : Fin 2) ∈ (sDims2 N E C wf).scatterDimsToOperandDims from List.mem_singleton.mpr rfl)]
    have hsi : (sDims2 N E C wf).siIdx (ix2 e j') ⟨List.idxOf (0 : Fin 2) (sDims2 N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (sDims2 N E C wf).window (ix2 e j') 0 = 0 := by
    unfold ScatterDims.window
    rw [dif_neg (by simp [Shape.kept])]
  have hs1 : (sDims2 N E C wf).start (ix2 e j') idx 1 = 0 := by
    unfold ScatterDims.start
    rw [dif_neg (fun h => absurd (congrArg Fin.val (List.mem_singleton.mp h)) Nat.one_ne_zero)]
  have hw1 : (sDims2 N E C wf).window (ix2 e j') 1 = j'.val := by
    have hk : (sDims2 N E C wf).sKept = [1] := kept2_0'
    have hget : ∀ (k : Nat) (hk : k < 1), ([1] : List (Fin 2))[k] = 1 := by
      intro k hk; obtain rfl : k = 0 := by omega
      rfl
    unfold ScatterDims.window
    rw [dif_pos (by rw [hk]; exact List.mem_singleton.mpr rfl), hget]
  rw [resultIdx?_eq_some_iff]
  constructor
  · intro h
    have h0 : _ = ((n.val : Nat) : Int) := h 0
    have h1 : _ = ((j.val : Nat) : Int) := h 1
    rw [hs0, hw0] at h0
    rw [hs1, hw1] at h1
    exact ⟨by simpa using h0, Fin.ext (by omega)⟩
  · rintro ⟨h, rfl⟩ a
    have ha : a = 0 ∨ a = 1 := by
      rcases a with ⟨v, hv⟩
      have hv' : v < 2 := hv
      rcases (by omega : v = 0 ∨ v = 1) with rfl | rfl
      · exact Or.inl rfl
      · exact Or.inr rfl
    rcases ha with rfl | rfl
    · show _ = ((n.val : Nat) : Int)
      rw [hs0, hw0, h]
      simp
    · show _ = ((j'.val : Nat) : Int)
      rw [hs1, hw1]
      simp

/-- Update rows u : [E, C] scattered into a table [N, C] at a column idx : [E, 1] of scatter indices (window axis 1, inserted
    axis 0, the index vector on axis 1): update element (e, j') lands at element (n, j) exactly when its row index idx[e, 0],
    read as a signed integer and NOT clamped, is n and the columns agree; an index outside [0, N) lands nowhere. -/
theorem scatter2_lands_iff {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (idx : IVec ⟨2, ![E, 1]⟩ w) (e : Fin E) (j' : Fin C) (n : Fin N) (j : Fin C) :
    d.resultIdx? (ix2 e j') idx = some (ix2 n j) ↔ (idx (ix2 e 0)).toInt = (n.val : Int) ∧ j' = j := by
  obtain ⟨uw, iw, sd, iv, wf⟩ := d
  simp only at huw hiw hsd hiv
  subst huw hiw hsd hiv
  exact scatter2_core wf idx e j' n j

/-! ## The accumulating scatter at an index -/

/-- The accumulating scatter of updates u : [E] into x : [N] at a column idx : [E, 1] of indices, read at element n at the ideal
    instance: x at n plus the sum of the updates whose index idx[e, 0], read as a signed integer, is n. The sum runs over
    the updates' own index type. -/
theorem scatterAdd1_apply {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ j ∈ Finset.univ.filter
          (fun j : (⟨1, ![E]⟩ : Shape).Idx => (idx (ix2 (j 0) 0)).toInt = (n.val : Int)), upd j := by
  show Ideal.hostScatterAdd d x idx upd (ix1 n) = _
  unfold Ideal.hostScatterAdd
  congr 1
  refine Finset.sum_congr (Finset.filter_congr fun j _ => ?_) fun _ _ => rfl
  obtain ⟨e, rfl⟩ : ∃ e, j = ix1 e := ⟨j 0, eq_ix1 j⟩
  exact scatter1_lands_iff d huw hiw hsd hiv idx e n

/-- The accumulating scatter of update rows u : [E, C] into a table x : [N, C] at a column idx : [E, 1] of row indices, read at
    element (n, c) at the ideal instance: x at (n, c) plus the sum of the update elements in column c whose row index
    idx[e, 0], read as a signed integer, is n. The sum runs over the updates' own index type (the column condition is
    written on the coordinates' values). -/
theorem scatterAdd2_apply {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ j ∈ Finset.univ.filter
          (fun j : (⟨2, ![E, C]⟩ : Shape).Idx =>
            (idx (ix2 (j 0) 0)).toInt = (n.val : Int) ∧ (j 1).val = c.val), upd j := by
  show Ideal.hostScatterAdd d x idx upd (ix2 n c) = _
  unfold Ideal.hostScatterAdd
  congr 1
  refine Finset.sum_congr (Finset.filter_congr fun j _ => ?_) fun _ _ => rfl
  obtain ⟨e, j', rfl⟩ : ∃ e j', j = ix2 e j' := ⟨j 0, j 1, eq_ix2 j⟩
  rw [scatter2_lands_iff d huw hiw hsd hiv idx e j' n c]
  show _ ∧ j' = c ↔ _ ∧ j'.val = c.val
  rw [Fin.ext_iff]
  exact Iff.rfl

/-! ## The wrap of a negative index before a gather

Before it gathers, x[idx] adds the operand's length to every negative index: select(idx < 0, idx + N, idx). On an index that is
not negative the wrap is the identity, and on one below the length the gather's clamp is the identity too. -/

/-- A word that is not negative as a signed integer is not signed-less-than the zero word. -/
theorem cmpi_slt_zero_of_nonneg {w : Nat} (x : BitVec w) (h : 0 ≤ x.toInt) : IntOp.cmpi .slt x 0#w = 0#1 := by
  have hslt : x.slt 0#w = false := by
    simp only [BitVec.slt, BitVec.toInt_zero, decide_eq_false_iff_not, not_lt]
    exact h
  simp only [IntOp.cmpi, hslt]
  rfl

/-- The wrap on one word: a word that is not negative is kept, whatever is added on the other branch. -/
theorem wrap_of_nonneg {w : Nat} (x c : BitVec w) (h : 0 ≤ x.toInt) :
    Scalar.select (IntOp.cmpi .slt x 0#w) (IntOp.addi x c) x = x := by
  rw [cmpi_slt_zero_of_nonneg x h]
  exact select_zero _ _

/-- The wrap on a vector of indices read at an index e: where the compared vector z reads zero and v is not negative, the
    wrapped vector reads v. -/
theorem wrap_apply {s : Shape} {w : Nat} (v z c : IVec s w) (e : s.Idx) (hz : z e = 0#w) (h : 0 ≤ (v e).toInt) :
    select (cmpi .slt v z) (addi v c) v e = v e := by
  show Scalar.select (IntOp.cmpi .slt (v e) (z e)) (IntOp.addi (v e) (c e)) (v e) = v e
  rw [hz]
  exact wrap_of_nonneg _ _ h

/-- The wrap as it is printed, the zero and the length being broadcast constants: at an index where v is not negative the
    wrapped vector reads v. -/
theorem wrap_bcast_apply {s0 s : Shape} {w : Nat} (dims : Fin s0.rank → Fin s.rank)
    (h0 h1 : s0.BroadcastsInDim s dims) (v : IVec s w) (c : BitVec w) (e : s.Idx) (h : 0 ≤ (v e).toInt) :
    select (cmpi .slt v (broadcastInDim s dims h0 (constantI s0 w 0#w)))
      (addi v (broadcastInDim s dims h1 (constantI s0 w c))) v e = v e :=
  wrap_apply v _ _ e rfl h

/-- The gather's clamp is the identity on a start index inside the operand. -/
theorem clamp_of_lt {w : Nat} (x : BitVec w) (N : Nat) (h0 : 0 ≤ x.toInt) (hN : x.toInt < (N : Int)) :
    min x.toInt.toNat (N - 1) = x.toInt.toNat := by
  omega

/-- The wrap then the clamp on one word inside the operand: both are the identity. -/
theorem clamp_wrap_of_lt {w : Nat} (x c : BitVec w) (N : Nat) (h0 : 0 ≤ x.toInt) (hN : x.toInt < (N : Int)) :
    min (Scalar.select (IntOp.cmpi .slt x 0#w) (IntOp.addi x c) x).toInt.toNat (N - 1) = x.toInt.toNat := by
  rw [wrap_of_nonneg x c h0]
  exact clamp_of_lt x N h0 hN

/-- The clamped start index as a coordinate: when the index word reads as the coordinate n, the clamped coordinate is n. -/
theorem clamp_fin_eq {N : Nat} (z : Int) (n : Fin N) (h : z = (n.val : Int)) (hlt : min z.toNat (N - 1) < N) :
    (⟨min z.toNat (N - 1), hlt⟩ : Fin N) = n := by
  refine Fin.ext ?_
  show min z.toNat (N - 1) = n.val
  have := n.isLt
  omega

end Pegcn.Lib

end
-- ==== Proof.NetInst.lean ====
/-
  The abstract network's ingredients, read off the edge list's two index vectors.

  A message is an entry `(e, j)` of the 2000000 x 64 update array. It lands on entry `(n, j')` when the signed value of
  the target word of edge `e` is `n` and `j = j'`; a target outside `[0, 100000)` lands nowhere. A gather reads the node
  whose index is the word with a negative value moved up by 100000 and the result clamped into `[0, 99999]`. A node's
  degree factor is the reciprocal square root of the number of edges landing on it, counted from zero in the
  extended reals, plus one: positive, so the factor is non-negative and not `⊤`.
-/
import proofs.«171494_j72095321031133_2_alg».proof.Proof.Spec
import proofs.«171494_j72095321031133_2_alg».proof.Proof.EAlg
import proofs.«171494_j72095321031133_2_alg».proof.Proof.LibGatherScatter
import Idealize.ShloMosaic.Lib.ValueIdx

noncomputable section

namespace Pegcn.Inst

open Idealize.ShloMosaic Idealize.ShloMosaic.ValueIdx

/-- A vector of two million 32-bit index words. -/
abbrev IV := IVec ⟨1, ![2000000]⟩ 32
/-- The update array's index type. -/
abbrev UIdx := (⟨2, ![2000000, 64]⟩ : Shape).Idx

/-- A gather's index word after jnp's wrap of negative indices. -/
def wrapW (w : BitVec 32) : BitVec 32 := Scalar.select (IntOp.cmpi .slt w 0#32) (IntOp.addi w 100000#32) w

/-- The node a gather reads for an index word: the signed value clamped into the node range. -/
def clampN (w : BitVec 32) : Fin 100000 := ⟨min w.toInt.toNat (100000 - 1), by omega⟩

/-- The node a message's row is read from: edge `e`'s source word, wrapped and clamped. -/
def src (col : IV) (u : UIdx) : Fin 100000 := clampN (wrapW (col (ix1 (u 0))))

/-- The node whose factor the reference reads for the message's target: edge `e`'s target word, wrapped and clamped. -/
def tgt (row : IV) (u : UIdx) : Fin 100000 := clampN (wrapW (row (ix1 (u 0))))

/-- A message's feature. -/
def feat (u : UIdx) : Fin 64 := ⟨(u 1).val, (u 1).isLt⟩

/-- The messages landing on entry `(n, j)`. -/
def landing (row : IV) (n : Fin 100000) (j : Fin 64) : Finset UIdx :=
  Finset.univ.filter (fun u : UIdx => (row (ix1 (u 0))).toInt = (n.val : Int) ∧ (u 1).val = j.val)

/-- A message that lands on node `n` has target word `n`, in range: wrapping and clamping leave it alone. -/
theorem tgt_of_mem (row : IV) (n : Fin 100000) (j : Fin 64) (u : UIdx) (h : u ∈ landing row n j) : tgt row u = n := by
  have hu : (row (ix1 (u 0))).toInt = (n.val : Int) := (Finset.mem_filter.mp h).2.1
  have h0 : 0 ≤ (row (ix1 (u 0))).toInt := by rw [hu]; exact Int.natCast_nonneg _
  have hN : (row (ix1 (u 0))).toInt < ((100000 : ℕ) : Int) := by rw [hu]; exact_mod_cast n.isLt
  unfold tgt clampN wrapW
  apply Fin.ext
  show min (Scalar.select (IntOp.cmpi .slt (row (ix1 (u 0))) 0#32) (IntOp.addi (row (ix1 (u 0))) 100000#32) (row (ix1 (u 0)))).toInt.toNat (100000 - 1) = n.val
  rw [Pegcn.Lib.clamp_wrap_of_lt (row (ix1 (u 0))) 100000#32 100000 h0 hN, hu]
  exact Int.toNat_natCast _

/-- The edges landing on node `n`. -/
def inEdges (row : IV) (n : Fin 100000) : Finset (⟨1, ![2000000]⟩ : Shape).Idx :=
  Finset.univ.filter (fun e : (⟨1, ![2000000]⟩ : Shape).Idx => (row (ix1 (e 0))).toInt = (n.val : Int))

/-- A node's degree factor. -/
def deg (row : IV) (n : Fin 100000) : EReal := Ideal.rsqrt ((0 + ∑ _e ∈ inEdges row n, (1 : EReal)) + 1)

/-- A degree factor is non-negative and not `⊤`. -/
theorem deg_ok (row : IV) (n : Fin 100000) : 0 ≤ deg row n ∧ deg row n ≠ ⊤ :=
  Pegcn.Alg.rsqrt_of_pos (Pegcn.Alg.deg_pos (inEdges row n))

end Pegcn.Inst

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.KerAgg.lean ====
/-
  The kernel program's host stretches, read at an index on the extended reals.

  The degree factor of a node is the reciprocal square root of the number of edges whose target word reads as the node,
  counted from zero, plus one. The aggregation at entry (n, j) is the sum from zero, over the messages landing on (n, j), of
  the rows read at the messages' sources, plus the node's own row.
-/
import proofs.«171494_j72095321031133_2_alg».proof.Proof.KerHost
import proofs.«171494_j72095321031133_2_alg».proof.Proof.NetAlg
import proofs.«171494_j72095321031133_2_alg».proof.Proof.NetInst
import proofs.«171494_j72095321031133_2_alg».proof.Proof.LibGatherScatter
import proofs.«171494_j72095321031133_2_alg».proof.Proof.LibHostRead
import proofs.«171494_j72095321031133_2_alg».proof.Proof.LibRowOps
import proofs.«171494_j72095321031133_2_alg».proof.Proof.EAlg

noncomputable section

open scoped BigOperators

namespace Cert.KernelIdeal.RunValue

open Idealize.ShloMosaic Idealize.ShloMosaic.ValueIdx
open Cert.KernelIdeal Cert.KernelIdeal.Gen

/-- A vector of index words as a column: its entry of row e is the vector's word e. -/
theorem idxCol_apply (v : (⟨S2000000, .i32⟩ : BufTy).Contents (Elt Ideal)) (e : Fin 2000000) :
    broadcastInDim S2000000x1 ![0] bcast_S2000000_S2000000x1_0 v (ix2 e 0) = v (ix1 e) :=
  Hmu.Lib.bcast_a_a1_apply v bcast_S2000000_S2000000x1_0 e 0

/-- A node's degree factor as the host computes it: the reciprocal square root of (the count, from zero, of the edges whose
    target word reads as the node) plus one. -/
theorem dinvVec_apply (row : (⟨S2000000, .i32⟩ : BufTy).Contents (Elt Ideal)) (n : Fin 100000) :
    dinvVec (F := Ideal) row (ix1 n) = Pegcn.Inst.deg row n := by
  unfold dinvVec Pegcn.Inst.deg
  rw [Hmu.Lib.hostRsqrt_apply, addf_apply,
    Pegcn.Lib.scatterAdd1_apply scatter_S100000_S2000000x1_S2000000_n_0_0_1 rfl rfl rfl rfl,
    Hmu.Lib.bcast_const_apply, Hmu.Lib.bcast_const_apply, Ideal.ofBits_zero_f32, Pegcn.Alg.ofBits_one]
  refine congrArg (fun s => Ideal.rsqrt (0 + s + 1)) ?_
  unfold Pegcn.Inst.inEdges
  refine Finset.sum_congr (Finset.filter_congr fun j _ => ?_) fun j _ => ?_
  · exact Eq.to_iff (congrArg (fun w : BitVec 32 => w.toInt = (n.val : Int)) (idxCol_apply row (j 0)))
  · rw [Hmu.Lib.bcast_const_apply, Pegcn.Alg.ofBits_one]

/-- The degree factors kept as a column: its entry of row n is node n's degree factor. -/
theorem dinvCol_apply (row : (⟨S2000000, .i32⟩ : BufTy).Contents (Elt Ideal)) (n : Fin 100000) :
    (shapeCast S100000x1 (dinvVec (F := Ideal) row) shapeCasts_S100000_S100000x1) (ix2 n 0) = Pegcn.Inst.deg row n := by
  rw [Gcn.Lib.shapeCast_a_a1_apply, dinvVec_apply]

/-- The source indices as the gather takes them, read at edge e: the source word with a negative value moved up by the node
    count. -/
theorem wrapIdx_apply (col : (⟨S2000000, .i32⟩ : BufTy).Contents (Elt Ideal)) (e : Fin 2000000) :
    wrapIdx (F := Ideal) col (ix2 e 0) = Pegcn.Inst.wrapW (col (ix1 e)) := by
  unfold wrapIdx
  rw [idxCol_apply]
  rfl

/-- The aggregation between regions at entry (n, j): the sum from zero, over the messages landing on (n, j), of the rows of
    sx read at the messages' sources, plus sx's own entry. -/
theorem aggr_apply (sx : (⟨S100000x64, .bf16⟩ : BufTy).Contents (Elt Ideal))
    (row col : (⟨S2000000, .i32⟩ : BufTy).Contents (Elt Ideal)) (n : Fin 100000) (j : Fin 64) :
    aggr (F := Ideal) sx row col (ix2 n j)
      = Pegcn.Net.aggK (Pegcn.Inst.landing row) (Pegcn.Inst.src col) Pegcn.Inst.feat (fun m k => sx (ix2 m k)) n j := by
  unfold aggr Pegcn.Net.aggK
  rw [addf_apply, extf_apply,
    Pegcn.Lib.scatterAdd2_apply scatter_S100000x64_S2000000x1_S2000000x64_1_0_0_1 rfl rfl rfl rfl,
    Hmu.Lib.bcast_const_apply, Ideal.ofBits_zero_f32]
  refine congrArg (fun s => 0 + s + sx (ix2 n j)) ?_
  unfold Pegcn.Inst.landing
  refine Finset.sum_congr (Finset.filter_congr fun u _ => ?_) fun u _ => ?_
  · exact Eq.to_iff (congrArg (fun w : BitVec 32 => w.toInt = (n.val : Int) ∧ (u 1).val = j.val) (idxCol_apply row (u 0)))
  · rw [extf_apply]
    obtain ⟨e, k, rfl⟩ : ∃ e k, u = ix2 e k := ⟨u 0, u 1, eq_ix2 u⟩
    rw [Pegcn.Lib.gather2_apply (by norm_num) gather_S100000x64_S2000000x1_S2000000x64_1_0_n_n_0_1_164 rfl rfl rfl rfl rfl rfl]
    refine congrArg sx ?_
    have hi : ∀ h, (⟨min ((wrapIdx (F := Ideal) col) (ix2 e 0)).toInt.toNat (100000 - 1), h⟩ : Fin 100000)
        = Pegcn.Inst.src col (ix2 e k) := by
      intro h
      refine Fin.ext ?_
      show min ((wrapIdx (F := Ideal) col) (ix2 e 0)).toInt.toNat (100000 - 1)
        = min (Pegcn.Inst.wrapW (col (ix1 e))).toInt.toNat (100000 - 1)
      rw [wrapIdx_apply]
    rw [hi]
    rfl

end Cert.KernelIdeal.RunValue

end
-- ==== Proof.KerValue.lean ====
/-
  The idealized kernel program's result, node by node.

  Reading the fold from the end: the third region leaves the head of the aggregated second-layer rows; those rows are
  the aggregation of the second region's output, which is the second kernel's row function of the aggregated
  first-layer rows; and those are the aggregation of the first region's output, the first projection of each node
  scaled by its degree factor. With the host stretches' terms read at an index this is the abstract network
  `kerNet` over the edge list's landing sets and source nodes.
-/
import proofs.«171494_j72095321031133_2_alg».proof.Proof.KerChain
import proofs.«171494_j72095321031133_2_alg».proof.Proof.KerAgg

set_option maxRecDepth 16384

noncomputable section

namespace Cert.KernelIdeal.RunValue

open Idealize.ShloMosaic Idealize.ShloMosaic.TcCoe Idealize.ShloMosaic.ValueIdx Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg)

/-- The weights as the first region finds them: vectors recast as rows, the 19 x 64 matrix cut in two. -/
def kerParamsX (x3 : (⟨S2x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 x13 x14 : (⟨S128, .f32⟩ : BufTy).Contents (Elt Ideal)) (x15 : (⟨S128x128, .f32⟩ : BufTy).Contents (Elt Ideal)) (x16 : (⟨S128, .f32⟩ : BufTy).Contents (Elt Ideal))
    (x17 : (⟨S128x64, .f32⟩ : BufTy).Contents (Elt Ideal)) (x18 : (⟨S64, .f32⟩ : BufTy).Contents (Elt Ideal)) (x19 : (⟨S64x32, .f32⟩ : BufTy).Contents (Elt Ideal)) (x20 : (⟨S32, .f32⟩ : BufTy).Contents (Elt Ideal)) (x21 : (⟨S32x16, .f32⟩ : BufTy).Contents (Elt Ideal))
    (x22 : (⟨S16, .f32⟩ : BufTy).Contents (Elt Ideal)) (x23 : (⟨S19x64, .f32⟩ : BufTy).Contents (Elt Ideal)) : Pegcn.Params :=
  Pegcn.Ker.blockParams x3 (shapeCast S1x128 x4 shapeCasts_S128_S1x128) (shapeCast S1x128 x5 shapeCasts_S128_S1x128) (shapeCast S1x128 x6 shapeCasts_S128_S1x128)
      x7 (shapeCast S1x128 x8 shapeCasts_S128_S1x128) (shapeCast S1x128 x9 shapeCasts_S128_S1x128) (shapeCast S1x128 x10 shapeCasts_S128_S1x128)
      x11 (shapeCast S1x128 x12 shapeCasts_S128_S1x128) (shapeCast S1x128 x13 shapeCasts_S128_S1x128) (shapeCast S1x128 x14 shapeCasts_S128_S1x128)
      x15 (shapeCast S1x128 x16 shapeCasts_S128_S1x128) x17 (shapeCast S1x64 x18 shapeCasts_S64_S1x64) x19 (shapeCast S1x32 x20 shapeCasts_S32_S1x32)
      x21 (shapeCast S1x16 x22 shapeCasts_S16_S1x16)
      (extractStridedSlice S3x64 ![0, 0] x23 slices_S19x64_S3x64_0_0) (extractStridedSlice S16x64 ![3, 0] x23 slices_S19x64_S16x64_3_0)

/-- The first projection of node `a`, feature `b`, from the coordinates `x0`, the raw features `x1` and the weights. -/
def kA1X (x0 : (⟨S100000x2, .f32⟩ : BufTy).Contents (Elt Ideal)) (x1 : (⟨S100000x3, .f32⟩ : BufTy).Contents (Elt Ideal)) (x3 : (⟨S2x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 x13 x14 : (⟨S128, .f32⟩ : BufTy).Contents (Elt Ideal)) (x15 : (⟨S128x128, .f32⟩ : BufTy).Contents (Elt Ideal)) (x16 : (⟨S128, .f32⟩ : BufTy).Contents (Elt Ideal))
    (x17 : (⟨S128x64, .f32⟩ : BufTy).Contents (Elt Ideal)) (x18 : (⟨S64, .f32⟩ : BufTy).Contents (Elt Ideal)) (x19 : (⟨S64x32, .f32⟩ : BufTy).Contents (Elt Ideal)) (x20 : (⟨S32, .f32⟩ : BufTy).Contents (Elt Ideal)) (x21 : (⟨S32x16, .f32⟩ : BufTy).Contents (Elt Ideal))
    (x22 : (⟨S16, .f32⟩ : BufTy).Contents (Elt Ideal)) (x23 : (⟨S19x64, .f32⟩ : BufTy).Contents (Elt Ideal))
    (a : Fin 100000) (b : Fin 64) : EReal :=
  Pegcn.proj1 (kerParamsX x3 x4 x5 x6 x7 x8 x9 x10 x11 x12 x13 x14 x15 x16 x17 x18 x19 x20 x21 x22 x23) (fun k => x0 (ix2 a k)) (fun k => x1 (ix2 a k)) b

/-- The convolutions' offsets, the second layer's weights and the head, as the regions find them. -/
def kCbX (x : (⟨S64, .f32⟩ : BufTy).Contents (Elt Ideal)) : Fin 64 → EReal := fun j => shapeCast S1x64 x shapeCasts_S64_S1x64 (ix2 (0 : Fin 1) j)
def kCw2X (x : (⟨S64x64, .f32⟩ : BufTy).Contents (Elt Ideal)) : Fin 64 → Fin 64 → EReal := fun j k => x (ix2 j k)
def kOwX (x : (⟨S64x1, .f32⟩ : BufTy).Contents (Elt Ideal)) : Fin 64 → EReal := fun k => x (ix2 k (0 : Fin 1))
def kObX (x : (⟨S1, .f32⟩ : BufTy).Contents (Elt Ideal)) : EReal := shapeCast S1x1 x shapeCasts_S1_S1x1 (ix2 (0 : Fin 1) (0 : Fin 1))

/-- The same at the launch memory's argument arrays. -/
abbrev kerParams (c : Dev nD) : Pegcn.Params := kerParamsX (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))
abbrev kA1 (c : Dev nD) : Fin 100000 → Fin 64 → EReal := kA1X (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))
abbrev kRow (c : Dev nD) := rowVec (m ((c : Thread nD τ).loc main_arg2))
abbrev kCol (c : Dev nD) := colVec (m ((c : Thread nD τ).loc main_arg2))
abbrev kCb1 (c : Dev nD) : Fin 64 → EReal := kCbX (m ((c : Thread nD τ).loc main_arg24))
abbrev kCw2 (c : Dev nD) : Fin 64 → Fin 64 → EReal := kCw2X (m ((c : Thread nD τ).loc main_arg25))
abbrev kCb2 (c : Dev nD) : Fin 64 → EReal := kCbX (m ((c : Thread nD τ).loc main_arg26))
abbrev kOw (c : Dev nD) : Fin 64 → EReal := kOwX (m ((c : Thread nD τ).loc main_arg27))
abbrev kOb (c : Dev nD) : EReal := kObX (m ((c : Thread nD τ).loc main_arg28))

theorem G0_ix2 (V : (c : Dev nD) → (b : Ref sig .tc) → Buf (Elt Ideal) ((c : Thread nD τ).loc b)) (c : Dev nD)
    (a : Fin 100000) (b : Fin 64) : G0 V c (ix2 a b) = g0 V c a b := rfl
theorem G1_ix2 (V : (c : Dev nD) → (b : Ref sig .tc) → Buf (Elt Ideal) ((c : Thread nD τ).loc b)) (c : Dev nD)
    (a : Fin 100000) (b : Fin 64) : G1 V c (ix2 a b) = g1 V c a b := rfl
theorem G2_ix2 (V : (c : Dev nD) → (b : Ref sig .tc) → Buf (Elt Ideal) ((c : Thread nD τ).loc b)) (c : Dev nD)
    (a : Fin 100000) (b : Fin 1) : G2 V c (ix2 a b) = g2 V c a b := rfl

/-- The degree-factor column as each region finds it, at a node. -/
theorem V1_v11_at (c : Dev nD) (a : Fin 100000) : V1 m ρ c main_v11 (ix2 a 0) = Pegcn.Inst.deg (kRow m c) a :=
  (congrFun (W1_v11 m ρ c) _).trans (dinvCol_apply _ a)
theorem V3_v11_at (c : Dev nD) (a : Fin 100000) : V3 m ρ c main_v11 (ix2 a 0) = Pegcn.Inst.deg (kRow m c) a :=
  (congrFun (W3_v11 m ρ c) _).trans (dinvCol_apply _ a)
theorem V5_v11_at (c : Dev nD) (a : Fin 100000) : V5 m ρ c main_v11 (ix2 a 0) = Pegcn.Inst.deg (kRow m c) a :=
  (congrFun (W5_v11 m ρ c) _).trans (dinvCol_apply _ a)

set_option maxHeartbeats 4000000 in
/-- The first region's output entry: the node's projection scaled by its degree factor. -/
theorem g0_V1 (c : Dev nD) (a : Fin 100000) (b : Fin 64) :
    g0 (V1 m ρ) c a b = kA1 m c a b * Pegcn.Inst.deg (kRow m c) a := by
  unfold g0 kA1 kA1X kerParamsX
  rw [V1_v11_at]
  dsimp only [V1]
  rw [W1_arg3, W1_v14, W1_v15, W1_v16, W1_arg7, W1_v17, W1_v18, W1_v19, W1_arg11, W1_v20, W1_v21, W1_v22, W1_arg15,
    W1_v23, W1_arg17, W1_v24, W1_arg19, W1_v25, W1_arg21, W1_v26, W1_v12, W1_v13, W1_arg0, W1_arg1]

/-- The second region's output entry. -/
theorem g1_V3 (c : Dev nD) (a : Fin 100000) (k : Fin 64) :
    g1 (V3 m ρ) c a k
      = Pegcn.proj2 (Pegcn.Net.aggK (Pegcn.Inst.landing (kRow m c)) (Pegcn.Inst.src (kCol m c)) Pegcn.Inst.feat
            (fun a' b' => kA1 m c a' b' * Pegcn.Inst.deg (kRow m c) a') a)
          (Pegcn.Inst.deg (kRow m c) a) (kCb1 m c) (kCw2 m c) k := by
  unfold g1 kCb1 kCw2 kCbX kCw2X
  dsimp only [V3]
  rw [W3_v40, W3_v11, W3_v41, W3_arg25]
  simp only [aggr_apply, G0_ix2, g0_V1]
  exact congrArg (fun d => Pegcn.proj2 _ d _ _ k) (dinvCol_apply _ a)

/-- THE KERNEL PROGRAM'S RESULT at node `n`. -/
theorem ker_value (c : Dev nD) (n : Fin 100000) :
    (W6 m ρ c (Proc.devRef .tc main_v58) : S100000x1.Idx → EReal) (ix2 n (0 : Fin 1))
      = Pegcn.Net.kerNet (Pegcn.Inst.landing (kRow m c)) (Pegcn.Inst.src (kCol m c)) Pegcn.Inst.feat
          (Pegcn.Inst.deg (kRow m c)) (kA1 m c) (kCb1 m c) (kCw2 m c) (kCb2 m c) (kOw m c) (kOb m c) n := by
  rw [W6_v58, G2_ix2]
  unfold g2 Pegcn.Net.kerNet kCb2 kOw kOb kCbX kOwX kObX
  rw [V5_v11_at]
  dsimp only [V5]
  rw [W5_v55, W5_v56, W5_arg27, W5_v57]
  simp only [aggr_apply, G1_ix2, g1_V3]

end Cert.KernelIdeal.RunValue

end
-- ==== Proof.RefEnc1.lean ====
/-
  The reference's host stages, read at a row.

  The reference applies every layer to the whole [a, b] array of node rows with host operations: a plain matrix product
  plus an offset vector turned into a one-row matrix and repeated down the rows; a rectifier against a repeated zero word;
  a layer normalisation spelt with row sums (from the zero word), the literal 128 and the epsilon repeated over a column,
  a reciprocal square root and two per-feature vectors repeated down the rows; a hyperbolic tangent; and, before the first
  convolution's product, two arrays joined along the feature axis. Each lemma here reads one such stage at the entry
  (r, q) as the row-level function of the specification applied to row r of the stage's operand, for any extents.
-/
import Idealize.ShloMosaic.PureOps.Ideal.Laws
import Idealize.ShloMosaic.Lib.ValueIdx
import Idealize.ShloMosaic.Lib.Pipeline.Value
import Idealize.ShloMosaic.Lib.IdealHost
import proofs.«171494_j72095321031133_2_alg».proof.Proof.Spec
import proofs.«171494_j72095321031133_2_alg».proof.Proof.LibPlainDot
import proofs.«171494_j72095321031133_2_alg».proof.Proof.LibHostRead

noncomputable section

namespace Pegcn.Ref

open Idealize.ShloMosaic Idealize.ShloMosaic.ValueIdx

/-- An f32 array of a host program on the extended reals. -/
abbrev Arr (s : Shape) : Type := (⟨s, .f32⟩ : BufTy).Contents (Elt Ideal)

/-! ## Elementwise host operations at an index -/

/-- The host's division at an index is the extended division of the elements. -/
theorem hostDivf_apply {s : Shape} {φ : FTy} (x y : FVec Ideal s φ) (i : s.Idx) :
    Host.divf x y i = Ideal.div (x i) (y i) := rfl

/-- The host's hyperbolic tangent at an index is the extended one of the element. -/
theorem hostTanh_apply {s : Shape} {φ : FTy} (x : FVec Ideal s φ) (i : s.Idx) :
    Host.tanh x i = Ideal.tanh (x i) := rfl

/-- The rectifier on the host: the maximum with the zero word repeated over the array. -/
theorem hostRelu_apply {s : Shape} (hz : (⟨0, ![]⟩ : Shape).BroadcastsInDim s ![]) (y : FVec Ideal s .f32) (i : s.Idx) :
    maximumf y (broadcastInDim s ![] hz (constant (F := Ideal) ⟨0, ![]⟩ .f32 0x00000000#32)) i = max (y i) Pegcn.zeroW := by
  rw [maximumf_apply, Hmu.Lib.bcast_const_apply]
  rfl

variable {a k b : ℕ}

/-! ## The affine layer -/

/-- A plain product plus an offset vector repeated down the rows, at (r, q): the affine map of row r. -/
theorem hostAffine_apply (D : DotDims ⟨2, ![a, k]⟩ ⟨2, ![k, b]⟩ ⟨2, ![a, b]⟩) (hD : D = DotDims.plain a k b)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (x : FVec Ideal ⟨2, ![a, k]⟩ .f32) (W : FVec Ideal ⟨2, ![k, b]⟩ .f32) (c : FVec Ideal ⟨1, ![b]⟩ .f32)
    (r : Fin a) (q : Fin b) :
    addf (Host.dotGeneral (F := Ideal) D none x W)
        (broadcastInDim ⟨2, ![a, b]⟩ ![0, 1] h2 (broadcastInDim ⟨2, ![1, b]⟩ ![1] h1 c)) (ix2 r q)
      = Pegcn.affine (fun j => x (ix2 r j)) (fun i j => W (ix2 i j)) (fun j => c (ix1 j)) q := by
  subst hD
  rw [addf_apply, Hmu.Lib.bcastCols_apply]
  simp only [Host.dotGeneral]
  rw [Gcn.Lib.plain_dotGeneral_apply]
  rfl

/-! ## Layer normalisation -/

section LayerNorm

variable (hr : Shape.ReducesTo ⟨2, ![a, b]⟩ [1] ⟨1, ![a]⟩) (hu : 0 < (⟨0, ![]⟩ : Shape).numel)
  (hc : (⟨1, ![a]⟩ : Shape).BroadcastsInDim ⟨2, ![a, 1]⟩ (![0] : Fin 1 → Fin 2))
  (hk : (⟨0, ![]⟩ : Shape).BroadcastsInDim ⟨2, ![a, 1]⟩ (![] : Fin 0 → Fin 2))
  (hb : (⟨2, ![a, 1]⟩ : Shape).BroadcastsInDim ⟨2, ![a, b]⟩ (![0, 1] : Fin 2 → Fin 2))
  (h1 : (⟨1, ![b]⟩ : Shape).BroadcastsInDim ⟨2, ![1, b]⟩ (![1] : Fin 1 → Fin 2))
  (h2 : (⟨2, ![1, b]⟩ : Shape).BroadcastsInDim ⟨2, ![a, b]⟩ (![0, 1] : Fin 2 → Fin 2))

/-- The column of row sums over the literal 128: the sum along the rows from the zero word, made a column, divided by
    the literal repeated over the column. -/
def hostMean (y : FVec Ideal ⟨2, ![a, b]⟩ .f32) : FVec Ideal ⟨2, ![a, 1]⟩ .f32 :=
  Host.divf
    (broadcastInDim ⟨2, ![a, 1]⟩ ![0] hc (Host.reduceAdd y (constant (F := Ideal) ⟨0, ![]⟩ .f32 0x00000000#32) hr hu))
    (broadcastInDim ⟨2, ![a, 1]⟩ ![] hk (constant (F := Ideal) ⟨0, ![]⟩ .f32 0x43000000#32))

/-- At row r the column holds the mean of that row. -/
theorem hostMean_apply (y : FVec Ideal ⟨2, ![a, b]⟩ .f32) (r : Fin a) (u : Fin 1) :
    hostMean hr hu hc hk y (ix2 r u) = Pegcn.mean128 (fun j => y (ix2 r j)) := by
  unfold hostMean
  rw [hostDivf_apply, Hmu.Lib.bcast_a_a1_apply, Hmu.Lib.hostReduceAdd_ab_axis1_apply, Hmu.Lib.bcast_const_apply]
  rfl

/-- The array minus its column of means repeated across the columns. -/
def hostCentred (y : FVec Ideal ⟨2, ![a, b]⟩ .f32) : FVec Ideal ⟨2, ![a, b]⟩ .f32 :=
  subf y (broadcastInDim ⟨2, ![a, b]⟩ ![0, 1] hb (hostMean hr hu hc hk y))

/-- At (r, q): the deviation of row r's entry q from the row's mean. -/
theorem hostCentred_apply (y : FVec Ideal ⟨2, ![a, b]⟩ .f32) (r : Fin a) (q : Fin b) :
    hostCentred hr hu hc hk hb y (ix2 r q) = Pegcn.centred (fun j => y (ix2 r j)) q := by
  unfold hostCentred
  rw [subf_apply, Hmu.Lib.bcast_a1_ab_apply, hostMean_apply]
  rfl

/-- Layer normalisation on the host: the deviations times the reciprocal root of (their mean square plus epsilon)
    repeated across the columns, times the gain and plus the offset, both repeated down the rows. -/
def hostLnorm (y : FVec Ideal ⟨2, ![a, b]⟩ .f32) (g e : FVec Ideal ⟨1, ![b]⟩ .f32) : FVec Ideal ⟨2, ![a, b]⟩ .f32 :=
  addf
    (mulf
      (mulf (hostCentred hr hu hc hk hb y)
        (broadcastInDim ⟨2, ![a, b]⟩ ![0, 1] hb
          (Host.rsqrt
            (addf (hostMean hr hu hc hk (mulf (hostCentred hr hu hc hk hb y) (hostCentred hr hu hc hk hb y)))
              (broadcastInDim ⟨2, ![a, 1]⟩ ![] hk (constant (F := Ideal) ⟨0, ![]⟩ .f32 0x3727C5AC#32))))))
      (broadcastInDim ⟨2, ![a, b]⟩ ![0, 1] h2 (broadcastInDim ⟨2, ![1, b]⟩ ![1] h1 g)))
    (broadcastInDim ⟨2, ![a, b]⟩ ![0, 1] h2 (broadcastInDim ⟨2, ![1, b]⟩ ![1] h1 e))

/-- At (r, q): the specification's layer normalisation of row r. -/
theorem hostLnorm_apply (y : FVec Ideal ⟨2, ![a, b]⟩ .f32) (g e : FVec Ideal ⟨1, ![b]⟩ .f32) (r : Fin a) (q : Fin b) :
    hostLnorm hr hu hc hk hb h1 h2 y g e (ix2 r q)
      = Pegcn.lnorm (fun j => y (ix2 r j)) (fun j => g (ix1 j)) (fun j => e (ix1 j)) q := by
  have hsq : (fun j => mulf (hostCentred hr hu hc hk hb y) (hostCentred hr hu hc hk hb y) (ix2 r j))
      = fun j => Pegcn.centred (fun j => y (ix2 r j)) j * Pegcn.centred (fun j => y (ix2 r j)) j :=
    funext fun j => by rw [mulf_apply, hostCentred_apply]
  unfold hostLnorm
  rw [addf_apply, mulf_apply, mulf_apply, Hmu.Lib.bcastCols_apply, Hmu.Lib.bcastCols_apply, Hmu.Lib.bcast_a1_ab_apply,
    Hmu.Lib.hostRsqrt_apply, addf_apply, hostMean_apply, Hmu.Lib.bcast_const_apply, hostCentred_apply, hsq]
  rfl

end LayerNorm

/-! ## Two arrays joined along the feature axis, and the product of the joined array -/

section Concat

variable {α : Type} {m n t : ℕ}

/-- A feature below the first piece's width reads the first piece. -/
theorem hostConcatCols_left (x₁ : (⟨2, ![a, m]⟩ : Shape).Idx → α) (x₂ : (⟨2, ![a, n]⟩ : Shape).Idx → α)
    (h : Shape.Concatenates [⟨2, ![a, m]⟩, ⟨2, ![a, n]⟩] ⟨2, ![a, t]⟩ 1) (r : Fin a) (j : Fin t) (i : Fin m)
    (hj : j.val = i.val) :
    concatenate ⟨2, ![a, t]⟩ 1 [⟨⟨2, ![a, m]⟩, x₁⟩, ⟨⟨2, ![a, n]⟩, x₂⟩] h (ix2 r j) = x₁ (ix2 r i) :=
  concatenate_pair_apply_left (1 : Fin 2) x₁ x₂ h (ix2 r j) rfl (ix2 r i) fun e =>
    match e with | ⟨0, _⟩ => rfl | ⟨1, _⟩ => hj.symm

/-- A feature from the first piece's width on reads the second piece, that width further down. -/
theorem hostConcatCols_right (x₁ : (⟨2, ![a, m]⟩ : Shape).Idx → α) (x₂ : (⟨2, ![a, n]⟩ : Shape).Idx → α)
    (h : Shape.Concatenates [⟨2, ![a, m]⟩, ⟨2, ![a, n]⟩] ⟨2, ![a, t]⟩ 1) (r : Fin a) (j : Fin t) (i : Fin n)
    (hj : j.val = i.val + m) :
    concatenate ⟨2, ![a, t]⟩ 1 [⟨⟨2, ![a, m]⟩, x₁⟩, ⟨⟨2, ![a, n]⟩, x₂⟩] h (ix2 r j) = x₂ (ix2 r i) :=
  concatenate_pair_apply_right (1 : Fin 2) x₁ x₂ h (ix2 r j) rfl rfl (ix2 r i)
    (fun e he => match e, he with | ⟨0, _⟩, _ => rfl | ⟨1, _⟩, he => absurd rfl he)
    hj.symm

/-- The plain product of the joined array with a weight matrix, at (r, q): the first piece's row against the first
    rows of the weights plus the second piece's row against the remaining rows. -/
theorem hostProj_apply {c : ℕ} (D : DotDims ⟨2, ![a, m + n]⟩ ⟨2, ![m + n, c]⟩ ⟨2, ![a, c]⟩)
    (hD : D = DotDims.plain a (m + n) c)
    (h : Shape.Concatenates [⟨2, ![a, m]⟩, ⟨2, ![a, n]⟩] ⟨2, ![a, m + n]⟩ 1)
    (x₁ : FVec Ideal ⟨2, ![a, m]⟩ .f32) (x₂ : FVec Ideal ⟨2, ![a, n]⟩ .f32) (W : FVec Ideal ⟨2, ![m + n, c]⟩ .f32)
    (r : Fin a) (q : Fin c) :
    Host.dotGeneral (F := Ideal) D none
        (concatenate ⟨2, ![a, m + n]⟩ 1 [⟨⟨2, ![a, m]⟩, x₁⟩, ⟨⟨2, ![a, n]⟩, x₂⟩] h) W (ix2 r q)
      = (∑ i : Fin m, x₁ (ix2 r i) * W (ix2 (Fin.castAdd n i) q))
        + ∑ i : Fin n, x₂ (ix2 r i) * W (ix2 (Fin.natAdd m i) q) := by
  subst hD
  simp only [Host.dotGeneral]
  rw [Gcn.Lib.plain_dotGeneral_apply, Fin.sum_univ_add]
  congr 1
  · exact Finset.sum_congr rfl fun i _ => by rw [hostConcatCols_left x₁ x₂ h r (Fin.castAdd n i) i rfl]
  · exact Finset.sum_congr rfl fun i _ => by
      rw [hostConcatCols_right x₁ x₂ h r (Fin.natAdd m i) i (Nat.add_comm _ _)]

end Concat

end Pegcn.Ref

end
-- ==== Proof.RefEnc.lean ====
/-
  The reference's encoder, decoder and first projection, read at a node's row.

  The reference program computes, for all nodes at once, three encoder blocks (affine map, rectifier, layer
  normalisation), a fourth affine map with rectifier, two affine maps with hyperbolic tangent, an affine map down to 16
  features, joins the 3 raw features with those 16 and multiplies by the 19 x 64 weight matrix. Each stage is one of the
  host stages read at a row in the companion module; chaining them, the product's entry (n, q) is the specification's
  first projection of node n's coordinates and raw features, with the weights taken from the program's arguments.
-/
import proofs.«171494_j72095321031133_2_alg».proof.Proof.Spec
import proofs.«171494_j72095321031133_2_alg».proof.Proof.RefEnc1
import proofs.«171494_j72095321031133_2_alg».proof.Proof.ReferenceIdealReadP

noncomputable section

namespace Pegcn.Ref

open Idealize.ShloMosaic Idealize.ShloMosaic.ValueIdx
open Cert.ReferenceIdeal Cert.ReferenceIdeal.Gen Cert.ReferenceIdeal.ReadP

variable (x0 : Arr S100000x2) (x1 : Arr S100000x3) (x3 : Arr S2x128) (x4 x5 x6 : Arr S128) (x7 : Arr S128x128)
  (x8 x9 x10 : Arr S128) (x11 : Arr S128x128) (x12 x13 x14 : Arr S128) (x15 : Arr S128x128) (x16 : Arr S128)
  (x17 : Arr S128x64) (x18 : Arr S64) (x19 : Arr S64x32) (x20 : Arr S32) (x21 : Arr S32x16) (x22 : Arr S16)
  (x23 : Arr S19x64)

/-- The weights as the specification takes them: each matrix argument by (input feature, output feature), each vector
    argument by feature, and the 19 x 64 matrix cut into its first 3 rows and its last 16. -/
def argParams : Params where
  fw0 := fun i j => x3 (ix2 i j)
  fb0 := fun j => x4 (ix1 j)
  fg0 := fun j => x5 (ix1 j)
  fe0 := fun j => x6 (ix1 j)
  fw1 := fun i j => x7 (ix2 i j)
  fb1 := fun j => x8 (ix1 j)
  fg1 := fun j => x9 (ix1 j)
  fe1 := fun j => x10 (ix1 j)
  fw2 := fun i j => x11 (ix2 i j)
  fb2 := fun j => x12 (ix1 j)
  fg2 := fun j => x13 (ix1 j)
  fe2 := fun j => x14 (ix1 j)
  fw3 := fun i j => x15 (ix2 i j)
  fb3 := fun j => x16 (ix1 j)
  dw0 := fun i j => x17 (ix2 i j)
  db0 := fun j => x18 (ix1 j)
  dw1 := fun i j => x19 (ix2 i j)
  db1 := fun j => x20 (ix1 j)
  dw2 := fun i j => x21 (ix2 i j)
  db2 := fun j => x22 (ix1 j)
  cwf := fun k q => x23 (ix2 ⟨k.val, by omega⟩ q)
  cwe := fun k q => x23 (ix2 ⟨3 + k.val, by omega⟩ q)

/-! ## First block: operations 0 to 28 -/

theorem v3_row (n : Fin 100000) (q : Fin 128) :
    val_main_v3 (F := Ideal) x0 x3 x4 (ix2 n q)
      = affine (fun j : Fin 2 => x0 (ix2 n j)) (fun i j => x3 (ix2 i j)) (fun j => x4 (ix1 j)) q :=
  hostAffine_apply (a := 100000) (k := 2) (b := 128) dot_S100000x2_S2x128_S100000x128_1_0_0_1_n_n rfl
    bcast_S128_S1x128_1 bcast_S1x128_S100000x128_0_1 x0 x3 x4 n q

theorem v4_row (n : Fin 100000) (q : Fin 128) :
    val_main_v4 (F := Ideal) x0 x3 x4 (ix2 n q)
      = relu (fun j : Fin 128 => val_main_v3 (F := Ideal) x0 x3 x4 (ix2 n j)) q :=
  hostRelu_apply (s := S100000x128) bcast_S_S100000x128 (val_main_v3 (F := Ideal) x0 x3 x4) (ix2 n q)

theorem v28_row (n : Fin 100000) (q : Fin 128) :
    val_main_v28 (F := Ideal) x0 x3 x4 x5 x6 (ix2 n q)
      = lnorm (fun j : Fin 128 => val_main_v4 (F := Ideal) x0 x3 x4 (ix2 n j)) (fun j => x5 (ix1 j))
          (fun j => x6 (ix1 j)) q :=
  hostLnorm_apply (a := 100000) (b := 128) reducesTo_S100000x128_S100000_d1 h_S_ bcast_S100000_S100000x1_0
    bcast_S_S100000x1 bcast_S100000x1_S100000x128_0_1 bcast_S128_S1x128_1 bcast_S1x128_S100000x128_0_1
    (val_main_v4 (F := Ideal) x0 x3 x4) x5 x6 n q

/-- The first block's output at node n is the specification's block of the node's coordinates. -/
theorem v28_apply (n : Fin 100000) (q : Fin 128) :
    val_main_v28 (F := Ideal) x0 x3 x4 x5 x6 (ix2 n q)
      = block (fun j : Fin 2 => x0 (ix2 n j)) (fun i j => x3 (ix2 i j)) (fun j => x4 (ix1 j)) (fun j => x5 (ix1 j))
          (fun j => x6 (ix1 j)) q := by
  rw [v28_row]
  simp only [v4_row, v3_row]
  rfl

/-! ## Second block: operations 29 to 57 -/

theorem v32_row (n : Fin 100000) (q : Fin 128) :
    val_main_v32 (F := Ideal) x0 x3 x4 x5 x6 x7 x8 (ix2 n q)
      = affine (fun j : Fin 128 => val_main_v28 (F := Ideal) x0 x3 x4 x5 x6 (ix2 n j)) (fun i j => x7 (ix2 i j))
          (fun j => x8 (ix1 j)) q :=
  hostAffine_apply (a := 100000) (k := 128) (b := 128) dot_S100000x128_S128x128_S100000x128_1_0_0_1_n_n rfl
    bcast_S128_S1x128_1 bcast_S1x128_S100000x128_0_1 (val_main_v28 (F := Ideal) x0 x3 x4 x5 x6) x7 x8 n q

theorem v33_row (n : Fin 100000) (q : Fin 128) :
    val_main_v33 (F := Ideal) x0 x3 x4 x5 x6 x7 x8 (ix2 n q)
      = relu (fun j : Fin 128 => val_main_v32 (F := Ideal) x0 x3 x4 x5 x6 x7 x8 (ix2 n j)) q :=
  hostRelu_apply (s := S100000x128) bcast_S_S100000x128 (val_main_v32 (F := Ideal) x0 x3 x4 x5 x6 x7 x8) (ix2 n q)

theorem v57_row (n : Fin 100000) (q : Fin 128) :
    val_main_v57 (F := Ideal) x0 x3 x4 x5 x6 x7 x8 x9 x10 (ix2 n q)
      = lnorm (fun j : Fin 128 => val_main_v33 (F := Ideal) x0 x3 x4 x5 x6 x7 x8 (ix2 n j)) (fun j => x9 (ix1 j))
          (fun j => x10 (ix1 j)) q :=
  hostLnorm_apply (a := 100000) (b := 128) reducesTo_S100000x128_S100000_d1 h_S_ bcast_S100000_S100000x1_0
    bcast_S_S100000x1 bcast_S100000x1_S100000x128_0_1 bcast_S128_S1x128_1 bcast_S1x128_S100000x128_0_1
    (val_main_v33 (F := Ideal) x0 x3 x4 x5 x6 x7 x8) x9 x10 n q

/-- The second block's output at node n. -/
theorem v57_apply (n : Fin 100000) (q : Fin 128) :
    val_main_v57 (F := Ideal) x0 x3 x4 x5 x6 x7 x8 x9 x10 (ix2 n q)
      = block
          (block (fun j : Fin 2 => x0 (ix2 n j)) (fun i j => x3 (ix2 i j)) (fun j => x4 (ix1 j)) (fun j => x5 (ix1 j))
            (fun j => x6 (ix1 j)))
          (fun i j => x7 (ix2 i j)) (fun j => x8 (ix1 j)) (fun j => x9 (ix1 j)) (fun j => x10 (ix1 j)) q := by
  rw [v57_row]
  simp only [v33_row, v32_row, v28_apply]
  rfl

/-! ## Third block: operations 58 to 86 -/

theorem v61_row (n : Fin 100000) (q : Fin 128) :
    val_main_v61 (F := Ideal) x0 x3 x4 x5 x6 x7 x8 x9 x10 x11 x12 (ix2 n q)
      = affine (fun j : Fin 128 => val_main_v57 (F := Ideal) x0 x3 x4 x5 x6 x7 x8 x9 x10 (ix2 n j))
          (fun i j => x11 (ix2 i j)) (fun j => x12 (ix1 j)) q :=
  hostAffine_apply (a := 100000) (k := 128) (b := 128) dot_S100000x128_S128x128_S100000x128_1_0_0_1_n_n rfl
    bcast_S128_S1x128_1 bcast_S1x128_S100000x128_0_1 (val_main_v57 (F := Ideal) x0 x3 x4 x5 x6 x7 x8 x9 x10) x11 x12 n q

theorem v62_row (n : Fin 100000) (q : Fin 128) :
    val_main_v62 (F := Ideal) x0 x3 x4 x5 x6 x7 x8 x9 x10 x11 x12 (ix2 n q)
      = relu (fun j : Fin 128 => val_main_v61 (F := Ideal) x0 x3 x4 x5 x6 x7 x8 x9 x10 x11 x12 (ix2 n j)) q :=
  hostRelu_apply (s := S100000x128) bcast_S_S100000x128
    (val_main_v61 (F := Ideal) x0 x3 x4 x5 x6 x7 x8 x9 x10 x11 x12) (ix2 n q)

theorem v86_row (n : Fin 100000) (q : Fin 128) :
    val_main_v86 (F := Ideal) x0 x3 x4 x5 x6 x7 x8 x9 x10 x11 x12 x13 x14 (ix2 n q)
      = lnorm (fun j : Fin 128 => val_main_v62 (F := Ideal) x0 x3 x4 x5 x6 x7 x8 x9 x10 x11 x12 (ix2 n j))
          (fun j => x13 (ix1 j)) (fun j => x14 (ix1 j)) q :=
  hostLnorm_apply (a := 100000) (b := 128) reducesTo_S100000x128_S100000_d1 h_S_ bcast_S100000_S100000x1_0
    bcast_S_S100000x1 bcast_S100000x1_S100000x128_0_1 bcast_S128_S1x128_1 bcast_S1x128_S100000x128_0_1
    (val_main_v62 (F := Ideal) x0 x3 x4 x5 x6 x7 x8 x9 x10 x11 x12) x13 x14 n q

/-- The third block's output at node n. -/
theorem v86_apply (n : Fin 100000) (q : Fin 128) :
    val_main_v86 (F := Ideal) x0 x3 x4 x5 x6 x7 x8 x9 x10 x11 x12 x13 x14 (ix2 n q)
      = block
          (block
            (block (fun j : Fin 2 => x0 (ix2 n j)) (fun i j => x3 (ix2 i j)) (fun j => x4 (ix1 j))
              (fun j => x5 (ix1 j)) (fun j => x6 (ix1 j)))
            (fun i j => x7 (ix2 i j)) (fun j => x8 (ix1 j)) (fun j => x9 (ix1 j)) (fun j => x10 (ix1 j)))
          (fun i j => x11 (ix2 i j)) (fun j => x12 (ix1 j)) (fun j => x13 (ix1 j)) (fun j => x14 (ix1 j)) q := by
  rw [v86_row]
  simp only [v62_row, v61_row, v57_apply]
  rfl

/-! ## Fourth affine map with rectifier: operations 87 to 91 -/

theorem v90_row (n : Fin 100000) (q : Fin 128) :
    val_main_v90 (F := Ideal) x0 x3 x4 x5 x6 x7 x8 x9 x10 x11 x12 x13 x14 x15 x16 (ix2 n q)
      = affine (fun j : Fin 128 => val_main_v86 (F := Ideal) x0 x3 x4 x5 x6 x7 x8 x9 x10 x11 x12 x13 x14 (ix2 n j))
          (fun i j => x15 (ix2 i j)) (fun j => x16 (ix1 j)) q :=
  hostAffine_apply (a := 100000) (k := 128) (b := 128) dot_S100000x128_S128x128_S100000x128_1_0_0_1_n_n rfl
    bcast_S128_S1x128_1 bcast_S1x128_S100000x128_0_1
    (val_main_v86 (F := Ideal) x0 x3 x4 x5 x6 x7 x8 x9 x10 x11 x12 x13 x14) x15 x16 n q

theorem v91_row (n : Fin 100000) (q : Fin 128) :
    val_main_v91 (F := Ideal) x0 x3 x4 x5 x6 x7 x8 x9 x10 x11 x12 x13 x14 x15 x16 (ix2 n q)
      = relu (fun j : Fin 128 =>
          val_main_v90 (F := Ideal) x0 x3 x4 x5 x6 x7 x8 x9 x10 x11 x12 x13 x14 x15 x16 (ix2 n j)) q :=
  hostRelu_apply (s := S100000x128) bcast_S_S100000x128
    (val_main_v90 (F := Ideal) x0 x3 x4 x5 x6 x7 x8 x9 x10 x11 x12 x13 x14 x15 x16) (ix2 n q)

/-- The encoder's output at node n is the specification's encoder of the node's coordinates. -/
theorem v91_apply (n : Fin 100000) (q : Fin 128) :
    val_main_v91 (F := Ideal) x0 x3 x4 x5 x6 x7 x8 x9 x10 x11 x12 x13 x14 x15 x16 (ix2 n q)
      = enc (argParams x3 x4 x5 x6 x7 x8 x9 x10 x11 x12 x13 x14 x15 x16 x17 x18 x19 x20 x21 x22 x23)
          (fun j : Fin 2 => x0 (ix2 n j)) q := by
  rw [v91_row]
  simp only [v90_row, v86_apply]
  rfl

/-! ## Decoder: operations 92 to 105 -/

theorem v95_row (n : Fin 100000) (q : Fin 64) :
    val_main_v95 (F := Ideal) x0 x3 x4 x5 x6 x7 x8 x9 x10 x11 x12 x13 x14 x15 x16 x17 x18 (ix2 n q)
      = affine (fun j : Fin 128 =>
          val_main_v91 (F := Ideal) x0 x3 x4 x5 x6 x7 x8 x9 x10 x11 x12 x13 x14 x15 x16 (ix2 n j))
          (fun i j => x17 (ix2 i j)) (fun j => x18 (ix1 j)) q :=
  hostAffine_apply (a := 100000) (k := 128) (b := 64) dot_S100000x128_S128x64_S100000x64_1_0_0_1_n_n rfl
    bcast_S64_S1x64_1 bcast_S1x64_S100000x64_0_1
    (val_main_v91 (F := Ideal) x0 x3 x4 x5 x6 x7 x8 x9 x10 x11 x12 x13 x14 x15 x16) x17 x18 n q

theorem v96_row (n : Fin 100000) (q : Fin 64) :
    val_main_v96 (F := Ideal) x0 x3 x4 x5 x6 x7 x8 x9 x10 x11 x12 x13 x14 x15 x16 x17 x18 (ix2 n q)
      = tanhv (fun j : Fin 64 =>
          val_main_v95 (F := Ideal) x0 x3 x4 x5 x6 x7 x8 x9 x10 x11 x12 x13 x14 x15 x16 x17 x18 (ix2 n j)) q :=
  hostTanh_apply (val_main_v95 (F := Ideal) x0 x3 x4 x5 x6 x7 x8 x9 x10 x11 x12 x13 x14 x15 x16 x17 x18) (ix2 n q)

theorem v100_row (n : Fin 100000) (q : Fin 32) :
    val_main_v100 (F := Ideal) x0 x3 x4 x5 x6 x7 x8 x9 x10 x11 x12 x13 x14 x15 x16 x17 x18 x19 x20 (ix2 n q)
      = affine (fun j : Fin 64 =>
          val_main_v96 (F := Ideal) x0 x3 x4 x5 x6 x7 x8 x9 x10 x11 x12 x13 x14 x15 x16 x17 x18 (ix2 n j))
          (fun i j => x19 (ix2 i j)) (fun j => x20 (ix1 j)) q :=
  hostAffine_apply (a := 100000) (k := 64) (b := 32) dot_S100000x64_S64x32_S100000x32_1_0_0_1_n_n rfl
    bcast_S32_S1x32_1 bcast_S1x32_S100000x32_0_1
    (val_main_v96 (F := Ideal) x0 x3 x4 x5 x6 x7 x8 x9 x10 x11 x12 x13 x14 x15 x16 x17 x18) x19 x20 n q

theorem v101_row (n : Fin 100000) (q : Fin 32) :
    val_main_v101 (F := Ideal) x0 x3 x4 x5 x6 x7 x8 x9 x10 x11 x12 x13 x14 x15 x16 x17 x18 x19 x20 (ix2 n q)
      = tanhv (fun j : Fin 32 =>
          val_main_v100 (F := Ideal) x0 x3 x4 x5 x6 x7 x8 x9 x10 x11 x12 x13 x14 x15 x16 x17 x18 x19 x20 (ix2 n j)) q :=
  hostTanh_apply (val_main_v100 (F := Ideal) x0 x3 x4 x5 x6 x7 x8 x9 x10 x11 x12 x13 x14 x15 x16 x17 x18 x19 x20)
    (ix2 n q)

theorem v105_row (n : Fin 100000) (q : Fin 16) :
    val_main_v105 (F := Ideal) x0 x3 x4 x5 x6 x7 x8 x9 x10 x11 x12 x13 x14 x15 x16 x17 x18 x19 x20 x21 x22 (ix2 n q)
      = affine (fun j : Fin 32 =>
          val_main_v101 (F := Ideal) x0 x3 x4 x5 x6 x7 x8 x9 x10 x11 x12 x13 x14 x15 x16 x17 x18 x19 x20 (ix2 n j))
          (fun i j => x21 (ix2 i j)) (fun j => x22 (ix1 j)) q :=
  hostAffine_apply (a := 100000) (k := 32) (b := 16) dot_S100000x32_S32x16_S100000x16_1_0_0_1_n_n rfl
    bcast_S16_S1x16_1 bcast_S1x16_S100000x16_0_1
    (val_main_v101 (F := Ideal) x0 x3 x4 x5 x6 x7 x8 x9 x10 x11 x12 x13 x14 x15 x16 x17 x18 x19 x20) x21 x22 n q

/-- The decoder's output at node n is the specification's 16 decoded features of the node's coordinates. -/
theorem v105_apply (n : Fin 100000) (q : Fin 16) :
    val_main_v105 (F := Ideal) x0 x3 x4 x5 x6 x7 x8 x9 x10 x11 x12 x13 x14 x15 x16 x17 x18 x19 x20 x21 x22 (ix2 n q)
      = emb (argParams x3 x4 x5 x6 x7 x8 x9 x10 x11 x12 x13 x14 x15 x16 x17 x18 x19 x20 x21 x22 x23)
          (fun j : Fin 2 => x0 (ix2 n j)) q := by
  rw [v105_row]
  simp only [v101_row, v100_row, v96_row, v95_row,
    v91_apply x0 x3 x4 x5 x6 x7 x8 x9 x10 x11 x12 x13 x14 x15 x16 x17 x18 x19 x20 x21 x22 x23]
  rfl

/-! ## The joined features against the 19 x 64 weights: operations 106 and 111 -/

theorem v111_row (n : Fin 100000) (q : Fin 64) :
    val_main_v111 (F := Ideal) x0 x1 x3 x4 x5 x6 x7 x8 x9 x10 x11 x12 x13 x14 x15 x16 x17 x18 x19 x20 x21 x22 x23
        (ix2 n q)
      = (∑ i : Fin 3, x1 (ix2 n i) * x23 (ix2 (Fin.castAdd 16 i) q))
        + ∑ i : Fin 16,
            val_main_v105 (F := Ideal) x0 x3 x4 x5 x6 x7 x8 x9 x10 x11 x12 x13 x14 x15 x16 x17 x18 x19 x20 x21 x22
                (ix2 n i)
              * x23 (ix2 (Fin.natAdd 3 i) q) :=
  hostProj_apply (a := 100000) (m := 3) (n := 16) (c := 64) dot_S100000x19_S19x64_S100000x64_1_0_0_1_n_n rfl
    concatenates_S100000x3_S100000x16_S100000x19_d1 x1
    (val_main_v105 (F := Ideal) x0 x3 x4 x5 x6 x7 x8 x9 x10 x11 x12 x13 x14 x15 x16 x17 x18 x19 x20 x21 x22) x23 n q

/-- The reference's first product at (n, q) is the specification's first projection of node n. -/
theorem v111_apply (n : Fin 100000) (q : Fin 64) :
    val_main_v111 (F := Ideal) x0 x1 x3 x4 x5 x6 x7 x8 x9 x10 x11 x12 x13 x14 x15 x16 x17 x18 x19 x20 x21 x22 x23
        (ix2 n q)
      = proj1 (argParams x3 x4 x5 x6 x7 x8 x9 x10 x11 x12 x13 x14 x15 x16 x17 x18 x19 x20 x21 x22 x23)
          (fun k => x0 (ix2 n k)) (fun k => x1 (ix2 n k)) q := by
  rw [v111_row]
  simp only [v105_apply x0 x3 x4 x5 x6 x7 x8 x9 x10 x11 x12 x13 x14 x15 x16 x17 x18 x19 x20 x21 x22 x23]
  rfl

end Pegcn.Ref

end
-- ==== Proof.RefTail1.lean ====
/-
  The reference's graph convolution on the host, read at an entry.

  The reference spells a convolution over the edge list with host operations: the degree factors are the reciprocal
  square root of (ones accumulated into zeros at the edges' target words, plus one); a convolution gathers the factors at
  the wrapped target and source words, multiplies them per edge, gathers the projected rows at the wrapped source words,
  scales each gathered row by its edge's product, accumulates the scaled rows into zeros at the target words, adds the
  node's own projected row times its squared factor, and adds the offset vector repeated down the rows. Read at an
  entry, the factors are the degree factors of the abstract network and one convolution is its symmetric-normalised
  convolution, for any projected array, factor vector and offset.
-/
import Idealize.ShloMosaic.PureOps.Ideal.Laws
import Idealize.ShloMosaic.Lib.ValueIdx
import Idealize.ShloMosaic.Lib.Pipeline.Value
import Idealize.ShloMosaic.Lib.IdealHost
import proofs.«171494_j72095321031133_2_alg».proof.Proof.Spec
import proofs.«171494_j72095321031133_2_alg».proof.Proof.EAlg
import proofs.«171494_j72095321031133_2_alg».proof.Proof.LibHostRead
import proofs.«171494_j72095321031133_2_alg».proof.Proof.LibGatherScatter
import proofs.«171494_j72095321031133_2_alg».proof.Proof.NetAlg
import proofs.«171494_j72095321031133_2_alg».proof.Proof.NetInst
import proofs.«171494_j72095321031133_2_alg».proof.Proof.RefEnc1
import proofs.«171494_j72095321031133_2_alg».proof.Proof.Gen.ReferenceIdeal

noncomputable section

namespace Pegcn.Ref

open Idealize.ShloMosaic Idealize.ShloMosaic.ValueIdx
open Cert.ReferenceIdeal Cert.ReferenceIdeal.Gen

/-- An i32 array of a host program. -/
abbrev ArrI (s : Shape) : Type := (⟨s, .i32⟩ : BufTy).Contents (Elt Ideal)

/-! ## A plain product -/

/-- A plain product on the host at (r, q): the row of the left operand against the column of the right. -/
theorem hostDot_apply {a k b : ℕ} (D : DotDims ⟨2, ![a, k]⟩ ⟨2, ![k, b]⟩ ⟨2, ![a, b]⟩) (hD : D = DotDims.plain a k b)
    (x : FVec Ideal ⟨2, ![a, k]⟩ .f32) (W : FVec Ideal ⟨2, ![k, b]⟩ .f32) (r : Fin a) (q : Fin b) :
    Host.dotGeneral (F := Ideal) D none x W (ix2 r q) = ∑ j : Fin k, x (ix2 r j) * W (ix2 j q) := by
  subst hD
  simp only [Host.dotGeneral]
  exact Gcn.Lib.plain_dotGeneral_apply x W none .single r q

/-! ## The degree factors -/

/-- The degree factors on the host: ones accumulated into zeros at the target words, plus one, reciprocal root. -/
def hostDeg (row : ArrI S2000000) : Arr S100000 :=
  Host.rsqrt
    (addf
      (Host.scatterAdd scatter_S100000_S2000000x1_S2000000_n_0_0_1
        (broadcastInDim S100000 ![] bcast_S_S100000 (constant (F := Ideal) S_ .f32 0x00000000#32))
        (broadcastInDim S2000000x1 ![0] bcast_S2000000_S2000000x1_0 row)
        (broadcastInDim S2000000 ![] bcast_S_S2000000 (constant (F := Ideal) S_ .f32 0x3F800000#32)))
      (broadcastInDim S100000 ![] bcast_S_S100000 (constant (F := Ideal) S_ .f32 0x3F800000#32)))

/-- At node n: the abstract network's degree factor, the count running over the edges whose target word is n. -/
theorem hostDeg_apply (row : ArrI S2000000) (n : Fin 100000) : hostDeg row (ix1 n) = Pegcn.Inst.deg row n := by
  unfold hostDeg
  rw [Hmu.Lib.hostRsqrt_apply, addf_apply,
    Pegcn.Lib.scatterAdd1_apply scatter_S100000_S2000000x1_S2000000_n_0_0_1 rfl rfl rfl rfl,
    Hmu.Lib.bcast_const_apply, Hmu.Lib.bcast_const_apply, Ideal.ofBits_zero_f32, Pegcn.Alg.ofBits_one]
  refine congrArg (fun s => Ideal.rsqrt ((0 + s) + 1)) ?_
  refine Finset.sum_congr (Finset.filter_congr fun j _ => ?_) fun j _ => ?_
  · obtain ⟨e, rfl⟩ : ∃ e, j = ix1 e := ⟨j 0, eq_ix1 j⟩
    show (broadcastInDim S2000000x1 ![0] bcast_S2000000_S2000000x1_0 row (ix2 e 0)).toInt = _ ↔ (row (ix1 e)).toInt = _
    rw [Hmu.Lib.bcast_a_a1_apply]
  · rw [Hmu.Lib.bcast_const_apply, Pegcn.Alg.ofBits_one]

/-! ## One convolution -/

/-- The wrap of negative index words before a gather, as the program spells it: where the word is signed-below the zero
    word, the word plus 100000, else the word. -/
def wrapV (v : ArrI S2000000) : ArrI S2000000 :=
  select (cmpi .slt v (broadcastInDim S2000000 ![] bcast_S_S2000000 (constantI S_ 32 0#32)))
    (addi v (broadcastInDim S2000000 ![] bcast_S_S2000000 (constantI S_ 32 100000#32))) v

/-- At edge e the wrapped vector holds the wrapped word. -/
theorem wrapV_apply (v : ArrI S2000000) (e : Fin 2000000) : wrapV v (ix1 e) = Pegcn.Inst.wrapW (v (ix1 e)) := rfl

/-- The node a gather reads at edge e through the column of wrapped words: the word wrapped, then clamped. -/
theorem clampCol (v : ArrI S2000000) (e : Fin 2000000)
    (h : min (broadcastInDim S2000000x1 ![0] bcast_S2000000_S2000000x1_0 (wrapV v) (ix2 e 0)).toInt.toNat (100000 - 1)
      < 100000) :
    (⟨min (broadcastInDim S2000000x1 ![0] bcast_S2000000_S2000000x1_0 (wrapV v) (ix2 e 0)).toInt.toNat (100000 - 1), h⟩
      : Fin 100000) = Pegcn.Inst.clampN (Pegcn.Inst.wrapW (v (ix1 e))) := by
  refine Fin.ext ?_
  show min (broadcastInDim S2000000x1 ![0] bcast_S2000000_S2000000x1_0 (wrapV v) (ix2 e 0)).toInt.toNat (100000 - 1)
    = min (Pegcn.Inst.wrapW (v (ix1 e))).toInt.toNat (100000 - 1)
  rw [Hmu.Lib.bcast_a_a1_apply]
  rfl

/-- The messages on the host: the projected rows gathered at the wrapped source words, each scaled by its edge's
    product of the factors gathered at the wrapped target and source words, repeated across the features. -/
def hostMsgs (dv : Arr S100000) (row col : ArrI S2000000) (xw : Arr S100000x64) : Arr S2000000x64 :=
  mulf (F := Ideal) (φ := .f32)
    (Host.gather gather_S100000x64_S2000000x1_S2000000x64_1_0_n_n_0_1_164 xw
      (broadcastInDim S2000000x1 ![0] bcast_S2000000_S2000000x1_0 (wrapV col)))
    (broadcastInDim S2000000x64 ![0, 1] bcast_S2000000x1_S2000000x64_0_1
      (broadcastInDim S2000000x1 ![0] bcast_S2000000_S2000000x1_0
        (mulf (F := Ideal) (φ := .f32)
          (Host.gather gather_S100000_S2000000x1_S2000000_n_0_n_n_0_1_1 dv
            (broadcastInDim S2000000x1 ![0] bcast_S2000000_S2000000x1_0 (wrapV row)))
          (Host.gather gather_S100000_S2000000x1_S2000000_n_0_n_n_0_1_1 dv
            (broadcastInDim S2000000x1 ![0] bcast_S2000000_S2000000x1_0 (wrapV col))))))

/-- A message: the projected entry of its source node and feature, times the factors of its target and source nodes. -/
theorem hostMsgs_apply (dv : Arr S100000) (row col : ArrI S2000000) (xw : Arr S100000x64) (u : Pegcn.Inst.UIdx) :
    hostMsgs dv row col xw u
      = xw (ix2 (Pegcn.Inst.src col u) (Pegcn.Inst.feat u))
        * (dv (ix1 (Pegcn.Inst.tgt row u)) * dv (ix1 (Pegcn.Inst.src col u))) := by
  obtain ⟨e, j, rfl⟩ : ∃ (e : Fin 2000000) (j : Fin 64), u = ix2 e j := ⟨u 0, u 1, eq_ix2 u⟩
  unfold hostMsgs
  rw [mulf_apply,
    Pegcn.Lib.gather2_apply (by decide) gather_S100000x64_S2000000x1_S2000000x64_1_0_n_n_0_1_164 rfl rfl rfl rfl rfl rfl,
    Hmu.Lib.bcastRows_apply, mulf_apply,
    Pegcn.Lib.gather1_apply (by decide) gather_S100000_S2000000x1_S2000000_n_0_n_n_0_1_1 rfl rfl rfl rfl rfl rfl,
    Pegcn.Lib.gather1_apply (by decide) gather_S100000_S2000000x1_S2000000_n_0_n_n_0_1_1 rfl rfl rfl rfl rfl rfl]
  rw [clampCol col e, clampCol row e]
  rfl

/-- One convolution on the host, from a factor vector, the two index vectors, a projected array and an offset. -/
def hostConv (dv : Arr S100000) (row col : ArrI S2000000) (xw : Arr S100000x64) (b : Arr S64) : Arr S100000x64 :=
  addf (F := Ideal) (φ := .f32)
    (addf (F := Ideal) (φ := .f32)
      (Host.scatterAdd scatter_S100000x64_S2000000x1_S2000000x64_1_0_0_1
        (broadcastInDim S100000x64 ![] bcast_S_S100000x64 (constant (F := Ideal) S_ .f32 0x00000000#32))
        (broadcastInDim S2000000x1 ![0] bcast_S2000000_S2000000x1_0 row)
        (hostMsgs dv row col xw))
      (mulf (F := Ideal) (φ := .f32) xw
        (broadcastInDim S100000x64 ![0, 1] bcast_S100000x1_S100000x64_0_1
          (broadcastInDim S100000x1 ![0] bcast_S100000_S100000x1_0 (mulf (F := Ideal) (φ := .f32) dv dv)))))
    (broadcastInDim S100000x64 ![0, 1] bcast_S1x64_S100000x64_0_1 (broadcastInDim S1x64 ![1] bcast_S64_S1x64_1 b))

/-- At (n, c): the abstract network's symmetric-normalised convolution, the messages those landing on (n, c). -/
theorem hostConv_apply (dv : Arr S100000) (row col : ArrI S2000000) (xw : Arr S100000x64) (b : Arr S64)
    (n : Fin 100000) (c : Fin 64) :
    hostConv dv row col xw b (ix2 n c)
      = Pegcn.Net.convR (Pegcn.Inst.landing row) (Pegcn.Inst.src col) (Pegcn.Inst.tgt row) Pegcn.Inst.feat
          (fun m => dv (ix1 m)) (fun m k => xw (ix2 m k)) (fun j => b (ix1 j)) n c := by
  unfold hostConv
  rw [addf_apply, addf_apply, Hmu.Lib.bcastCols_apply, mulf_apply, Hmu.Lib.bcastRows_apply, mulf_apply,
    Pegcn.Lib.scatterAdd2_apply scatter_S100000x64_S2000000x1_S2000000x64_1_0_0_1 rfl rfl rfl rfl,
    Hmu.Lib.bcast_const_apply, Ideal.ofBits_zero_f32]
  refine congrArg (fun s => ((0 + s) + xw (ix2 n c) * (dv (ix1 n) * dv (ix1 n))) + b (ix1 c)) ?_
  refine Finset.sum_congr (Finset.filter_congr fun u _ => ?_) fun u _ => hostMsgs_apply dv row col xw u
  obtain ⟨e, j, rfl⟩ : ∃ (e : Fin 2000000) (j : Fin 64), u = ix2 e j := ⟨u 0, u 1, eq_ix2 u⟩
  show (broadcastInDim S2000000x1 ![0] bcast_S2000000_S2000000x1_0 row (ix2 e 0)).toInt = _ ∧ _
    ↔ (row (ix1 e)).toInt = _ ∧ _
  rw [Hmu.Lib.bcast_a_a1_apply]

end Pegcn.Ref

end
-- ==== Proof.RefTail.lean ====
/-
  The reference's two graph convolutions and head, read at a node.

  After the first projection the reference computes the degree factors from the edges' target words, a first
  convolution of the projected rows with rectifier, a product with the second weight matrix, a second convolution with
  the same factors recomputed, and the 64-to-1 head with its offset. Each stage is one of the host stages read at an
  entry in the companion module; chaining them, the output at node n is the abstract reference network applied to the
  first projection, with the landing messages, source and target nodes read off the two index vectors.
-/
import proofs.«171494_j72095321031133_2_alg».proof.Proof.Spec
import proofs.«171494_j72095321031133_2_alg».proof.Proof.NetAlg
import proofs.«171494_j72095321031133_2_alg».proof.Proof.NetInst
import proofs.«171494_j72095321031133_2_alg».proof.Proof.RefEnc1
import proofs.«171494_j72095321031133_2_alg».proof.Proof.RefTail1
import proofs.«171494_j72095321031133_2_alg».proof.Proof.ReferenceIdealReadP

noncomputable section

namespace Pegcn.Ref

open Idealize.ShloMosaic Idealize.ShloMosaic.ValueIdx
open Cert.ReferenceIdeal Cert.ReferenceIdeal.Gen Cert.ReferenceIdeal.ReadP

variable (x0 : Arr S100000x2) (x1 : Arr S100000x3) (x2 : ArrI S2x2000000) (x3 : Arr S2x128) (x4 x5 x6 : Arr S128)
  (x7 : Arr S128x128) (x8 x9 x10 : Arr S128) (x11 : Arr S128x128) (x12 x13 x14 : Arr S128) (x15 : Arr S128x128)
  (x16 : Arr S128) (x17 : Arr S128x64) (x18 : Arr S64) (x19 : Arr S64x32) (x20 : Arr S32) (x21 : Arr S32x16)
  (x22 : Arr S16) (x23 : Arr S19x64) (x24 : Arr S64) (x25 : Arr S64x64) (x26 : Arr S64) (x27 : Arr S64x1) (x28 : Arr S1)

/-! ## The degree factors: operations 112 to 118, and again 157 to 163 -/

/-- The reference's factor vector at node n is the abstract network's degree factor over the target words. -/
theorem v118_apply (n : Fin 100000) :
    val_main_v118 (F := Ideal) x2 (ix1 n) = Pegcn.Inst.deg (val_main_v108 (F := Ideal) x2) n :=
  hostDeg_apply (val_main_v108 (F := Ideal) x2) n

/-- The second convolution recomputes the same vector. -/
theorem v163_eq : val_main_v163 (F := Ideal) x2 = val_main_v118 (F := Ideal) x2 := rfl

theorem v163_apply (n : Fin 100000) :
    val_main_v163 (F := Ideal) x2 (ix1 n) = Pegcn.Inst.deg (val_main_v108 (F := Ideal) x2) n :=
  hostDeg_apply (val_main_v108 (F := Ideal) x2) n

/-! ## First convolution, rectifier and second product: operations 119 to 156 -/

theorem v154_row (n : Fin 100000) (c : Fin 64) :
    val_main_v154 (F := Ideal) x0 x1 x2 x3 x4 x5 x6 x7 x8 x9 x10 x11 x12 x13 x14 x15 x16 x17 x18 x19 x20 x21 x22 x23 x24
        (ix2 n c)
      = Pegcn.Net.convR (Pegcn.Inst.landing (val_main_v108 (F := Ideal) x2)) (Pegcn.Inst.src (val_main_v110 (F := Ideal) x2))
          (Pegcn.Inst.tgt (val_main_v108 (F := Ideal) x2)) Pegcn.Inst.feat (Pegcn.Inst.deg (val_main_v108 (F := Ideal) x2))
          (fun m k => val_main_v111 (F := Ideal) x0 x1 x3 x4 x5 x6 x7 x8 x9 x10 x11 x12 x13 x14 x15 x16 x17 x18 x19 x20 x21 x22 x23 (ix2 m k))
          (fun j => x24 (ix1 j)) n c :=
  (hostConv_apply (val_main_v118 (F := Ideal) x2) (val_main_v108 (F := Ideal) x2) (val_main_v110 (F := Ideal) x2)
      (val_main_v111 (F := Ideal) x0 x1 x3 x4 x5 x6 x7 x8 x9 x10 x11 x12 x13 x14 x15 x16 x17 x18 x19 x20 x21 x22 x23) x24 n c).trans
    (congrArg (fun D => Pegcn.Net.convR _ _ _ _ D _ _ n c) (funext fun m => v118_apply x2 m))

theorem v155_row (n : Fin 100000) (c : Fin 64) :
    val_main_v155 (F := Ideal) x0 x1 x2 x3 x4 x5 x6 x7 x8 x9 x10 x11 x12 x13 x14 x15 x16 x17 x18 x19 x20 x21 x22 x23 x24
        (ix2 n c)
      = max (val_main_v154 (F := Ideal) x0 x1 x2 x3 x4 x5 x6 x7 x8 x9 x10 x11 x12 x13 x14 x15 x16 x17 x18 x19 x20 x21 x22
          x23 x24 (ix2 n c)) zeroW :=
  hostRelu_apply (s := S100000x64) bcast_S_S100000x64
    (val_main_v154 (F := Ideal) x0 x1 x2 x3 x4 x5 x6 x7 x8 x9 x10 x11 x12 x13 x14 x15 x16 x17 x18 x19 x20 x21 x22 x23 x24)
    (ix2 n c)

theorem v156_row (n : Fin 100000) (k : Fin 64) :
    val_main_v156 (F := Ideal) x0 x1 x2 x3 x4 x5 x6 x7 x8 x9 x10 x11 x12 x13 x14 x15 x16 x17 x18 x19 x20 x21 x22 x23 x24
        x25 (ix2 n k)
      = ∑ j : Fin 64,
          val_main_v155 (F := Ideal) x0 x1 x2 x3 x4 x5 x6 x7 x8 x9 x10 x11 x12 x13 x14 x15 x16 x17 x18 x19 x20 x21 x22 x23
              x24 (ix2 n j)
            * x25 (ix2 j k) :=
  hostDot_apply (a := 100000) (k := 64) (b := 64) dot_S100000x64_S64x64_S100000x64_1_0_0_1_n_n rfl
    (val_main_v155 (F := Ideal) x0 x1 x2 x3 x4 x5 x6 x7 x8 x9 x10 x11 x12 x13 x14 x15 x16 x17 x18 x19 x20 x21 x22 x23 x24)
    x25 n k

/-! ## Second convolution and head: operations 157 to 203 -/

theorem v199_row (n : Fin 100000) (c : Fin 64) :
    val_main_v199 (F := Ideal) x0 x1 x2 x3 x4 x5 x6 x7 x8 x9 x10 x11 x12 x13 x14 x15 x16 x17 x18 x19 x20 x21 x22 x23 x24
        x25 x26 (ix2 n c)
      = Pegcn.Net.convR (Pegcn.Inst.landing (val_main_v108 (F := Ideal) x2)) (Pegcn.Inst.src (val_main_v110 (F := Ideal) x2))
          (Pegcn.Inst.tgt (val_main_v108 (F := Ideal) x2)) Pegcn.Inst.feat (Pegcn.Inst.deg (val_main_v108 (F := Ideal) x2))
          (fun m k => val_main_v156 (F := Ideal) x0 x1 x2 x3 x4 x5 x6 x7 x8 x9 x10 x11 x12 x13 x14 x15 x16 x17 x18 x19 x20
            x21 x22 x23 x24 x25 (ix2 m k))
          (fun j => x26 (ix1 j)) n c :=
  (hostConv_apply (val_main_v163 (F := Ideal) x2) (val_main_v108 (F := Ideal) x2) (val_main_v110 (F := Ideal) x2)
      (val_main_v156 (F := Ideal) x0 x1 x2 x3 x4 x5 x6 x7 x8 x9 x10 x11 x12 x13 x14 x15 x16 x17 x18 x19 x20 x21 x22 x23 x24
        x25) x26 n c).trans
    (congrArg (fun D => Pegcn.Net.convR _ _ _ _ D _ _ n c) (funext fun m => v163_apply x2 m))

theorem v203_row (n : Fin 100000) (u : Fin 1) :
    val_main_v203 (F := Ideal) x0 x1 x2 x3 x4 x5 x6 x7 x8 x9 x10 x11 x12 x13 x14 x15 x16 x17 x18 x19 x20 x21 x22 x23 x24
        x25 x26 x27 x28 (ix2 n u)
      = affine (fun k : Fin 64 =>
          val_main_v199 (F := Ideal) x0 x1 x2 x3 x4 x5 x6 x7 x8 x9 x10 x11 x12 x13 x14 x15 x16 x17 x18 x19 x20 x21 x22 x23
            x24 x25 x26 (ix2 n k))
          (fun i j => x27 (ix2 i j)) (fun j => x28 (ix1 j)) u :=
  hostAffine_apply (a := 100000) (k := 64) (b := 1) dot_S100000x64_S64x1_S100000x1_1_0_0_1_n_n rfl
    bcast_S1_S1x1_1 bcast_S1x1_S100000x1_0_1
    (val_main_v199 (F := Ideal) x0 x1 x2 x3 x4 x5 x6 x7 x8 x9 x10 x11 x12 x13 x14 x15 x16 x17 x18 x19 x20 x21 x22 x23 x24
      x25 x26) x27 x28 n u

/-- The reference's output at node n is the abstract reference network applied to the first projection. -/
theorem v203_apply (n : Fin 100000) :
    val_main_v203 (F := Ideal) x0 x1 x2 x3 x4 x5 x6 x7 x8 x9 x10 x11 x12 x13 x14 x15 x16 x17 x18 x19 x20 x21 x22 x23 x24
        x25 x26 x27 x28 (ix2 n 0)
      = Pegcn.Net.refNet (Pegcn.Inst.landing (val_main_v108 (F := Ideal) x2))
          (Pegcn.Inst.src (val_main_v110 (F := Ideal) x2)) (Pegcn.Inst.tgt (val_main_v108 (F := Ideal) x2)) Pegcn.Inst.feat
          (Pegcn.Inst.deg (val_main_v108 (F := Ideal) x2))
          (fun m k => val_main_v111 (F := Ideal) x0 x1 x3 x4 x5 x6 x7 x8 x9 x10 x11 x12 x13 x14 x15 x16 x17 x18 x19 x20 x21 x22 x23 (ix2 m k))
          (fun j => x24 (ix1 j)) (fun j k => x25 (ix2 j k)) (fun k => x26 (ix1 k)) (fun k => x27 (ix2 k 0)) (x28 (ix1 0))
          n := by
  rw [v203_row]
  simp only [v199_row, v156_row, v155_row, v154_row]
  rfl

end Pegcn.Ref

end
-- ==== Proof.ParamsEq.lean ====
/-
  The two programs read the same weights.

  The kernel program hands its first region each parameter vector recast as a one-row matrix and the 19 x 64 weight
  matrix cut into its first three and its last sixteen rows; the reference uses the vectors and the matrix as they
  are. Read entry by entry the two give the same table of weights.
-/
import proofs.«171494_j72095321031133_2_alg».proof.Proof.KerBody0
import proofs.«171494_j72095321031133_2_alg».proof.Proof.RefEnc
import Idealize.ShloMosaic.Lib.ValueLayout

noncomputable section

namespace Pegcn

open Idealize.ShloMosaic Idealize.ShloMosaic.ValueIdx
open Cert.KernelIdeal

/-- Two weight tables with equal fields are equal. -/
theorem Params.eq_of {P Q : Params} (h1 : P.fw0 = Q.fw0) (h2 : P.fb0 = Q.fb0) (h3 : P.fg0 = Q.fg0) (h4 : P.fe0 = Q.fe0)
    (h5 : P.fw1 = Q.fw1) (h6 : P.fb1 = Q.fb1) (h7 : P.fg1 = Q.fg1) (h8 : P.fe1 = Q.fe1)
    (h9 : P.fw2 = Q.fw2) (h10 : P.fb2 = Q.fb2) (h11 : P.fg2 = Q.fg2) (h12 : P.fe2 = Q.fe2)
    (h13 : P.fw3 = Q.fw3) (h14 : P.fb3 = Q.fb3) (h15 : P.dw0 = Q.dw0) (h16 : P.db0 = Q.db0)
    (h17 : P.dw1 = Q.dw1) (h18 : P.db1 = Q.db1) (h19 : P.dw2 = Q.dw2) (h20 : P.db2 = Q.db2)
    (h21 : P.cwf = Q.cwf) (h22 : P.cwe = Q.cwe) : P = Q := by
  cases P; cases Q; simp only at *; subst_vars; rfl

/-- A vector recast as a one-row matrix reads, at column `q` of row 0, the vector at `q`. -/
theorem rowOf {a : ℕ} (x : (⟨1, ![a]⟩ : Shape).Idx → EReal) (h : (⟨1, ![a]⟩ : Shape).ShapeCasts ⟨2, ![1, a]⟩) :
    (fun q : Fin a => shapeCast ⟨2, ![1, a]⟩ x h (ix2 (0 : Fin 1) q)) = fun q => x (ix1 q) :=
  funext fun q => shapeCast_a_1a_apply x h 0 q

end Pegcn

namespace Cert.KernelIdeal.RunValue

open Idealize.ShloMosaic Idealize.ShloMosaic.TcCoe Idealize.ShloMosaic.ValueIdx Idealize.SL.Sem
open Cert.KernelIdeal Cert.KernelIdeal.Gen
open Pegcn

/-- THE WEIGHTS AGREE. -/
theorem params_eq (x3 : Vec Ideal S2x128 .f32) (x4 x5 x6 : Vec Ideal S128 .f32) (x7 : Vec Ideal S128x128 .f32) (x8 x9 x10 : Vec Ideal S128 .f32)
    (x11 : Vec Ideal S128x128 .f32) (x12 x13 x14 : Vec Ideal S128 .f32) (x15 : Vec Ideal S128x128 .f32) (x16 : Vec Ideal S128 .f32)
    (x17 : Vec Ideal S128x64 .f32) (x18 : Vec Ideal S64 .f32) (x19 : Vec Ideal S64x32 .f32) (x20 : Vec Ideal S32 .f32) (x21 : Vec Ideal S32x16 .f32)
    (x22 : Vec Ideal S16 .f32) (x23 : Vec Ideal S19x64 .f32) :
    Pegcn.Ker.blockParams x3 (shapeCast S1x128 x4 shapeCasts_S128_S1x128) (shapeCast S1x128 x5 shapeCasts_S128_S1x128) (shapeCast S1x128 x6 shapeCasts_S128_S1x128)
      x7 (shapeCast S1x128 x8 shapeCasts_S128_S1x128) (shapeCast S1x128 x9 shapeCasts_S128_S1x128) (shapeCast S1x128 x10 shapeCasts_S128_S1x128)
      x11 (shapeCast S1x128 x12 shapeCasts_S128_S1x128) (shapeCast S1x128 x13 shapeCasts_S128_S1x128) (shapeCast S1x128 x14 shapeCasts_S128_S1x128)
      x15 (shapeCast S1x128 x16 shapeCasts_S128_S1x128) x17 (shapeCast S1x64 x18 shapeCasts_S64_S1x64) x19 (shapeCast S1x32 x20 shapeCasts_S32_S1x32)
      x21 (shapeCast S1x16 x22 shapeCasts_S16_S1x16)
      (extractStridedSlice S3x64 ![0, 0] x23 slices_S19x64_S3x64_0_0) (extractStridedSlice S16x64 ![3, 0] x23 slices_S19x64_S16x64_3_0)
      = Pegcn.Ref.argParams x3 x4 x5 x6 x7 x8 x9 x10 x11 x12 x13 x14 x15 x16 x17 x18 x19 x20 x21 x22 x23 := by
  refine Params.eq_of rfl (rowOf x4 _) (rowOf x5 _) (rowOf x6 _) rfl (rowOf x8 _) (rowOf x9 _) (rowOf x10 _)
    rfl (rowOf x12 _) (rowOf x13 _) (rowOf x14 _) rfl (rowOf x16 _) rfl (rowOf x18 _) rfl (rowOf x20 _) rfl (rowOf x22 _) ?_ ?_
  · funext k q
    exact slice2_axis0_apply 0 x23 slices_S19x64_S3x64_0_0 k q ⟨k.val, by omega⟩ (Nat.zero_add _).symm
  · funext k q
    exact slice2_axis0_apply 3 x23 slices_S19x64_S16x64_3_0 k q ⟨3 + k.val, by omega⟩ rfl

end Cert.KernelIdeal.RunValue

end
-- ==== Proof.Bridge.lean ====
/-
  The idealized kernel program's network is the reference's.

  Over the same argument arrays: the kernel side's weights are the reference's (recasts and row slices read entry by
  entry), its first projection is the reference's stage 111, the edge list's target and source words are cut out the
  same way, and the abstract networks agree because every degree factor is non-negative and not `⊤` and a message
  that lands has its target's own factor.
-/
import proofs.«171494_j72095321031133_2_alg».proof.Proof.KerValue
import proofs.«171494_j72095321031133_2_alg».proof.Proof.RefEnc
import proofs.«171494_j72095321031133_2_alg».proof.Proof.RefTail
import proofs.«171494_j72095321031133_2_alg».proof.Proof.ParamsEq

noncomputable section

namespace Pegcn

open Idealize.ShloMosaic Idealize.ShloMosaic.ValueIdx
open Cert.KernelIdeal Cert.KernelIdeal.RunValue

/-- The kernel program's network over the arguments is the reference's last stage at `(n, 0)`. -/
theorem bridge (x0 : (⟨S100000x2, .f32⟩ : BufTy).Contents (Elt Ideal)) (x1 : (⟨S100000x3, .f32⟩ : BufTy).Contents (Elt Ideal)) (x2 : (⟨S2x2000000, .i32⟩ : BufTy).Contents (Elt Ideal))
    (x3 : (⟨S2x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 x13 x14 : (⟨S128, .f32⟩ : BufTy).Contents (Elt Ideal)) (x15 : (⟨S128x128, .f32⟩ : BufTy).Contents (Elt Ideal)) (x16 : (⟨S128, .f32⟩ : BufTy).Contents (Elt Ideal))
    (x17 : (⟨S128x64, .f32⟩ : BufTy).Contents (Elt Ideal)) (x18 : (⟨S64, .f32⟩ : BufTy).Contents (Elt Ideal)) (x19 : (⟨S64x32, .f32⟩ : BufTy).Contents (Elt Ideal)) (x20 : (⟨S32, .f32⟩ : BufTy).Contents (Elt Ideal)) (x21 : (⟨S32x16, .f32⟩ : BufTy).Contents (Elt Ideal))
    (x22 : (⟨S16, .f32⟩ : BufTy).Contents (Elt Ideal)) (x23 : (⟨S19x64, .f32⟩ : BufTy).Contents (Elt Ideal))
    (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64x1, .f32⟩ : BufTy).Contents (Elt Ideal)) (x28 : (⟨S1, .f32⟩ : BufTy).Contents (Elt Ideal)) (n : Fin 100000) :
    Pegcn.Net.kerNet (Pegcn.Inst.landing (rowVec x2)) (Pegcn.Inst.src (colVec x2)) Pegcn.Inst.feat
        (Pegcn.Inst.deg (rowVec x2)) (kA1X x0 x1 x3 x4 x5 x6 x7 x8 x9 x10 x11 x12 x13 x14 x15 x16 x17 x18 x19 x20 x21 x22 x23) (kCbX x24) (kCw2X x25) (kCbX x26) (kOwX x27) (kObX x28) n
      = Cert.ReferenceIdeal.ReadP.val_main_v203 (F := Ideal) x0 x1 x2 x3 x4 x5 x6 x7 x8 x9 x10 x11 x12 x13 x14 x15 x16 x17 x18 x19 x20 x21 x22 x23 x24 x25 x26 x27 x28 (ix2 n (0 : Fin 1)) := by
  rw [Pegcn.Ref.v203_apply x0 x1 x2 x3 x4 x5 x6 x7 x8 x9 x10 x11 x12 x13 x14 x15 x16 x17 x18 x19 x20 x21 x22 x23 x24 x25 x26 x27 x28 n]
  rw [Pegcn.Net.net_eq (r := Pegcn.Inst.tgt (rowVec x2)) (Pegcn.Inst.tgt_of_mem (rowVec x2)) (Pegcn.Inst.deg_ok (rowVec x2))]
  have hrow : rowVec x2 = Cert.ReferenceIdeal.ReadP.val_main_v108 (F := Ideal) x2 := rfl
  have hcol : colVec x2 = Cert.ReferenceIdeal.ReadP.val_main_v110 (F := Ideal) x2 := rfl
  have hA : kA1X x0 x1 x3 x4 x5 x6 x7 x8 x9 x10 x11 x12 x13 x14 x15 x16 x17 x18 x19 x20 x21 x22 x23
      = fun a k => Cert.ReferenceIdeal.ReadP.val_main_v111 (F := Ideal) x0 x1 x3 x4 x5 x6 x7 x8 x9 x10 x11 x12 x13 x14 x15 x16 x17 x18 x19 x20 x21 x22 x23 (ix2 a k) := by
    funext a k
    rw [Pegcn.Ref.v111_apply]
    unfold kA1X kerParamsX
    rw [params_eq]
  have hb1 : kCbX x24 = fun j => x24 (ix1 j) := rowOf x24 _
  have hb2 : kCbX x26 = fun j => x26 (ix1 j) := rowOf x26 _
  have hob : kObX x28 = x28 (ix1 (0 : Fin 1)) := shapeCast_a_1a_apply x28 _ 0 0
  rw [hrow, hcol, hA, hb1, hb2, hob]
  rfl

end Pegcn

end
-- ==== Proof.RefRun.lean ====
/-
  The reference's run, with its result named as the last stage of its operations.

  The run states the result as one composed term of the arguments; the stage-by-stage reading names the same value as
  the last of 249 stages. The two are the same term, unfolded.
-/
import proofs.«171494_j72095321031133_2_alg».proof.Proof.ReferenceIdealRunP
import proofs.«171494_j72095321031133_2_alg».proof.Proof.ReferenceIdealReadP

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 100000000 in
/-- The run's composed term is the last stage. -/
theorem res_eq (m : (ℓ : Loc nD τ sig) → Buf (Elt F) ℓ) (c : Dev nD) :
    Cert.ReferenceIdeal.ValueP.res_main_v203 m c
      = Cert.ReferenceIdeal.ReadP.val_main_v203 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  unfold Cert.ReferenceIdeal.ValueP.res_main_v203; rfl

end Cert.ReferenceIdeal.RunValue

end
-- ==== Proof.lean ====
/-
  The certificate of the graph network's three tiled kernels against the jnp reference, on the extended reals.

  Frames: each program terminates from any memory and leaves its argument arrays as launched (the kernel programs by
  their three regions' frames, the reference by its run). The idealization ledger is empty. Equal results: the
  kernel program's result array is, node by node, the network "pre-scale by the degree factor, aggregate, scale again
  inside the next kernel" and the reference's is the symmetric-normalised network; a degree factor is the reciprocal
  square root of a positive count, hence non-negative and not `⊤`, so it distributes over the sums and the two
  networks agree. The first projection, the weights and the edge list's index words are read the same on both sides.
-/
import proofs.«171494_j72095321031133_2_alg».proof.Defs
import proofs.«171494_j72095321031133_2_alg».proof.Proof.Gen.Kernel
import proofs.«171494_j72095321031133_2_alg».proof.Proof.Gen.KernelIdeal
import proofs.«171494_j72095321031133_2_alg».proof.Proof.Gen.ReferenceIdeal
import proofs.«171494_j72095321031133_2_alg».proof.Proof.Gen.Pre_finite_inputs
import proofs.«171494_j72095321031133_2_alg».proof.Proof.KernelFrameP
import proofs.«171494_j72095321031133_2_alg».proof.Proof.KernelIdealFrameP
import proofs.«171494_j72095321031133_2_alg».proof.Proof.KerRun
import proofs.«171494_j72095321031133_2_alg».proof.Proof.KerValue
import proofs.«171494_j72095321031133_2_alg».proof.Proof.Bridge
import proofs.«171494_j72095321031133_2_alg».proof.Proof.RefRun
import Idealize.ShloMosaic.Adequacy
import Idealize.ShloMosaic.Init

noncomputable section

namespace Cert.Proof

open Idealize.ShloMosaic Idealize.ShloMosaic.ValueIdx Idealize.SL.Sem

/-- The word-level kernel program terminates and keeps its arguments. -/
theorem frame_k : Cert.frame_Kernel := fun m ρ _ => Cert.Kernel.GenP.frame m ρ

/-- So does the idealized kernel program. -/
theorem frame_ki : Cert.frame_KernelIdeal := fun m ρ _ => Cert.KernelIdeal.GenP.frame m ρ

/-- And the idealized reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments both idealized programs end with the same result array. -/
theorem algebraic : Cert.algebraic_KernelIdeal_ReferenceIdeal := by
  intro m ρ m' ρ' _ hagree
  refine ⟨fun c => Cert.KernelIdeal.GenP.W6 m ρ c (Proc.devRef .tc Cert.KernelIdeal.main_v58),
    Cert.KernelIdeal.RunValue.run_result m ρ, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.RunValue.res_eq]
  obtain ⟨h0, h1, h2, h3, h4, h5, h6, h7, h8, h9, h10, h11, h12, h13, h14, h15, h16, h17, h18, h19, h20, h21, h22, h23, h24, h25, h26, h27, h28⟩ := hagree c
  rw [h0, h1, h2, h3, h4, h5, h6, h7, h8, h9, h10, h11, h12, h13, h14, h15, h16, h17, h18, h19, h20, h21, h22, h23, h24, h25, h26, h27, h28]
  funext i
  obtain ⟨n, u, rfl⟩ : ∃ (n : Fin 100000) (u : Fin 1), i = ix2 n u := ⟨i 0, i 1, eq_ix2 i⟩
  obtain rfl : u = 0 := Subsingleton.elim _ _
  rw [← Pegcn.bridge]
  exact (Cert.KernelIdeal.RunValue.ker_value m ρ c n).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
